-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S2x200000 : Shape := ⟨2, ![2, 200000]⟩
abbrev S200000x16 : Shape := ⟨2, ![200000, 16]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x768 : Shape := ⟨2, ![256, 768]⟩
abbrev S768 : Shape := ⟨1, ![768]⟩
abbrev S128x384 : Shape := ⟨2, ![128, 384]⟩
abbrev S384 : Shape := ⟨1, ![384]⟩
abbrev S272x1 : Shape := ⟨2, ![272, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S200000x16 : S_.BroadcastsInDim S200000x16 (![] : Fin 0 → Fin S200000x16.rank)
  reducesTo_S200000x16_S_d0_1 : S200000x16.ReducesTo [0, 1] S_
  bcast_S_S50000x128 : S_.BroadcastsInDim S50000x128 (![] : Fin 0 → Fin S50000x128.rank)
  reducesTo_S50000x128_S_d0_1 : S50000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S272x1 : S_.BroadcastsInDim S272x1 (![] : Fin 0 → Fin S272x1.rank)
  reducesTo_S272x1_S_d0_1 : S272x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S272x1 1) (main_c_39 : IVec S_ 1) : IVec S_ 1 :=
  let main_v102 : IVec S_ 1 := (fun x v => Host.reduce IntOp.andi x v reducesTo_S272x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S384 .f32) (main_arg21 : FVec F S384 .f32) (main_arg22 : FVec F S272x1 .f32) (main_arg23 : FVec F S1 .f32) (main_v83 : IVec S_ 1) (main_v84 : FVec F S128x384 .f32) (main_cst_32 : FVec F S_ .f32) : IVec S_ 1 :=
  let main_v85 : FVec F S128x384 .f32 := broadcastInDim S128x384 ![] bcast_S_S128x384 main_cst_32
  let main_v86 : IVec S128x384 1 := cmpf .olt main_v84 main_v85
  let main_c_33 : IVec S_ 1 := constantI S_ 1 1#1
  let main_v87 : IVec S_ 1 := (fun x v => Host.reduce IntOp.andi x v reducesTo_S128x384_S_d0_1 h_S_) main_v86 main_c_33
  let main_v88 : IVec S_ 1 := andi main_v83 main_v87
  let main_v89 : FVec F S384 .f32 := Host.absf main_arg20
  let main_cst_34 : FVec F S_ .f32 := constant S_ .f32 0x7F800000#32
  let main_v90 : FVec F S384 .f32 := broadcastInDim S384 ![] bcast_S_S384 main_cst_34
  let main_v91 : IVec S384 1 := cmpf .olt main_v89 main_v90
  let main_c_35 : IVec S_ 1 := constantI S_ 1 1#1
  let main_v92 : IVec S_ 1 := (fun x v => Host.reduce IntOp.andi x v reducesTo_S384_S_d0 h_S_) main_v91 main_c_35
  let main_v93 : IVec S_ 1 := andi main_v88 main_v92
  let main_v94 : FVec F S384 .f32 := Host.absf main_arg21
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : FVec F S272x1 .f32 := Host.absf main_arg22
  let main_cst_38 : FVec F S_ .f32 := constant S_ .f32 0x7F800000#32
  let main_v100 : FVec F S272x1 .f32 := broadcastInDim S272x1 ![] bcast_S_S272x1 main_cst_38
  let main_v101 : IVec S272x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v63 : IVec S_ 1) (main_v67 : IVec S_ 1) : IVec S_ 1 :=
  let main_v68 : IVec S_ 1 := andi main_v63 main_v67
  let main_v69 : FVec F S768 .f32 := Host.absf main_arg16
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768 .f32 := Host.absf main_arg17
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S128x384 .f32 := Host.absf main_arg18
  let main_cst_30 : FVec F S_ .f32 := constant S_ .f32 0x7F800000#32
  let main_v80 : FVec F S128x384 .f32 := broadcastInDim S128x384 ![] bcast_S_S128x384 main_cst_30
  let main_v81 : IVec S128x384 1 := cmpf .olt main_v79 main_v80
  let main_c_31 : IVec S_ 1 := constantI S_ 1 1#1
  let main_v82 : IVec S_ 1 := (fun x v => Host.reduce IntOp.andi x v reducesTo_S128x384_S_d0_1 h_S_) main_v81 main_c_31
  let main_v83 : IVec S_ 1 := andi main_v78 main_v82
  let main_v84 : FVec F S128x384 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x768 .f32 := Host.absf main_arg14
  let main_cst_22 : FVec F S_ .f32 := constant S_ .f32 0x7F800000#32
  let main_v60 : FVec F S256x768 .f32 := broadcastInDim S256x768 ![] bcast_S_S256x768 main_cst_22
  let main_v61 : IVec S256x768 1 := cmpf .olt main_v59 main_v60
  let main_c_23 : IVec S_ 1 := constantI S_ 1 1#1
  let main_v62 : IVec S_ 1 := (fun x v => Host.reduce IntOp.andi x v reducesTo_S256x768_S_d0_1 h_S_) main_v61 main_c_23
  let main_v63 : IVec S_ 1 := andi main_v58 main_v62
  let main_v64 : FVec F S256x768 .f32 := Host.absf main_arg15
  let main_cst_24 : FVec F S_ .f32 := constant S_ .f32 0x7F800000#32
  let main_v65 : FVec F S256x768 .f32 := broadcastInDim S256x768 ![] bcast_S_S256x768 main_cst_24
  let main_v66 : IVec S256x768 1 := cmpf .olt main_v64 main_v65
  let main_c_25 : IVec S_ 1 := constantI S_ 1 1#1
  let main_v67 : IVec S_ 1 := (fun x v => Host.reduce IntOp.andi x v reducesTo_S256x768_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x256 .f32) (main_arg11 : FVec F S256 .f32) (main_arg12 : FVec F S256x128 .f32) (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S128x256 .f32) (main_arg11 : FVec F S256 .f32) (main_arg12 : FVec F S256x128 .f32) (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x256 .f32) (main_arg1 : IVec S2x800000 32) (main_arg2 : IVec S2x200000 32) (main_arg3 : FVec F S200000x16 .f32) (main_arg4 : FVec F S50000x256 .f32) (main_arg5 : FVec F S50000x128 .f32) (main_arg6 : FVec F S256x256 .f32) (main_arg7 : FVec F S256 .f32) (main_arg8 : FVec F S256x128 .f32) (main_arg9 : FVec F S128 .f32) (main_arg10 : FVec F S128x256 .f32) (main_arg11 : FVec F S256 .f32) (main_arg12 : FVec F S256x128 .f32) (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S200000x16 .f32 := Host.absf main_arg3
  let main_cst_0 : FVec F S_ .f32 := constant S_ .f32 0x7F800000#32
  let main_v5 : FVec F S200000x16 .f32 := broadcastInDim S200000x16 ![] bcast_S_S200000x16 main_cst_0
  let main_v6 : IVec S200000x16 1 := cmpf .olt main_v4 main_v5
  let main_c_1 : IVec S_ 1 := constantI S_ 1 1#1
  let main_v7 : IVec S_ 1 := (fun x v => Host.reduce IntOp.andi x v reducesTo_S200000x16_S_d0_1 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x128 .f32 := Host.absf main_arg5
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x256 : Shape := ⟨2, ![50000, 256]⟩
abbrev S2x800000 : Shape := ⟨2, ![2, 800000]⟩
abbrev S2x200000 : Shape := ⟨2, ![2, 200000]⟩
abbrev S200000x16 : Shape := ⟨2, ![200000, 16]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x768 : Shape := ⟨2, ![256, 768]⟩
abbrev S768 : Shape := ⟨1, ![768]⟩
abbrev S128x384 : Shape := ⟨2, ![128, 384]⟩
abbrev S384 : Shape := ⟨1, ![384]⟩
abbrev S272x1 : Shape := ⟨2, ![272, 1]⟩
abbrev S1 : Shape := ⟨1, ![1]⟩
abbrev S1x256 : Shape := ⟨2, ![1, 256]⟩
abbrev S1x128 : Shape := ⟨2, ![1, 128]⟩
abbrev S1000x256 : Shape := ⟨2, ![1000, 256]⟩
abbrev S1000x128 : Shape := ⟨2, ![1000, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x768 : Shape := ⟨2, ![1, 768]⟩
abbrev S1000x768 : Shape := ⟨2, ![1000, 768]⟩
abbrev S1x384 : Shape := ⟨2, ![1, 384]⟩
abbrev S2000x128 : Shape := ⟨2, ![2000, 128]⟩
abbrev S2000x384 : Shape := ⟨2, ![2000, 384]⟩
abbrev S128x1 : Shape := ⟨2, ![128, 1]⟩
abbrev S16x1 : Shape := ⟨2, ![16, 1]⟩
abbrev S50000x1 : Shape := ⟨2, ![50000, 1]⟩
abbrev S1x200000 : Shape := ⟨2, ![1, 200000]⟩
abbrev S200000 : Shape := ⟨1, ![200000]⟩
abbrev S200000x1 : Shape := ⟨2, ![200000, 1]⟩
abbrev S1x1 : Shape := ⟨2, ![1, 1]⟩

abbrev nBuf : Space → Nat
  | .hbm => 148
  | .vmem => 40
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S200000x16, .f32⟩
  | 4 => ⟨S50000x256, .f32⟩
  | 5 => ⟨S50000x128, .f32⟩
  | 6 => ⟨S256x256, .f32⟩
  | 7 => ⟨S256, .f32⟩
  | 8 => ⟨S256x128, .f32⟩
  | 9 => ⟨S128, .f32⟩
  | 10 => ⟨S128x256, .f32⟩
  | 11 => ⟨S256, .f32⟩
  | 12 => ⟨S256x128, .f32⟩
  | 13 => ⟨S128, .f32⟩
  | 14 => ⟨S256x768, .f32⟩
  | 15 => ⟨S256x768, .f32⟩
  | 16 => ⟨S768, .f32⟩
  | 17 => ⟨S768, .f32⟩
  | 18 => ⟨S128x384, .f32⟩
  | 19 => ⟨S128x384, .f32⟩
  | 20 => ⟨S384, .f32⟩
  | 21 => ⟨S384, .f32⟩
  | 22 => ⟨S272x1, .f32⟩
  | 23 => ⟨S1, .f32⟩
  | 24 => ⟨S1x256, .f32⟩
  | 25 => ⟨S1x128, .f32⟩
  | 26 => ⟨S50000x128, .f32⟩
  | 27 => ⟨S1x800000, .i32⟩
  | 28 => ⟨S800000, .i32⟩
  | 29 => ⟨S1x800000, .i32⟩
  | 30 => ⟨S800000, .i32⟩
  | 31 => ⟨S50000, .i32⟩
  | 32 => ⟨S850000, .i32⟩
  | 33 => ⟨S850000, .i32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S_, .f32⟩
  | 41 => ⟨S50000, .f32⟩
  | 42 => ⟨S50000, .i1⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x128, .f32⟩
  | 76 => ⟨S850000x1, .f32⟩
  | 77 => ⟨S850000x128, .f32⟩
  | 78 => ⟨S850000x128, .f32⟩
  | 79 => ⟨S_, .f32⟩
  | 80 => ⟨S50000x128, .f32⟩
  | 81 => ⟨S850000x1, .i32⟩
  | 82 => ⟨S50000x128, .f32⟩
  | 83 => ⟨S1x256, .f32⟩
  | 84 => ⟨S50000x256, .f32⟩
  | 85 => ⟨S1x768, .f32⟩
  | 86 => ⟨S1x768, .f32⟩
  | 87 => ⟨S50000x256, .f32⟩
  | 88 => ⟨S_, .f32⟩
  | 89 => ⟨S128, .f32⟩
  | 90 => ⟨S1x128, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S1x384, .f32⟩
  | 112 => ⟨S1x384, .f32⟩
  | 113 => ⟨S50000x128, .f32⟩
  | 114 => ⟨S128x1, .f32⟩
  | 115 => ⟨S128x1, .f32⟩
  | 116 => ⟨S16x1, .f32⟩
  | 117 => ⟨S50000x1, .f32⟩
  | 118 => ⟨S50000x1, .f32⟩
  | 119 => ⟨S1x200000, .i32⟩
  | 120 => ⟨S200000, .i32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S50000x256, .f32⟩

abbrev hbmTy0_1 (i : Nat) : BufTy := match i % 128 with
  | 0 => ⟨S200000x1, .i32⟩
  | 1 => ⟨S200000x1, .f32⟩
  | 2 => ⟨S1x200000, .i32⟩
  | 3 => ⟨S200000, .i32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x1, .f32⟩
  | 13 => ⟨S200000x1, .f32⟩
  | 14 => ⟨S200000x1, .f32⟩
  | 15 => ⟨S200000x1, .f32⟩
  | 16 => ⟨S1x1, .f32⟩
  | 17 => ⟨S200000x1, .f32⟩
  | 18 => ⟨S200000x1, .f32⟩
  | 19 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x256, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S256x768, .f32⟩
  | .local _ .vmem, ⟨19, _⟩ => ⟨S256x768, .f32⟩
  | .local _ .vmem, ⟨20, _⟩ => ⟨S1x768, .f32⟩
  | .local _ .vmem, ⟨21, _⟩ => ⟨S1x768, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S256x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x384, .f32⟩
  | .local _ .vmem, ⟨35, _⟩ => ⟨S128x384, .f32⟩
  | .local _ .vmem, ⟨36, _⟩ => ⟨S1x384, .f32⟩
  | .local _ .vmem, ⟨37, _⟩ => ⟨S1x384, .f32⟩
  | .local _ .vmem, ⟨38, _⟩ => ⟨S2000x128, .f32⟩
  | .local _ .vmem, ⟨39, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_3 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_6 : Ref sig .tc := ⟨.hbm, 67, rfl⟩
abbrev main_v33 : Ref sig .tc := ⟨.hbm, 68, rfl⟩
abbrev main_v34 : Ref sig .tc := ⟨.hbm, 69, rfl⟩
abbrev main_c_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_9 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_12 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_13 : Ref sig .tc := ⟨.hbm, 121, rfl⟩
abbrev main_v80 : Ref sig .tc := ⟨.hbm, 122, rfl⟩
abbrev main_v81 : Ref sig .tc := ⟨.hbm, 123, rfl⟩
abbrev main_c_14 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_15 : Ref sig .tc := ⟨.hbm, 132, rfl⟩
abbrev main_v89 : Ref sig .tc := ⟨.hbm, 133, rfl⟩
abbrev main_v90 : Ref sig .tc := ⟨.hbm, 134, rfl⟩
abbrev main_c_16 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S256_S1x256 : S256.ShapeCasts S1x256
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  shapeCasts_S768_S1x768 : S768.ShapeCasts S1x768
  shapeCasts_S1000x256_S1000x256 : S1000x256.ShapeCasts S1000x256
  inb_S256x768_S256x768_0_0 : ∀ a, (![0, 0] : Fin 2 → Nat) a + S256x768.size a ≤ S256x768.size a
  h_S256x768 : 0 < S256x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S272x1_S128x1_0_0 : S272x1.Slices ![0, 0] S128x1
  slices_S272x1_S128x1_128_0 : S272x1.Slices ![128, 0] S128x1
  slices_S272x1_S16x1_256_0 : S272x1.Slices ![256, 0] S16x1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1000x128_S128x256_S1000x256_1_0_0_1_n_n_wf : DotDims.WF S1000x128 S128x256 S1000x256 [1] [0] [0] [1] [] []
  dot_S1000x256_S256x768_S1000x768_1_0_0_1_n_n_wf : DotDims.WF S1000x256 S256x768 S1000x768 [1] [0] [0] [1] [] []
  dot_S2000x128_S128x384_S2000x384_1_0_0_1_n_n_wf : DotDims.WF S2000x128 S128x384 S2000x384 [1] [0] [0] [1] [] []
  dot_S50000x128_S128x1_S50000x1_1_0_0_1_n_n_wf : DotDims.WF S50000x128 S128x1 S50000x1 [1] [0] [0] [1] [] []
  gather_S50000x1_S200000x1_S200000x1_1_0_n_n_0_1_11_wf : GatherDims.WF S50000x1 S200000x1 S200000x1 [1] [0] [] [0] [] 1 ![1, 1]
  dot_S200000x16_S16x1_S200000x1_1_0_0_1_n_n_wf : DotDims.WF S200000x16 S16x1 S200000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x768.size a ≤ S256x768.size a
  hwx2_2 : ∀ i : grid2.Coords, EltTy.bits .f32 = 32 ∨ (Rect.block (s := S256x768) S256x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x768.size a ≤ S256x768.size a
  hwx2_3 : ∀ i : grid2.Coords, EltTy.bits .f32 = 32 ∨ (Rect.block (s := S256x768) S256x768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S50000x256.size a
  hwx2_6 : ∀ i : grid2.Coords, EltTy.bits .f32 = 32 ∨ (Rect.block (s := S50000x256) S1000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x384.size a ≤ S128x384.size a
  hwx4_2 : ∀ i : grid4.Coords, EltTy.bits .f32 = 32 ∨ (Rect.block (s := S128x384) S128x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S200000x1_S200000x1_1_0_n_n_0_1_11 : GatherDims S50000x1 S200000x1 S200000x1 where
  offsetDims := [1]
  collapsedSliceDims := [0]
  operandBatchingDims := []
  startIndicesBatchingDims := []
  startIndexMap := [0]
  indexVectorDim := 1
  sliceSizes := ![1, 1]
  wf := gather_S50000x1_S200000x1_S200000x1_1_0_n_n_0_1_11_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S256x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S128x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S2x200000 : Shape := ⟨2, ![2, 200000]⟩
abbrev S200000x16 : Shape := ⟨2, ![200000, 16]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x768 : Shape := ⟨2, ![256, 768]⟩
abbrev S768 : Shape := ⟨1, ![768]⟩
abbrev S128x384 : Shape := ⟨2, ![128, 384]⟩
abbrev S384 : Shape := ⟨1, ![384]⟩
abbrev S272x1 : Shape := ⟨2, ![272, 1]⟩
abbrev S1 : Shape := ⟨1, ![1]⟩
abbrev S1x256 : Shape := ⟨2, ![1, 256]⟩
abbrev S_ : Shape := ⟨0, ![]⟩
abbrev S1x128 : Shape := ⟨2, ![1, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S50000x768 : Shape := ⟨2, ![50000, 768]⟩
abbrev S1x768 : Shape := ⟨2, ![1, 768]⟩
abbrev S850000x128 : Shape := ⟨2, ![850000, 128]⟩
abbrev S50000x384 : Shape := ⟨2, ![50000, 384]⟩
abbrev S1x384 : Shape := ⟨2, ![1, 384]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x272 : Shape := ⟨2, ![200000, 272]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S200000x16, .f32⟩
  | 4 => ⟨S50000x256, .f32⟩
  | 5 => ⟨S50000x128, .f32⟩
  | 6 => ⟨S256x256, .f32⟩
  | 7 => ⟨S256, .f32⟩
  | 8 => ⟨S256x128, .f32⟩
  | 9 => ⟨S128, .f32⟩
  | 10 => ⟨S128x256, .f32⟩
  | 11 => ⟨S256, .f32⟩
  | 12 => ⟨S256x128, .f32⟩
  | 13 => ⟨S128, .f32⟩
  | 14 => ⟨S256x768, .f32⟩
  | 15 => ⟨S256x768, .f32⟩
  | 16 => ⟨S768, .f32⟩
  | 17 => ⟨S768, .f32⟩
  | 18 => ⟨S128x384, .f32⟩
  | 19 => ⟨S128x384, .f32⟩
  | 20 => ⟨S384, .f32⟩
  | 21 => ⟨S384, .f32⟩
  | 22 => ⟨S272x1, .f32⟩
  | 23 => ⟨S1, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S_, .f32⟩
  | 30 => ⟨S50000x256, .f32⟩
  | 31 => ⟨S50000x256, .i1⟩
  | 32 => ⟨S_, .f32⟩
  | 33 => ⟨S50000x256, .f32⟩
  | 34 => ⟨S50000x256, .f32⟩
  | 35 => ⟨S50000x256, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S_, .f32⟩
  | 42 => ⟨S50000x128, .f32⟩
  | 43 => ⟨S50000x128, .i1⟩
  | 44 => ⟨S_, .f32⟩
  | 45 => ⟨S50000x128, .f32⟩
  | 46 => ⟨S50000x128, .f32⟩
  | 47 => ⟨S50000x128, .f32⟩
  | 48 => ⟨S1x800000, .i32⟩
  | 49 => ⟨S800000, .i32⟩
  | 50 => ⟨S1x800000, .i32⟩
  | 51 => ⟨S800000, .i32⟩
  | 52 => ⟨S50000, .i32⟩
  | 53 => ⟨S850000, .i32⟩
  | 54 => ⟨S850000, .i32⟩
  | 55 => ⟨S_, .f32⟩
  | 56 => ⟨S850000, .f32⟩
  | 57 => ⟨S_, .f32⟩
  | 58 => ⟨S50000, .f32⟩
  | 59 => ⟨S850000x1, .i32⟩
  | 60 => ⟨S50000, .f32⟩
  | 61 => ⟨S_, .f32⟩
  | 62 => ⟨S50000, .f32⟩
  | 63 => ⟨S50000, .i1⟩
  | 64 => ⟨S50000, .f32⟩
  | 65 => ⟨S_, .f32⟩
  | 66 => ⟨S_, .f32⟩
  | 67 => ⟨S50000, .f32⟩
  | 68 => ⟨S50000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S850000, .f32⟩
  | 88 => ⟨S50000x256, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x256, .f32⟩
  | 98 => ⟨S850000x1, .f32⟩
  | 99 => ⟨S850000x256, .f32⟩
  | 100 => ⟨S850000x256, .f32⟩
  | 101 => ⟨S_, .f32⟩
  | 102 => ⟨S50000x256, .f32⟩
  | 103 => ⟨S850000x1, .i32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S_, .f32⟩
  | 110 => ⟨S50000x256, .f32⟩
  | 111 => ⟨S50000x256, .i1⟩
  | 112 => ⟨S_, .f32⟩
  | 113 => ⟨S50000x256, .f32⟩
  | 114 => ⟨S50000x256, .f32⟩
  | 115 => ⟨S50000x256, .f32⟩
  | 116 => ⟨S50000x768, .f32⟩
  | 117 => ⟨S1x768, .f32⟩
  | 118 => ⟨S50000x768, .f32⟩
  | 119 => ⟨S50000x768, .f32⟩
  | 120 => ⟨S50000x768, .f32⟩
  | 121 => ⟨S1x768, .f32⟩
  | 122 => ⟨S50000x768, .f32⟩
  | 123 => ⟨S50000x768, .f32⟩
  | 124 => ⟨S50000x256, .f32⟩
  | 125 => ⟨S50000x256, .f32⟩
  | 126 => ⟨S50000x256, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S50000x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S_, .f32⟩
  | 9 => ⟨S50000x256, .f32⟩
  | 10 => ⟨S50000x256, .f32⟩
  | 11 => ⟨S50000x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S_, .f32⟩
  | 18 => ⟨S50000x256, .f32⟩
  | 19 => ⟨S50000x256, .f32⟩
  | 20 => ⟨S50000x256, .f32⟩
  | 21 => ⟨S50000x256, .f32⟩
  | 22 => ⟨S50000x256, .f32⟩
  | 23 => ⟨S_, .f32⟩
  | 24 => ⟨S50000x256, .f32⟩
  | 25 => ⟨S50000x256, .f32⟩
  | 26 => ⟨S50000x256, .f32⟩
  | 27 => ⟨S50000x256, .f32⟩
  | 28 => ⟨S50000x256, .f32⟩
  | 29 => ⟨S1x800000, .i32⟩
  | 30 => ⟨S800000, .i32⟩
  | 31 => ⟨S1x800000, .i32⟩
  | 32 => ⟨S800000, .i32⟩
  | 33 => ⟨S50000, .i32⟩
  | 34 => ⟨S850000, .i32⟩
  | 35 => ⟨S850000, .i32⟩
  | 36 => ⟨S_, .f32⟩
  | 37 => ⟨S850000, .f32⟩
  | 38 => ⟨S_, .f32⟩
  | 39 => ⟨S50000, .f32⟩
  | 40 => ⟨S850000x1, .i32⟩
  | 41 => ⟨S50000, .f32⟩
  | 42 => ⟨S_, .f32⟩
  | 43 => ⟨S50000, .f32⟩
  | 44 => ⟨S50000, .i1⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S850000, .f32⟩
  | 69 => ⟨S50000x128, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .f32⟩
  | 79 => ⟨S850000x1, .f32⟩
  | 80 => ⟨S850000x128, .f32⟩
  | 81 => ⟨S850000x128, .f32⟩
  | 82 => ⟨S_, .f32⟩
  | 83 => ⟨S50000x128, .f32⟩
  | 84 => ⟨S850000x1, .i32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .f32⟩
  | 96 => ⟨S50000x128, .f32⟩
  | 97 => ⟨S50000x384, .f32⟩
  | 98 => ⟨S1x384, .f32⟩
  | 99 => ⟨S50000x384, .f32⟩
  | 100 => ⟨S50000x384, .f32⟩
  | 101 => ⟨S50000x384, .f32⟩
  | 102 => ⟨S1x384, .f32⟩
  | 103 => ⟨S50000x384, .f32⟩
  | 104 => ⟨S50000x384, .f32⟩
  | 105 => ⟨S50000x128, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x256, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S200000x272, .f32⟩
  | 33 => ⟨S200000x1, .f32⟩
  | 34 => ⟨S1x1, .f32⟩
  | 35 => ⟨S200000x1, .f32⟩
  | 36 => ⟨S200000x1, .f32⟩
  | 37 => ⟨S200000, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_cst_2 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_3 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_v24 : Ref sig .tc := ⟨.hbm, 68, rfl⟩
abbrev main_c : Ref sig .tc := ⟨.hbm, 69, rfl⟩
abbrev main_v25 : Ref sig .tc := ⟨.hbm, 70, rfl⟩
abbrev main_v26 : Ref sig .tc := ⟨.hbm, 71, rfl⟩
abbrev main_c_5 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_6 : Ref sig .tc := ⟨.hbm, 78, rfl⟩
abbrev main_v32 : Ref sig .tc := ⟨.hbm, 79, rfl⟩
abbrev main_v33 : Ref sig .tc := ⟨.hbm, 80, rfl⟩
abbrev main_c_7 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_8 : Ref sig .tc := ⟨.hbm, 89, rfl⟩
abbrev main_v41 : Ref sig .tc := ⟨.hbm, 90, rfl⟩
abbrev main_v42 : Ref sig .tc := ⟨.hbm, 91, rfl⟩
abbrev main_c_9 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_10 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_11 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_12 : Ref sig .tc := ⟨.hbm, 133, rfl⟩
abbrev main_v75 : Ref sig .tc := ⟨.hbm, 134, rfl⟩
abbrev main_v76 : Ref sig .tc := ⟨.hbm, 135, rfl⟩
abbrev main_cst_13 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_14 : Ref sig .tc := ⟨.hbm, 142, rfl⟩
abbrev main_v82 : Ref sig .tc := ⟨.hbm, 143, rfl⟩
abbrev main_v83 : Ref sig .tc := ⟨.hbm, 144, rfl⟩
abbrev main_cst_15 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_16 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_17 : Ref sig .tc := ⟨.hbm, 164, rfl⟩
abbrev main_v101 : Ref sig .tc := ⟨.hbm, 165, rfl⟩
abbrev main_cst_18 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_19 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_20 : Ref sig .tc := ⟨.hbm, 174, rfl⟩
abbrev main_call4_v0 : Ref sig .tc := ⟨.hbm, 175, rfl⟩
abbrev main_call4_v1 : Ref sig .tc := ⟨.hbm, 176, rfl⟩
abbrev main_v108 : Ref sig .tc := ⟨.hbm, 177, rfl⟩
abbrev main_c_21 : Ref sig .tc := ⟨.hbm, 178, rfl⟩
abbrev main_v109 : Ref sig .tc := ⟨.hbm, 179, rfl⟩
abbrev main_v110 : Ref sig .tc := ⟨.hbm, 180, rfl⟩
abbrev main_c_22 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_23 : Ref sig .tc := ⟨.hbm, 187, rfl⟩
abbrev main_v116 : Ref sig .tc := ⟨.hbm, 188, rfl⟩
abbrev main_v117 : Ref sig .tc := ⟨.hbm, 189, rfl⟩
abbrev main_c_24 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_c_25 : Ref sig .tc := ⟨.hbm, 198, rfl⟩
abbrev main_v125 : Ref sig .tc := ⟨.hbm, 199, rfl⟩
abbrev main_v126 : Ref sig .tc := ⟨.hbm, 200, rfl⟩
abbrev main_c_26 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_cst_27 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_28 : Ref sig .tc := ⟨.hbm, 217, rfl⟩
abbrev main_call5_cst : Ref sig .tc := ⟨.hbm, 218, rfl⟩
abbrev main_call5_v0 : Ref sig .tc := ⟨.hbm, 219, rfl⟩
abbrev main_call5_v1 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_cst_29 : Ref sig .tc := ⟨.hbm, 242, rfl⟩
abbrev main_v159 : Ref sig .tc := ⟨.hbm, 243, rfl⟩
abbrev main_v160 : Ref sig .tc := ⟨.hbm, 244, rfl⟩
abbrev main_cst_30 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_31 : Ref sig .tc := ⟨.hbm, 251, rfl⟩
abbrev main_v166 : Ref sig .tc := ⟨.hbm, 252, rfl⟩
abbrev main_v167 : Ref sig .tc := ⟨.hbm, 253, rfl⟩
abbrev main_cst_32 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_cst_33 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_c_34 : Ref sig .tc := ⟨.hbm, 268, rfl⟩
abbrev main_v180 : Ref sig .tc := ⟨.hbm, 269, rfl⟩
abbrev main_v181 : Ref sig .tc := ⟨.hbm, 270, rfl⟩
abbrev main_c_35 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_c_36 : Ref sig .tc := ⟨.hbm, 279, rfl⟩
abbrev main_v189 : Ref sig .tc := ⟨.hbm, 280, rfl⟩
abbrev main_v190 : Ref sig .tc := ⟨.hbm, 281, rfl⟩
abbrev main_c_37 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  bcast_S850000x1_S850000x128_0_1 : S850000x1.BroadcastsInDim S850000x128 (![0, 1] : Fin 2 → Fin S850000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x16_S200000x272_d1 : Shape.Concatenates [S200000x128, S200000x128, S200000x16] S200000x272 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x768_S50000x768_1_0_0_1_n_n_wf : DotDims.WF S50000x256 S256x768 S50000x768 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x384_S50000x384_1_0_0_1_n_n_wf : DotDims.WF S50000x128 S128x384 S50000x384 [1] [0] [0] [1] [] []
  gather_S50000x128_S200000x1_S200000x128_1_0_n_n_0_1_1128_wf : GatherDims.WF S50000x128 S200000x1 S200000x128 [1] [0] [] [0] [] 1 ![1, 128]
  dot_S200000x272_S272x1_S200000x1_1_0_0_1_n_n_wf : DotDims.WF S200000x272 S272x1 S200000x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x272_S272x1_S200000x1_1_0_0_1_n_n : DotDims S200000x272 S272x1 S200000x1 where
  lhsContracting := [1]
  rhsContracting := [0]
  lhsNonContracting := [0]
  rhsNonContracting := [1]
  lhsBatch := []
  rhsBatch := []
  wf := dot_S200000x272_S272x1_S200000x1_1_0_0_1_n_n_wf

class Facts : Prop extends Facts₀ where

variable [Facts]
-- ==== Proof.Spec.lean ====
/-
  The stages of the network as whole-array functions, written once with the host operations the plain-jnp
  program applies: two dense layers with a leaky rectifier (slope the f32 nearest 1/100), the symmetric
  normalisation of the graph with self loops (in-degrees by a scatter-add of ones, d^(-1/2) where the degree
  is positive, one coefficient per edge), the aggregation of rows along the edges (gather a row per edge,
  scale it, scatter-add it at the edge's target), the gated recurrent cell, and the edge scores.
  Both programs are read against these terms.
-/
import proofs.«175486_j44117904065163_2_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-! ## The leaky rectifier and the row-broadcast of a bias -/

/-- x where x ≥ 0, else slope · x, on [50000, 256]. -/
def lrelu256 (x : FVec F S50000x256 .f32) : FVec F S50000x256 .f32 :=
  select (cmpf .oge x (broadcastInDim S50000x256 ![] bcast_S_S50000x256 (constant S_ .f32 0x00000000#32))) x
    (mulf (broadcastInDim S50000x256 ![] bcast_S_S50000x256 (constant S_ .f32 0x3C23D70A#32)) x)

/-- x where x ≥ 0, else slope · x, on [50000, 128]. -/
def lrelu128 (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (constant S_ .f32 0x3C23D70A#32)) x)

def bias256 (b : FVec F S256 .f32) : FVec F S50000x256 .f32 :=
  broadcastInDim S50000x256 ![0, 1] bcast_S1x256_S50000x256_0_1 (broadcastInDim S1x256 ![1] bcast_S256_S1x256_1 b)
def bias128 (b : FVec F S128 .f32) : FVec F S50000x128 .f32 :=
  broadcastInDim S50000x128 ![0, 1] bcast_S1x128_S50000x128_0_1 (broadcastInDim S1x128 ![1] bcast_S128_S1x128_1 b)
def bias768 (b : FVec F S768 .f32) : FVec F S50000x768 .f32 :=
  broadcastInDim S50000x768 ![0, 1] bcast_S1x768_S50000x768_0_1 (broadcastInDim S1x768 ![1] bcast_S768_S1x768_1 b)
def bias384 (b : FVec F S384 .f32) : FVec F S50000x384 .f32 :=
  broadcastInDim S50000x384 ![0, 1] bcast_S1x384_S50000x384_0_1 (broadcastInDim S1x384 ![1] bcast_S384_S1x384_1 b)

/-! ## Dense layers: x · W + b -/

def dense_256_256 (x : FVec F S50000x256 .f32) (w : FVec F S256x256 .f32) (b : FVec F S256 .f32) : FVec F S50000x256 .f32 :=
  addf (Host.dotGeneral dot_S50000x256_S256x256_S50000x256_1_0_0_1_n_n none x w) (bias256 b)
def dense_256_128 (x : FVec F S50000x256 .f32) (w : FVec F S256x128 .f32) (b : FVec F S128 .f32) : FVec F S50000x128 .f32 :=
  addf (Host.dotGeneral dot_S50000x256_S256x128_S50000x128_1_0_0_1_n_n none x w) (bias128 b)
def dense_128_256 (x : FVec F S50000x128 .f32) (w : FVec F S128x256 .f32) (b : FVec F S256 .f32) : FVec F S50000x256 .f32 :=
  addf (Host.dotGeneral dot_S50000x128_S128x256_S50000x256_1_0_0_1_n_n none x w) (bias256 b)

/-- The two dense layers in front of the graph layers. -/
def prelayer (x : FVec F S50000x256 .f32) (w1 : FVec F S256x256 .f32) (b1 : FVec F S256 .f32)
    (w2 : FVec F S256x128 .f32) (b2 : FVec F S128 .f32) : FVec F S50000x128 .f32 :=
  lrelu128 (dense_256_128 (lrelu256 (dense_256_256 x w1 b1)) w2 b2)

/-! ## The graph: sources and targets with self loops, and the edge coefficients -/

/-- The edges' sources followed by the nodes themselves. -/
def srcs (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0
/-- The edges' targets followed by the nodes themselves. -/
def tgts (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A negative index counted from the end: i + 50000 where i < 0, as a column of start indices. -/
def wrap (i : IVec S850000 32) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- In-degrees with self loops: ones scatter-added at the targets. -/
def deg (t : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 t)
    (broadcastInDim S850000 ![] bcast_S_S850000 (constant S_ .f32 0x3F800000#32))

/-- d^(-1/2) where d > 0, else 0. -/
def dinv (d : FVec F S50000 .f32) : FVec F S50000 .f32 :=
  select (cmpf .ogt d (broadcastInDim S50000 ![] bcast_S_S50000 (constant S_ .f32 0x00000000#32))) (Host.rsqrt d)
    (broadcastInDim S50000 ![] bcast_S_S50000 (constant S_ .f32 0x00000000#32))

/-- One coefficient per edge: dinv at its source times dinv at its target. -/
def coef (dv : FVec F S50000 .f32) (s t : IVec S850000 32) : FVec F S850000 .f32 :=
  mulf (Host.gather gather_S50000_S850000x1_S850000_n_0_n_n_0_1_1 dv (wrap s))
    (Host.gather gather_S50000_S850000x1_S850000_n_0_n_n_0_1_1 dv (wrap t))

/-- The edge coefficients of an edge list. -/
def norm (e : IVec S2x800000 32) : FVec F S850000 .f32 := coef (dinv (deg (tgts e))) (srcs e) (tgts e)

/-! ## Aggregation along the edges -/

/-- Row n of the result is the sum over the edges into n of the source's row times the edge's coefficient (128 columns). -/
def agg128 (h : FVec F S50000x128 .f32) (s t : IVec S850000 32) (nrm : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 t)
    (mulf (Host.gather gather_S50000x128_S850000x1_S850000x128_1_0_n_n_0_1_1128 h (wrap s))
      (broadcastInDim S850000x128 ![0, 1] bcast_S850000x1_S850000x128_0_1 (broadcastInDim S850000x1 ![0] bcast_S850000_S850000x1_0 nrm)))

/-- The same with 256 columns. -/
def agg256 (h : FVec F S50000x256 .f32) (s t : IVec S850000 32) (nrm : FVec F S850000 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 t)
    (mulf (Host.gather gather_S50000x256_S850000x1_S850000x256_1_0_n_n_0_1_1256 h (wrap s))
      (broadcastInDim S850000x256 ![0, 1] bcast_S850000x1_S850000x256_0_1 (broadcastInDim S850000x1 ![0] bcast_S850000_S850000x1_0 nrm)))

/-- Graph layer 1 as the plain program writes it: transform, then aggregate, then the bias. -/
def gcn1 (h : FVec F S50000x128 .f32) (e : IVec S2x800000 32) (w : FVec F S128x256 .f32) (b : FVec F S256 .f32) : FVec F S50000x256 .f32 :=
  addf (agg256 (Host.dotGeneral dot_S50000x128_S128x256_S50000x256_1_0_0_1_n_n none h w) (srcs e) (tgts e) (norm e)) (bias256 b)

/-- Graph layer 2: transform, aggregate, bias. -/
def gcn2 (h : FVec F S50000x256 .f32) (e : IVec S2x800000 32) (w : FVec F S256x128 .f32) (b : FVec F S128 .f32) : FVec F S50000x128 .f32 :=
  addf (agg128 (Host.dotGeneral dot_S50000x256_S256x128_S50000x128_1_0_0_1_n_n none h w) (srcs e) (tgts e) (norm e)) (bias128 b)

/-! ## The gated recurrent cell -/

def one256 : FVec F S50000x256 .f32 := broadcastInDim S50000x256 ![] bcast_S_S50000x256 (constant S_ .f32 0x3F800000#32)
def one128 : FVec F S50000x128 .f32 := broadcastInDim S50000x128 ![] bcast_S_S50000x128 (constant S_ .f32 0x3F800000#32)

/-- 1 / (1 + e^(-x)) written with negate, exponential, add and divide. -/
def sigm256 (x : FVec F S50000x256 .f32) : FVec F S50000x256 .f32 := Host.divf one256 (addf one256 (Host.exp (Host.negf x)))
def sigm128 (x : FVec F S50000x128 .f32) : FVec F S50000x128 .f32 := Host.divf one128 (addf one128 (Host.exp (Host.negf x)))

/-- The cell of width 256: gates r, z, n from gi = x·Wih + bih and gh = h·Whh + bhh, result (1 − z)·n + z·h. -/
def gru256 (x h : FVec F S50000x256 .f32) (wih whh : FVec F S256x768 .f32) (bih bhh : FVec F S768 .f32) : FVec F S50000x256 .f32 :=
  let gi := addf (Host.dotGeneral dot_S50000x256_S256x768_S50000x768_1_0_0_1_n_n none x wih) (bias768 bih)
  let gh := addf (Host.dotGeneral dot_S50000x256_S256x768_S50000x768_1_0_0_1_n_n none h whh) (bias768 bhh)
  let r := sigm256 (addf (extractStridedSlice S50000x256 ![0, 0] gi slices_S50000x768_S50000x256_0_0) (extractStridedSlice S50000x256 ![0, 0] gh slices_S50000x768_S50000x256_0_0))
  let z := sigm256 (addf (extractStridedSlice S50000x256 ![0, 256] gi slices_S50000x768_S50000x256_0_256) (extractStridedSlice S50000x256 ![0, 256] gh slices_S50000x768_S50000x256_0_256))
  let n := Host.tanh (addf (extractStridedSlice S50000x256 ![0, 512] gi slices_S50000x768_S50000x256_0_512)
    (mulf r (extractStridedSlice S50000x256 ![0, 512] gh slices_S50000x768_S50000x256_0_512)))
  addf (mulf (subf one256 z) n) (mulf z h)

/-- The cell of width 128. -/
def gru128 (x h : FVec F S50000x128 .f32) (wih whh : FVec F S128x384 .f32) (bih bhh : FVec F S384 .f32) : FVec F S50000x128 .f32 :=
  let gi := addf (Host.dotGeneral dot_S50000x128_S128x384_S50000x384_1_0_0_1_n_n none x wih) (bias384 bih)
  let gh := addf (Host.dotGeneral dot_S50000x128_S128x384_S50000x384_1_0_0_1_n_n none h whh) (bias384 bhh)
  let r := sigm128 (addf (extractStridedSlice S50000x128 ![0, 0] gi slices_S50000x384_S50000x128_0_0) (extractStridedSlice S50000x128 ![0, 0] gh slices_S50000x384_S50000x128_0_0))
  let z := sigm128 (addf (extractStridedSlice S50000x128 ![0, 128] gi slices_S50000x384_S50000x128_0_128) (extractStridedSlice S50000x128 ![0, 128] gh slices_S50000x384_S50000x128_0_128))
  let n := Host.tanh (addf (extractStridedSlice S50000x128 ![0, 256] gi slices_S50000x384_S50000x128_0_256)
    (mulf r (extractStridedSlice S50000x128 ![0, 256] gh slices_S50000x384_S50000x128_0_256)))
  addf (mulf (subf one128 z) n) (mulf z h)

/-! ## The edge scores -/

/-- A label edge's endpoint as a column of start indices (negative counted from the end). -/
def wrapQ (i : IVec S200000 32) : IVec S200000x1 32 :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 50000#32))) i)

def endp0 (q : IVec S2x200000 32) : IVec S200000 32 :=
  shapeCast S200000 (extractStridedSlice S1x200000 ![0, 0] q slices_S2x200000_S1x200000_0_0) shapeCasts_S1x200000_S200000
def endp1 (q : IVec S2x200000 32) : IVec S200000 32 :=
  shapeCast S200000 (extractStridedSlice S1x200000 ![1, 0] q slices_S2x200000_S1x200000_1_0) shapeCasts_S1x200000_S200000

/-- The scores as the plain program writes them: the two endpoint rows and the edge attributes side by side,
    times the weight column, plus the bias, flattened. -/
def scores (h : FVec F S50000x128 .f32) (q : IVec S2x200000 32) (ea : FVec F S200000x16 .f32)
    (w : FVec F S272x1 .f32) (b : FVec F S1 .f32) : FVec F S200000 .f32 :=
  shapeCast S200000
    (addf (Host.dotGeneral dot_S200000x272_S272x1_S200000x1_1_0_0_1_n_n none
        (concatenate S200000x272 1 [⟨S200000x128, Host.gather gather_S50000x128_S200000x1_S200000x128_1_0_n_n_0_1_1128 h (wrapQ (endp0 q))⟩,
          ⟨S200000x128, Host.gather gather_S50000x128_S200000x1_S200000x128_1_0_n_n_0_1_1128 h (wrapQ (endp1 q))⟩,
          ⟨S200000x16, ea⟩] concatenates_S200000x128_S200000x128_S200000x16_S200000x272_d1) w)
      (broadcastInDim S200000x1 ![0, 1] bcast_S1x1_S200000x1_0_1 (broadcastInDim S1x1 ![1] bcast_S1_S1x1_1 b)))
    shapeCasts_S200000x1_S200000

/-! ## The three results -/

def emb1 (x : FVec F S50000x256 .f32) (e : IVec S2x800000 32) (prev1 : FVec F S50000x256 .f32)
    (w1 : FVec F S256x256 .f32) (b1 : FVec F S256 .f32) (w2 : FVec F S256x128 .f32) (b2 : FVec F S128 .f32)
    (cw1 : FVec F S128x256 .f32) (cb1 : FVec F S256 .f32)
    (wih whh : FVec F S256x768 .f32) (bih bhh : FVec F S768 .f32) : FVec F S50000x256 .f32 :=
  gru256 (lrelu256 (gcn1 (prelayer x w1 b1 w2 b2) e cw1 cb1)) prev1 wih whh bih bhh

def emb2 (e1 : FVec F S50000x256 .f32) (e : IVec S2x800000 32) (prev2 : FVec F S50000x128 .f32)
    (cw2 : FVec F S256x128 .f32) (cb2 : FVec F S128 .f32)
    (wih whh : FVec F S128x384 .f32) (bih bhh : FVec F S384 .f32) : FVec F S50000x128 .f32 :=
  gru128 (lrelu128 (gcn2 e1 e cw2 cb2)) prev2 wih whh bih bhh

end Cert.Spec

end
-- ==== Proof.SpecK.lean ====
/-
  The edge scores as the kernel's program computes them around its last region: the weight column cut into the
  parts that meet the source's row, the target's row and the edge attributes; one number per node from each of the
  first two parts; those numbers gathered at the label edges' endpoints and added to the attributes' part and the bias.
-/
import proofs.«175486_j44117904065163_2_alg».proof.Proof.Gen.KernelIdeal

noncomputable section

namespace Cert.SpecK

open Idealize.ShloMosaic Cert.KernelIdeal Cert.KernelIdeal.Facts₀ Cert.KernelIdeal.Facts

variable {F : FTy → Type} [FloatOps F]

/-- A label edge's endpoint as a column of start indices (negative counted from the end). -/
def wrapQ (i : IVec S200000 32) : IVec S200000x1 32 :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 50000#32))) i)

def endp0 (q : IVec S2x200000 32) : IVec S200000 32 :=
  shapeCast S200000 (extractStridedSlice S1x200000 ![0, 0] q slices_S2x200000_S1x200000_0_0) shapeCasts_S1x200000_S200000
def endp1 (q : IVec S2x200000 32) : IVec S200000 32 :=
  shapeCast S200000 (extractStridedSlice S1x200000 ![1, 0] q slices_S2x200000_S1x200000_1_0) shapeCasts_S1x200000_S200000

/-- The scores from the node embeddings h, the label edges q, the edge attributes, the weight column and the bias. -/
def scores (h : FVec F S50000x128 .f32) (q : IVec S2x200000 32) (ea : FVec F S200000x16 .f32)
    (w : FVec F S272x1 .f32) (b : FVec F S1 .f32) : FVec F S200000 .f32 :=
  shapeCast S200000
    (addf
      (addf
        (addf
          (Host.gather gather_S50000x1_S200000x1_S200000x1_1_0_n_n_0_1_11
            (Host.dotGeneral dot_S50000x128_S128x1_S50000x1_1_0_0_1_n_n none h (extractStridedSlice S128x1 ![0, 0] w slices_S272x1_S128x1_0_0))
            (wrapQ (endp0 q)))
          (Host.gather gather_S50000x1_S200000x1_S200000x1_1_0_n_n_0_1_11
            (Host.dotGeneral dot_S50000x128_S128x1_S50000x1_1_0_0_1_n_n none h (extractStridedSlice S128x1 ![128, 0] w slices_S272x1_S128x1_128_0))
            (wrapQ (endp1 q))))
        (Host.dotGeneral dot_S200000x16_S16x1_S200000x1_1_0_0_1_n_n none ea (extractStridedSlice S16x1 ![256, 0] w slices_S272x1_S16x1_256_0)))
      (broadcastInDim S200000x1 ![0, 1] bcast_S1x1_S200000x1_0_1 (broadcastInDim S1x1 ![1] bcast_S1_S1x1_1 b)))
    shapeCasts_S200000x1_S200000

end Cert.SpecK

end
-- ==== Proof.KStretch.lean ====
/-
  The kernel program's host stretches read one at a time from an arbitrary valuation of the buffers: which
  references a stretch writes (every other reference keeps what it held), and what each stretch leaves in the
  buffers that the next region or a later stretch reads, as the stages of the network applied to what the stretch
  found.
-/
import proofs.«175486_j44117904065163_2_alg».proof.Proof.Gen.KernelIdeal.Frame
import proofs.«175486_j44117904065163_2_alg».proof.Proof.Spec
import proofs.«175486_j44117904065163_2_alg».proof.Proof.SpecK
import Idealize.ShloMosaic.Lib.StableHlo.Run
import Idealize.ShloMosaic.PureOps.Ideal

noncomputable section

namespace Cert.KernelIdeal.KStretch

open Cert.KernelIdeal Cert.KernelIdeal.Gen
open Idealize.ShloMosaic Idealize.ShloMosaic.TcCoe Idealize.SL.Sem Idealize.ShloMosaic.StableHlo

/-! ## What each stretch writes, and that it writes nothing else -/

/-- Every reference that the stretch before region 0 writes. -/
def written0 : List (Ref sig .tc) :=
  [main_v0, main_v1]

/-- A reference that the stretch before region 0 does not write keeps its contents. -/
theorem keep0 (W : Valuation τ sig (Elt Ideal)) (r : Ref sig .tc) (h : r ∉ written0) :
    after (hostOps0 (F := Ideal)) W (Proc.devRef .tc r) = W (Proc.devRef .tc r) :=
  after_of_writes_sub _ W (by
    simp only [hostOps0, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the stretch after region 0, up to the outlined select writes. -/
def written1 : List (Ref sig .tc) :=
  [main_v3, main_v4, main_v5, main_v6, main_v7, main_v8, main_v9, main_cst, main_v10, main_cst_0,
    main_v11, main_v12, main_v13, main_cst_1, main_v14, main_v15, main_v16, main_cst_2]

/-- A reference that the stretch after region 0, up to the outlined select does not write keeps its contents. -/
theorem keep1 (W : Valuation τ sig (Elt Ideal)) (r : Ref sig .tc) (h : r ∉ written1) :
    after (hostOps1 (F := Ideal)) W (Proc.devRef .tc r) = W (Proc.devRef .tc r) :=
  after_of_writes_sub _ W (by
    simp only [hostOps1, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the outlined select writes. -/
def written1_1 : List (Ref sig .tc) :=
  [main_call0_v0, main_call0_v1, main_v17]

/-- A reference that the outlined select does not write keeps its contents. -/
theorem keep1_1 (W : Valuation τ sig (Elt Ideal)) (r : Ref sig .tc) (h : r ∉ written1_1) :
    after (hostOps1_1 (F := Ideal)) W (Proc.devRef .tc r) = W (Proc.devRef .tc r) :=
  after_of_writes_sub _ W (by
    simp only [hostOps1_1, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the stretch from the outlined select to region 1 writes. -/
def written1_2 : List (Ref sig .tc) :=
  [main_c, main_v18, main_v19, main_c_3, main_v20, main_v21, main_v22, main_v23, main_v24, main_c_4,
    main_v25, main_v26, main_c_5, main_v27, main_v28, main_v29, main_v30, main_v31, main_v32, main_c_6,
    main_v33, main_v34, main_c_7, main_v35, main_v36, main_v37, main_v38, main_v39, main_v40, main_v41,
    main_v42, main_cst_8, main_v43, main_v44, main_v45, main_v46]

/-- A reference that the stretch from the outlined select to region 1 does not write keeps its contents. -/
theorem keep1_2 (W : Valuation τ sig (Elt Ideal)) (r : Ref sig .tc) (h : r ∉ written1_2) :
    after (hostOps1_2 (F := Ideal)) W (Proc.devRef .tc r) = W (Proc.devRef .tc r) :=
  after_of_writes_sub _ W (by
    simp only [hostOps1_2, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the stretch before region 2 writes. -/
def written2 : List (Ref sig .tc) :=
  [main_v48, main_v49]

/-- A reference that the stretch before region 2 does not write keeps its contents. -/
theorem keep2 (W : Valuation τ sig (Elt Ideal)) (r : Ref sig .tc) (h : r ∉ written2) :
    after (hostOps2 (F := Ideal)) W (Proc.devRef .tc r) = W (Proc.devRef .tc r) :=
  after_of_writes_sub _ W (by
    simp only [hostOps2, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the stretch before region 3 writes. -/
def written3 : List (Ref sig .tc) :=
  [main_cst_9, main_v51, main_v52]

/-- A reference that the stretch before region 3 does not write keeps its contents. -/
theorem keep3 (W : Valuation τ sig (Elt Ideal)) (r : Ref sig .tc) (h : r ∉ written3) :
    after (hostOps3 (F := Ideal)) W (Proc.devRef .tc r) = W (Proc.devRef .tc r) :=
  after_of_writes_sub _ W (by
    simp only [hostOps3, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the stretch before region 4 writes. -/
def written4 : List (Ref sig .tc) :=
  [main_c_10, main_v54, main_v55, main_c_11, main_v56, main_v57, main_v58, main_v59, main_v60, main_v61,
    main_v62, main_v63, main_cst_12, main_v64, main_v65, main_v66, main_v67, main_v68, main_v69, main_v70,
    main_v71]

/-- A reference that the stretch before region 4 does not write keeps its contents. -/
theorem keep4 (W : Valuation τ sig (Elt Ideal)) (r : Ref sig .tc) (h : r ∉ written4) :
    after (hostOps4 (F := Ideal)) W (Proc.devRef .tc r) = W (Proc.devRef .tc r) :=
  after_of_writes_sub _ W (by
    simp only [hostOps4, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-- Every reference that the last stretch writes. -/
def written5 : List (Ref sig .tc) :=
  [main_v73, main_v74, main_v75, main_v76, main_v77, main_v78, main_v79, main_c_13, main_v80, main_v81,
    main_c_14, main_v82, main_v83, main_v84, main_v85, main_v86, main_v87, main_v88, main_c_15, main_v89,
    main_v90, main_c_16, main_v91, main_v92, main_v93, main_v94, main_v95, main_v96, main_v97, main_v98,
    main_v99, main_v100, main_v101, main_v102]

/-- A reference that the last stretch does not write keeps its contents. -/
theorem keep5 (W : Valuation τ sig (Elt Ideal)) (r : Ref sig .tc) (h : r ∉ written5) :
    after (hostOps5 (F := Ideal)) W (Proc.devRef .tc r) = W (Proc.devRef .tc r) :=
  after_of_writes_sub _ W (by
    simp only [hostOps5, List.Forall, nullary_writes, unary_writes, binary_writes, ternary_writes, quaternary_writes,
      reshape_writes, binaryIndexed_writes, Finset.singleton_subset_iff, List.mem_toFinset]
    repeat' apply And.intro
    all_goals exact List.mem_map_of_mem (by decide)) h

/-! ## What each stretch leaves -/

/-- Before region 0: the two dense layers' biases as rows. -/
theorem st0 (W : Valuation τ sig (Elt Ideal)) :
    after (hostOps0 (F := Ideal)) W (Proc.devRef .tc main_v0) = shapeCast S1x256 (W (Proc.devRef .tc main_arg7)) shapeCasts_S256_S1x256
    ∧ after (hostOps0 (F := Ideal)) W (Proc.devRef .tc main_v1) = shapeCast S1x128 (W (Proc.devRef .tc main_arg9)) shapeCasts_S128_S1x128 := by
  simp only [hostOps0]
  refine ⟨?_, ?_⟩ <;> after_results_simp <;> rfl

/-- Before region 2: the first cell's two biases as rows. -/
theorem st2 (W : Valuation τ sig (Elt Ideal)) :
    after (hostOps2 (F := Ideal)) W (Proc.devRef .tc main_v48) = shapeCast S1x768 (W (Proc.devRef .tc main_arg16)) shapeCasts_S768_S1x768
    ∧ after (hostOps2 (F := Ideal)) W (Proc.devRef .tc main_v49) = shapeCast S1x768 (W (Proc.devRef .tc main_arg17)) shapeCasts_S768_S1x768 := by
  simp only [hostOps2]
  refine ⟨?_, ?_⟩ <;> after_results_simp <;> rfl

/-- Before region 3: a row of zeros. -/
theorem st3 (W : Valuation τ sig (Elt Ideal)) :
    after (hostOps3 (F := Ideal)) W (Proc.devRef .tc main_v52)
      = shapeCast S1x128 (broadcastInDim S128 ![] bcast_S_S128 (constant (F := Ideal) S_ .f32 0x00000000#32)) shapeCasts_S128_S1x128 := by
  simp only [hostOps3]
  after_results_simp
  rfl

/-- Before region 4: the second graph layer's aggregation plus its bias, and the second cell's two biases as rows. -/
theorem st4 (W : Valuation τ sig (Elt Ideal)) :
    after (hostOps4 (F := Ideal)) W (Proc.devRef .tc main_v69)
        = addf (Cert.Spec.agg128 (F := Ideal) (W (Proc.devRef .tc main_v53)) (W (Proc.devRef .tc main_v8)) (W (Proc.devRef .tc main_v9))
            (W (Proc.devRef .tc main_v32))) (Cert.Spec.bias128 (W (Proc.devRef .tc main_arg13)))
    ∧ after (hostOps4 (F := Ideal)) W (Proc.devRef .tc main_v70) = shapeCast S1x384 (W (Proc.devRef .tc main_arg20)) shapeCasts_S384_S1x384
    ∧ after (hostOps4 (F := Ideal)) W (Proc.devRef .tc main_v71) = shapeCast S1x384 (W (Proc.devRef .tc main_arg21)) shapeCasts_S384_S1x384 := by
  simp only [hostOps4]
  refine ⟨?_, ?_, ?_⟩ <;> after_results_simp <;> rfl

/-- The last stretch: the edge scores as the kernel's program computes them. -/
theorem st5 (W : Valuation τ sig (Elt Ideal)) :
    after (hostOps5 (F := Ideal)) W (Proc.devRef .tc main_v102)
      = Cert.SpecK.scores (F := Ideal) (W (Proc.devRef .tc main_v72)) (W (Proc.devRef .tc main_arg2)) (W (Proc.devRef .tc main_arg3))
          (W (Proc.devRef .tc main_arg22)) (W (Proc.devRef .tc main_arg23)) := by
  simp only [hostOps5]
  after_results_simp
  rfl

end Cert.KernelIdeal.KStretch

end
-- ==== Proof.KStretch1.lean ====
/-
  The kernel's host stretches read one at a time from an arbitrary valuation of the buffers: what each stretch leaves
  in the buffers the next region (or a later stretch) reads, as the stages of the network applied to what the
  stretch found. The graph's index lists are concatenations; a stretch is read in two parts around them.
-/
import proofs.«175486_j44117904065163_2_alg».proof.Proof.Gen.KernelIdeal.Frame
import proofs.«175486_j44117904065163_2_alg».proof.Proof.Spec
import proofs.«175486_j44117904065163_2_alg».proof.Proof.SpecK
import Idealize.ShloMosaic.Lib.StableHlo.Run
import Idealize.ShloMosaic.PureOps.Ideal

noncomputable section
namespace Cert.KernelIdeal.KChain
open Cert.KernelIdeal Cert.KernelIdeal.Gen
open Idealize.ShloMosaic Idealize.ShloMosaic.TcCoe Idealize.SL.Sem Idealize.ShloMosaic.StableHlo

/-- Folding a line of operations cut in two: the second part from what the first leaves. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The sources and the targets (with the self loops) from the two rows of the edge list and the node numbers. -/
def cat (a : IVec S800000 32) (b : IVec S50000 32) : IVec S850000 32 :=
  concatenate S850000 0 [⟨S800000, a⟩, ⟨S50000, b⟩] concatenates_S800000_S50000_S850000_d0

/-- The first five operations of the stretch after region 0: the two rows of the edge list, flattened, and the node numbers. -/
theorem st1A (W : Valuation τ sig (Elt Ideal)) :
    after ((hostOps1 (F := Ideal)).take 5) W (Proc.devRef .tc main_v4)
        = shapeCast S800000 (extractStridedSlice S1x800000 ![0, 0] (W (Proc.devRef .tc main_arg1)) slices_S2x800000_S1x800000_0_0) shapeCasts_S1x800000_S800000
    ∧ after ((hostOps1 (F := Ideal)).take 5) W (Proc.devRef .tc main_v6)
        = shapeCast S800000 (extractStridedSlice S1x800000 ![1, 0] (W (Proc.devRef .tc main_arg1)) slices_S2x800000_S1x800000_1_0) shapeCasts_S1x800000_S800000
    ∧ after ((hostOps1 (F := Ideal)).take 5) W (Proc.devRef .tc main_v7) = iotaInDim S50000 32 0
    ∧ after ((hostOps1 (F := Ideal)).take 5) W (Proc.devRef .tc main_v2) = (W (Proc.devRef .tc main_v2))
    ∧ after ((hostOps1 (F := Ideal)).take 5) W (Proc.devRef .tc main_arg11) = (W (Proc.devRef .tc main_arg11))
    ∧ after ((hostOps1 (F := Ideal)).take 5) W (Proc.devRef .tc main_arg10) = (W (Proc.devRef .tc main_arg10)) := by
  simp only [hostOps1, List.take]
  refine ⟨?_, ?_, ?_, ?_, ?_, ?_⟩ <;> (after_results_simp) <;> rfl

/-- The rest of that stretch from what the first five left: sources, targets, the degrees' comparison and inverse root. -/
theorem st1B (W : Valuation τ sig (Elt Ideal)) :
    after ((hostOps1 (F := Ideal)).drop 5) W (Proc.devRef .tc main_v8) = cat (W (Proc.devRef .tc main_v4)) (W (Proc.devRef .tc main_v7))
    ∧ after ((hostOps1 (F := Ideal)).drop 5) W (Proc.devRef .tc main_v9) = cat (W (Proc.devRef .tc main_v6)) (W (Proc.devRef .tc main_v7))
    ∧ after ((hostOps1 (F := Ideal)).drop 5) W (Proc.devRef .tc main_v15)
        = cmpf .ogt (Cert.Spec.deg (F := Ideal) (cat (W (Proc.devRef .tc main_v6)) (W (Proc.devRef .tc main_v7)))) (broadcastInDim S50000 ![] bcast_S_S50000 (constant S_ .f32 0x00000000#32))
    ∧ after ((hostOps1 (F := Ideal)).drop 5) W (Proc.devRef .tc main_v16)
        = Host.rsqrt (Cert.Spec.deg (F := Ideal) (cat (W (Proc.devRef .tc main_v6)) (W (Proc.devRef .tc main_v7))))
    ∧ after ((hostOps1 (F := Ideal)).drop 5) W (Proc.devRef .tc main_cst_2) = constant (F := Ideal) S_ .f32 0x00000000#32
    ∧ after ((hostOps1 (F := Ideal)).drop 5) W (Proc.devRef .tc main_v2) = (W (Proc.devRef .tc main_v2))
    ∧ after ((hostOps1 (F := Ideal)).drop 5) W (Proc.devRef .tc main_arg11) = (W (Proc.devRef .tc main_arg11))
    ∧ after ((hostOps1 (F := Ideal)).drop 5) W (Proc.devRef .tc main_arg10) = (W (Proc.devRef .tc main_arg10)) := by
  simp only [hostOps1, List.drop]
  refine ⟨?_, ?_, ?_, ?_, ?_, ?_, ?_, ?_⟩ <;> (after_results_simp) <;> rfl

/-- The outlined select: d^(-1/2) where the degree is positive, else 0. -/
theorem st1C (W : Valuation τ sig (Elt Ideal)) :
    after (hostOps1_1 (F := Ideal)) W (Proc.devRef .tc main_v17)
        = select (W (Proc.devRef .tc main_v15)) (W (Proc.devRef .tc main_v16)) (broadcastInDim S50000 ![] bcast_S_S50000 (W (Proc.devRef .tc main_cst_2)))
    ∧ after (hostOps1_1 (F := Ideal)) W (Proc.devRef .tc main_v2) = (W (Proc.devRef .tc main_v2))
    ∧ after (hostOps1_1 (F := Ideal)) W (Proc.devRef .tc main_v8) = (W (Proc.devRef .tc main_v8))
    ∧ after (hostOps1_1 (F := Ideal)) W (Proc.devRef .tc main_v9) = (W (Proc.devRef .tc main_v9))
    ∧ after (hostOps1_1 (F := Ideal)) W (Proc.devRef .tc main_arg11) = (W (Proc.devRef .tc main_arg11))
    ∧ after (hostOps1_1 (F := Ideal)) W (Proc.devRef .tc main_arg10) = (W (Proc.devRef .tc main_arg10)) := by
  refine ⟨?_, ?_, ?_, ?_, ?_, ?_⟩ <;> (after_results_simp) <;> rfl

set_option maxHeartbeats 1000000 in
/-- The stretch up to region 1: the edge coefficients, the aggregated rows, the bias as a row. -/
theorem st1D (W : Valuation τ sig (Elt Ideal)) :
    after (hostOps1_2 (F := Ideal)) W (Proc.devRef .tc main_v32) = Cert.Spec.coef (F := Ideal) (W (Proc.devRef .tc main_v17)) (W (Proc.devRef .tc main_v8)) (W (Proc.devRef .tc main_v9))
    ∧ after (hostOps1_2 (F := Ideal)) W (Proc.devRef .tc main_v45)
        = Cert.Spec.agg128 (F := Ideal) (W (Proc.devRef .tc main_v2)) (W (Proc.devRef .tc main_v8)) (W (Proc.devRef .tc main_v9)) (Cert.Spec.coef (F := Ideal) (W (Proc.devRef .tc main_v17)) (W (Proc.devRef .tc main_v8)) (W (Proc.devRef .tc main_v9)))
    ∧ after (hostOps1_2 (F := Ideal)) W (Proc.devRef .tc main_v46) = shapeCast S1x256 (W (Proc.devRef .tc main_arg11)) shapeCasts_S256_S1x256
    ∧ after (hostOps1_2 (F := Ideal)) W (Proc.devRef .tc main_v8) = (W (Proc.devRef .tc main_v8))
    ∧ after (hostOps1_2 (F := Ideal)) W (Proc.devRef .tc main_v9) = (W (Proc.devRef .tc main_v9))
    ∧ after (hostOps1_2 (F := Ideal)) W (Proc.devRef .tc main_arg10) = (W (Proc.devRef .tc main_arg10)) := by
  refine ⟨?_, ?_, ?_, ?_, ?_, ?_⟩ <;> (after_results_simp) <;> rfl

/-- THE STRETCH BETWEEN REGIONS 0 AND 1, whole: from a valuation holding the first region's result in `main_v2` and the
    edge list in `main_arg1`, it leaves the rows aggregated along the edges, the graph's index lists and coefficients,
    and the bias as a row. -/
theorem st1 (W : Valuation τ sig (Elt Ideal)) :
    after (hostOps1_2 (F := Ideal)) (after (hostOps1_1 (F := Ideal)) (after (hostOps1 (F := Ideal)) W)) (Proc.devRef .tc main_v45)
        = Cert.Spec.agg128 (F := Ideal) (W (Proc.devRef .tc main_v2)) (Cert.Spec.srcs (W (Proc.devRef .tc main_arg1))) (Cert.Spec.tgts (W (Proc.devRef .tc main_arg1))) (Cert.Spec.norm (F := Ideal) (W (Proc.devRef .tc main_arg1)))
    ∧ after (hostOps1_2 (F := Ideal)) (after (hostOps1_1 (F := Ideal)) (after (hostOps1 (F := Ideal)) W)) (Proc.devRef .tc main_v46)
        = shapeCast S1x256 (W (Proc.devRef .tc main_arg11)) shapeCasts_S256_S1x256
    ∧ after (hostOps1_2 (F := Ideal)) (after (hostOps1_1 (F := Ideal)) (after (hostOps1 (F := Ideal)) W)) (Proc.devRef .tc main_arg10) = (W (Proc.devRef .tc main_arg10))
    ∧ after (hostOps1_2 (F := Ideal)) (after (hostOps1_1 (F := Ideal)) (after (hostOps1 (F := Ideal)) W)) (Proc.devRef .tc main_v8) = Cert.Spec.srcs (W (Proc.devRef .tc main_arg1))
    ∧ after (hostOps1_2 (F := Ideal)) (after (hostOps1_1 (F := Ideal)) (after (hostOps1 (F := Ideal)) W)) (Proc.devRef .tc main_v9) = Cert.Spec.tgts (W (Proc.devRef .tc main_arg1))
    ∧ after (hostOps1_2 (F := Ideal)) (after (hostOps1_1 (F := Ideal)) (after (hostOps1 (F := Ideal)) W)) (Proc.devRef .tc main_v32) = Cert.Spec.norm (F := Ideal) (W (Proc.devRef .tc main_arg1)) := by
  have hsplit : after (hostOps1 (F := Ideal)) W = after ((hostOps1 (F := Ideal)).drop 5) (after ((hostOps1 (F := Ideal)).take 5) W) := by
    rw [← after_append, List.take_append_drop]
  rw [hsplit]
  obtain ⟨a4, a6, a7, a2, a11, a10⟩ := st1A W
  generalize after ((hostOps1 (F := Ideal)).take 5) W = Wa at *
  obtain ⟨b8, b9, b15, b16, bc, b2, b11, b10⟩ := st1B Wa
  generalize after ((hostOps1 (F := Ideal)).drop 5) Wa = Wb at *
  obtain ⟨c17, c2, c8, c9, c11, c10⟩ := st1C Wb
  generalize after (hostOps1_1 (F := Ideal)) Wb = Wc at *
  obtain ⟨d32, d45, d46, d8, d9, d10⟩ := st1D Wc
  have e8 : Wc (Proc.devRef .tc main_v8) = Cert.Spec.srcs (W (Proc.devRef .tc main_arg1)) := by rw [c8, b8, a4, a7]; rfl
  have e9 : Wc (Proc.devRef .tc main_v9) = Cert.Spec.tgts (W (Proc.devRef .tc main_arg1)) := by rw [c9, b9, a6, a7]; rfl
  have e17 : Wc (Proc.devRef .tc main_v17) = Cert.Spec.dinv (F := Ideal) (Cert.Spec.deg (Cert.Spec.tgts (W (Proc.devRef .tc main_arg1)))) := by
    rw [c17, b15, b16, bc, a6, a7]; rfl
  refine ⟨?_, ?_, ?_, ?_, ?_, ?_⟩
  · rw [d45, e8, e9, e17, c2, b2, a2]; rfl
  · rw [d46, c11, b11, a11]
  · rw [d10, c10, b10, a10]
  · rw [d8, e8]
  · rw [d9, e9]
  · rw [d32, e8, e9, e17]; rfl

end Cert.KernelIdeal.KChain
end
-- ==== Proof.KKeep.lean ====
/-
  Buffers that nothing touches between two boundaries of the kernel's program: the program's buffer contents at each
  boundary are a fold from the launch memory (a host stretch's effect, then a region's arrays at what its pipeline
  leaves), and a buffer that a stretch does not write and that is not a region's array — or is a region's INPUT
  array — holds at the later boundary what it held at the earlier one. Each argument read where a stage first uses it
  is the launch memory's; each intermediate result read at a later boundary is what the earlier boundary held.
-/
import proofs.«175486_j44117904065163_2_alg».proof.Proof.Gen.KernelIdeal.Frame
import proofs.«175486_j44117904065163_2_alg».proof.Proof.KStretch
import Idealize.ShloMosaic.Lib.StableHlo.Run

noncomputable section

namespace Cert.KernelIdeal.KKeep

open Cert.KernelIdeal Cert.KernelIdeal.Gen Cert.KernelIdeal.KStretch
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## One boundary back

A host stretch keeps every reference it does not write; a region keeps every buffer that is not one of its arrays. -/

section Steps
variable (r : Ref sig .tc)

theorem s1 (h : r ∉ written0) : W1 m ρ c (Proc.devRef .tc r) = W0 m ρ c (Proc.devRef .tc r) := keep0 _ r h
theorem s2 (h : ∀ w, Pipeline.arrRef spec0 w ≠ r) : W2 m ρ c (Proc.devRef .tc r) = W1 m ρ c (Proc.devRef .tc r) := W2_of_ne m ρ c r h
theorem s3 (h : r ∉ written1) : W3 m ρ c (Proc.devRef .tc r) = W2 m ρ c (Proc.devRef .tc r) := keep1 _ r h
theorem s4 (h : r ∉ written1_1) : W4 m ρ c (Proc.devRef .tc r) = W3 m ρ c (Proc.devRef .tc r) := keep1_1 _ r h
theorem s5 (h : r ∉ written1_2) : W5 m ρ c (Proc.devRef .tc r) = W4 m ρ c (Proc.devRef .tc r) := keep1_2 _ r h
theorem s6 (h : ∀ w, Pipeline.arrRef spec1 w ≠ r) : W6 m ρ c (Proc.devRef .tc r) = W5 m ρ c (Proc.devRef .tc r) := W6_of_ne m ρ c r h
theorem s7 (h : r ∉ written2) : W7 m ρ c (Proc.devRef .tc r) = W6 m ρ c (Proc.devRef .tc r) := keep2 _ r h
theorem s8 (h : ∀ w, Pipeline.arrRef spec2 w ≠ r) : W8 m ρ c (Proc.devRef .tc r) = W7 m ρ c (Proc.devRef .tc r) := W8_of_ne m ρ c r h
theorem s9 (h : r ∉ written3) : W9 m ρ c (Proc.devRef .tc r) = W8 m ρ c (Proc.devRef .tc r) := keep3 _ r h
theorem s10 (h : ∀ w, Pipeline.arrRef spec3 w ≠ r) : W10 m ρ c (Proc.devRef .tc r) = W9 m ρ c (Proc.devRef .tc r) := W10_of_ne m ρ c r h
theorem s11 (h : r ∉ written4) : W11 m ρ c (Proc.devRef .tc r) = W10 m ρ c (Proc.devRef .tc r) := keep4 _ r h
theorem s12 (h : ∀ w, Pipeline.arrRef spec4 w ≠ r) : W12 m ρ c (Proc.devRef .tc r) = W11 m ρ c (Proc.devRef .tc r) := W12_of_ne m ρ c r h
theorem s13 (h : r ∉ written5) : W13 m ρ c (Proc.devRef .tc r) = W12 m ρ c (Proc.devRef .tc r) := keep5 _ r h

end Steps

/-! ## Back to the launch

A buffer that no stretch writes and that is no region's array, up to boundary J, holds at J what the launch memory held. -/

section ToLaunch
variable (r : Ref sig .tc)

theorem to0_1 (h1 : r ∉ written0) :
    W1 m ρ c (Proc.devRef .tc r) = W0 m ρ c (Proc.devRef .tc r) := s1 m ρ c r h1
theorem to0_2 (h1 : r ∉ written0) (h2 : ∀ w, Pipeline.arrRef spec0 w ≠ r) :
    W2 m ρ c (Proc.devRef .tc r) = W0 m ρ c (Proc.devRef .tc r) := (s2 m ρ c r h2).trans (to0_1 m ρ c r h1)
theorem to0_3 (h1 : r ∉ written0) (h2 : ∀ w, Pipeline.arrRef spec0 w ≠ r) (h3 : r ∉ written1) :
    W3 m ρ c (Proc.devRef .tc r) = W0 m ρ c (Proc.devRef .tc r) := (s3 m ρ c r h3).trans (to0_2 m ρ c r h1 h2)
theorem to0_4 (h1 : r ∉ written0) (h2 : ∀ w, Pipeline.arrRef spec0 w ≠ r) (h3 : r ∉ written1) (h4 : r ∉ written1_1) :
    W4 m ρ c (Proc.devRef .tc r) = W0 m ρ c (Proc.devRef .tc r) := (s4 m ρ c r h4).trans (to0_3 m ρ c r h1 h2 h3)
theorem to0_5 (h1 : r ∉ written0) (h2 : ∀ w, Pipeline.arrRef spec0 w ≠ r) (h3 : r ∉ written1) (h4 : r ∉ written1_1) (h5 : r ∉ written1_2) :
    W5 m ρ c (Proc.devRef .tc r) = W0 m ρ c (Proc.devRef .tc r) := (s5 m ρ c r h5).trans (to0_4 m ρ c r h1 h2 h3 h4)
theorem to0_6 (h1 : r ∉ written0) (h2 : ∀ w, Pipeline.arrRef spec0 w ≠ r) (h3 : r ∉ written1) (h4 : r ∉ written1_1) (h5 : r ∉ written1_2) (h6 : ∀ w, Pipeline.arrRef spec1 w ≠ r) :
    W6 m ρ c (Proc.devRef .tc r) = W0 m ρ c (Proc.devRef .tc r) := (s6 m ρ c r h6).trans (to0_5 m ρ c r h1 h2 h3 h4 h5)
theorem to0_7 (h1 : r ∉ written0) (h2 : ∀ w, Pipeline.arrRef spec0 w ≠ r) (h3 : r ∉ written1) (h4 : r ∉ written1_1) (h5 : r ∉ written1_2) (h6 : ∀ w, Pipeline.arrRef spec1 w ≠ r) (h7 : r ∉ written2) :
    W7 m ρ c (Proc.devRef .tc r) = W0 m ρ c (Proc.devRef .tc r) := (s7 m ρ c r h7).trans (to0_6 m ρ c r h1 h2 h3 h4 h5 h6)
theorem to0_8 (h1 : r ∉ written0) (h2 : ∀ w, Pipeline.arrRef spec0 w ≠ r) (h3 : r ∉ written1) (h4 : r ∉ written1_1) (h5 : r ∉ written1_2) (h6 : ∀ w, Pipeline.arrRef spec1 w ≠ r) (h7 : r ∉ written2) (h8 : ∀ w, Pipeline.arrRef spec2 w ≠ r) :
    W8 m ρ c (Proc.devRef .tc r) = W0 m ρ c (Proc.devRef .tc r) := (s8 m ρ c r h8).trans (to0_7 m ρ c r h1 h2 h3 h4 h5 h6 h7)
theorem to0_9 (h1 : r ∉ written0) (h2 : ∀ w, Pipeline.arrRef spec0 w ≠ r) (h3 : r ∉ written1) (h4 : r ∉ written1_1) (h5 : r ∉ written1_2) (h6 : ∀ w, Pipeline.arrRef spec1 w ≠ r) (h7 : r ∉ written2) (h8 : ∀ w, Pipeline.arrRef spec2 w ≠ r) (h9 : r ∉ written3) :
    W9 m ρ c (Proc.devRef .tc r) = W0 m ρ c (Proc.devRef .tc r) := (s9 m ρ c r h9).trans (to0_8 m ρ c r h1 h2 h3 h4 h5 h6 h7 h8)
theorem to0_10 (h1 : r ∉ written0) (h2 : ∀ w, Pipeline.arrRef spec0 w ≠ r) (h3 : r ∉ written1) (h4 : r ∉ written1_1) (h5 : r ∉ written1_2) (h6 : ∀ w, Pipeline.arrRef spec1 w ≠ r) (h7 : r ∉ written2) (h8 : ∀ w, Pipeline.arrRef spec2 w ≠ r) (h9 : r ∉ written3) (h10 : ∀ w, Pipeline.arrRef spec3 w ≠ r) :
    W10 m ρ c (Proc.devRef .tc r) = W0 m ρ c (Proc.devRef .tc r) := (s10 m ρ c r h10).trans (to0_9 m ρ c r h1 h2 h3 h4 h5 h6 h7 h8 h9)
theorem to0_11 (h1 : r ∉ written0) (h2 : ∀ w, Pipeline.arrRef spec0 w ≠ r) (h3 : r ∉ written1) (h4 : r ∉ written1_1) (h5 : r ∉ written1_2) (h6 : ∀ w, Pipeline.arrRef spec1 w ≠ r) (h7 : r ∉ written2) (h8 : ∀ w, Pipeline.arrRef spec2 w ≠ r) (h9 : r ∉ written3) (h10 : ∀ w, Pipeline.arrRef spec3 w ≠ r) (h11 : r ∉ written4) :
    W11 m ρ c (Proc.devRef .tc r) = W0 m ρ c (Proc.devRef .tc r) := (s11 m ρ c r h11).trans (to0_10 m ρ c r h1 h2 h3 h4 h5 h6 h7 h8 h9 h10)
theorem to0_12 (h1 : r ∉ written0) (h2 : ∀ w, Pipeline.arrRef spec0 w ≠ r) (h3 : r ∉ written1) (h4 : r ∉ written1_1) (h5 : r ∉ written1_2) (h6 : ∀ w, Pipeline.arrRef spec1 w ≠ r) (h7 : r ∉ written2) (h8 : ∀ w, Pipeline.arrRef spec2 w ≠ r) (h9 : r ∉ written3) (h10 : ∀ w, Pipeline.arrRef spec3 w ≠ r) (h11 : r ∉ written4) (h12 : ∀ w, Pipeline.arrRef spec4 w ≠ r) :
    W12 m ρ c (Proc.devRef .tc r) = W0 m ρ c (Proc.devRef .tc r) := (s12 m ρ c r h12).trans (to0_11 m ρ c r h1 h2 h3 h4 h5 h6 h7 h8 h9 h10 h11)

end ToLaunch

/-! ## The arguments, where the stages first read them: the launch memory's -/

theorem at0_arg7 : W0 m ρ c (Proc.devRef .tc main_arg7) = m ((c.tc : Thread nD τ).loc main_arg7) :=
  rfl
theorem at0_arg9 : W0 m ρ c (Proc.devRef .tc main_arg9) = m ((c.tc : Thread nD τ).loc main_arg9) :=
  rfl
theorem at1_arg0 : W1 m ρ c (Proc.devRef .tc main_arg0) = m ((c.tc : Thread nD τ).loc main_arg0) :=
  to0_1 m ρ c main_arg0 (by decide)
theorem at1_arg6 : W1 m ρ c (Proc.devRef .tc main_arg6) = m ((c.tc : Thread nD τ).loc main_arg6) :=
  to0_1 m ρ c main_arg6 (by decide)
theorem at1_arg8 : W1 m ρ c (Proc.devRef .tc main_arg8) = m ((c.tc : Thread nD τ).loc main_arg8) :=
  to0_1 m ρ c main_arg8 (by decide)
theorem at2_arg1 : W2 m ρ c (Proc.devRef .tc main_arg1) = m ((c.tc : Thread nD τ).loc main_arg1) :=
  to0_2 m ρ c main_arg1 (by decide) (by decide)
theorem at2_arg10 : W2 m ρ c (Proc.devRef .tc main_arg10) = m ((c.tc : Thread nD τ).loc main_arg10) :=
  to0_2 m ρ c main_arg10 (by decide) (by decide)
theorem at2_arg11 : W2 m ρ c (Proc.devRef .tc main_arg11) = m ((c.tc : Thread nD τ).loc main_arg11) :=
  to0_2 m ρ c main_arg11 (by decide) (by decide)
theorem at6_arg16 : W6 m ρ c (Proc.devRef .tc main_arg16) = m ((c.tc : Thread nD τ).loc main_arg16) :=
  to0_6 m ρ c main_arg16 (by decide) (by decide) (by decide) (by decide) (by decide) (by decide)
theorem at6_arg17 : W6 m ρ c (Proc.devRef .tc main_arg17) = m ((c.tc : Thread nD τ).loc main_arg17) :=
  to0_6 m ρ c main_arg17 (by decide) (by decide) (by decide) (by decide) (by decide) (by decide)
theorem at7_arg4 : W7 m ρ c (Proc.devRef .tc main_arg4) = m ((c.tc : Thread nD τ).loc main_arg4) :=
  to0_7 m ρ c main_arg4 (by decide) (by decide) (by decide) (by decide) (by decide) (by decide) (by decide)
theorem at7_arg14 : W7 m ρ c (Proc.devRef .tc main_arg14) = m ((c.tc : Thread nD τ).loc main_arg14) :=
  to0_7 m ρ c main_arg14 (by decide) (by decide) (by decide) (by decide) (by decide) (by decide) (by decide)
theorem at7_arg15 : W7 m ρ c (Proc.devRef .tc main_arg15) = m ((c.tc : Thread nD τ).loc main_arg15) :=
  to0_7 m ρ c main_arg15 (by decide) (by decide) (by decide) (by decide) (by decide) (by decide) (by decide)
theorem at9_arg12 : W9 m ρ c (Proc.devRef .tc main_arg12) = m ((c.tc : Thread nD τ).loc main_arg12) :=
  to0_9 m ρ c main_arg12 (by decide) (by decide) (by decide) (by decide) (by decide) (by decide) (by decide) (by decide) (by decide)
theorem at10_arg13 : W10 m ρ c (Proc.devRef .tc main_arg13) = m ((c.tc : Thread nD τ).loc main_arg13) :=
  to0_10 m ρ c main_arg13 (by decide) (by decide) (by decide) (by decide) (by decide) (by decide) (by decide) (by decide) (by decide) (by decide)
theorem at10_arg20 : W10 m ρ c (Proc.devRef .tc main_arg20) = m ((c.tc : Thread nD τ).loc main_arg20) :=
  to0_10 m ρ c main_arg20 (by decide) (by decide) (by decide) (by decide) (by decide) (by decide) (by decide) (by decide) (by decide) (by decide)
theorem at10_arg21 : W10 m ρ c (Proc.devRef .tc main_arg21) = m ((c.tc : Thread nD τ).loc main_arg21) :=
  to0_10 m ρ c main_arg21 (by decide) (by decide) (by decide) (by decide) (by decide) (by decide) (by decide) (by decide) (by decide) (by decide)
theorem at11_arg5 : W11 m ρ c (Proc.devRef .tc main_arg5) = m ((c.tc : Thread nD τ).loc main_arg5) :=
  to0_11 m ρ c main_arg5 (by decide) (by decide) (by decide) (by decide) (by decide) (by decide) (by decide) (by decide) (by decide) (by decide) (by decide)
theorem at11_arg18 : W11 m ρ c (Proc.devRef .tc main_arg18) = m ((c.tc : Thread nD τ).loc main_arg18) :=
  to0_11 m ρ c main_arg18 (by decide) (by decide) (by decide) (by decide) (by decide) (by decide) (by decide) (by decide) (by decide) (by decide) (by decide)
theorem at11_arg19 : W11 m ρ c (Proc.devRef .tc main_arg19) = m ((c.tc : Thread nD τ).loc main_arg19) :=
  to0_11 m ρ c main_arg19 (by decide) (by decide) (by decide) (by decide) (by decide) (by decide) (by decide) (by decide) (by decide) (by decide) (by decide)
theorem at12_arg2 : W12 m ρ c (Proc.devRef .tc main_arg2) = m ((c.tc : Thread nD τ).loc main_arg2) :=
  to0_12 m ρ c main_arg2 (by decide) (by decide) (by decide) (by decide) (by decide) (by decide) (by decide) (by decide) (by decide) (by decide) (by decide) (by decide)
theorem at12_arg3 : W12 m ρ c (Proc.devRef .tc main_arg3) = m ((c.tc : Thread nD τ).loc main_arg3) :=
  to0_12 m ρ c main_arg3 (by decide) (by decide) (by decide) (by decide) (by decide) (by decide) (by decide) (by decide) (by decide) (by decide) (by decide) (by decide)
theorem at12_arg22 : W12 m ρ c (Proc.devRef .tc main_arg22) = m ((c.tc : Thread nD τ).loc main_arg22) :=
  to0_12 m ρ c main_arg22 (by decide) (by decide) (by decide) (by decide) (by decide) (by decide) (by decide) (by decide) (by decide) (by decide) (by decide) (by decide)
theorem at12_arg23 : W12 m ρ c (Proc.devRef .tc main_arg23) = m ((c.tc : Thread nD τ).loc main_arg23) :=
  to0_12 m ρ c main_arg23 (by decide) (by decide) (by decide) (by decide) (by decide) (by decide) (by decide) (by decide) (by decide) (by decide) (by decide) (by decide)

/-! ## Intermediate results read at a later boundary -/

/-- Region 3's input window 0 is the first cell's result: the region leaves it as it found it. -/
theorem v50_10_9 : W10 m ρ c (Proc.devRef .tc main_v50) = W9 m ρ c (Proc.devRef .tc main_v50) :=
  (W10_arr m ρ c 0).trans (((dat3 (V9 m ρ) c).arrAt_in 0 rfl _).trans (A_eq3 (V9 m ρ) c 0))

/-- From region 3's exit back to region 1's entry: region 3, the stretch before it, region 2, the stretch before it
    and region 1 leave a buffer that is none of their arrays and that the two stretches do not write. -/
theorem from10_to5 (r : Ref sig .tc) (h6 : ∀ w, Pipeline.arrRef spec1 w ≠ r) (h7 : r ∉ written2) (h8 : ∀ w, Pipeline.arrRef spec2 w ≠ r)
    (h9 : r ∉ written3) (h10 : ∀ w, Pipeline.arrRef spec3 w ≠ r) :
    W10 m ρ c (Proc.devRef .tc r) = W5 m ρ c (Proc.devRef .tc r) :=
  (s10 m ρ c r h10).trans ((s9 m ρ c r h9).trans ((s8 m ρ c r h8).trans ((s7 m ρ c r h7).trans (s6 m ρ c r h6))))

theorem v47_7_6 : W7 m ρ c (Proc.devRef .tc main_v47) = W6 m ρ c (Proc.devRef .tc main_v47) := s7 m ρ c main_v47 (by decide)
theorem v50_9_8 : W9 m ρ c (Proc.devRef .tc main_v50) = W8 m ρ c (Proc.devRef .tc main_v50) := s9 m ρ c main_v50 (by decide)
theorem v8_10_5 : W10 m ρ c (Proc.devRef .tc main_v8) = W5 m ρ c (Proc.devRef .tc main_v8) :=
  from10_to5 m ρ c main_v8 (by decide) (by decide) (by decide) (by decide) (by decide)
theorem v9_10_5 : W10 m ρ c (Proc.devRef .tc main_v9) = W5 m ρ c (Proc.devRef .tc main_v9) :=
  from10_to5 m ρ c main_v9 (by decide) (by decide) (by decide) (by decide) (by decide)
theorem v32_10_5 : W10 m ρ c (Proc.devRef .tc main_v32) = W5 m ρ c (Proc.devRef .tc main_v32) :=
  from10_to5 m ρ c main_v32 (by decide) (by decide) (by decide) (by decide) (by decide)
/-- The first cell's result from the last boundary back to region 2's exit: the last stretch, region 4 (not its array),
    the stretch before it, region 3 (its input), the stretch before it. -/
theorem v50_13_8 : W13 m ρ c (Proc.devRef .tc main_v50) = W8 m ρ c (Proc.devRef .tc main_v50) :=
  (s13 m ρ c main_v50 (by decide)).trans ((s12 m ρ c main_v50 (by decide)).trans ((s11 m ρ c main_v50 (by decide)).trans
    ((v50_10_9 m ρ c).trans (s9 m ρ c main_v50 (by decide)))))
theorem v72_13_12 : W13 m ρ c (Proc.devRef .tc main_v72) = W12 m ρ c (Proc.devRef .tc main_v72) := s13 m ρ c main_v72 (by decide)

end Cert.KernelIdeal.KKeep

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.Reg0Idx.lean ====
/-
  Region 0 at an index: the fused two-layer dense kernel's payload, and the two dense layers of the network as
  whole-array host operations, both read at an entry (p, q) as the same extended-real arithmetic.
-/
import proofs.«175486_j44117904065163_2_alg».proof.Proof.Gen.KernelIdeal.Skeleton
import proofs.«175486_j44117904065163_2_alg».proof.Proof.Spec
import proofs.«175486_j44117904065163_2_alg».proof.Proof.LibMatmulIdx
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

open scoped BigOperators

namespace Cert.KernelIdeal.Reg0

open Idealize.ShloMosaic Idealize.ShloMosaic.ValueIdx Cert.KernelIdeal Cert.KernelIdeal.Facts₀ Cert.KernelIdeal.Facts

/-- The leaky rectifier on one extended real: y where y ≥ 0, else slope · y, the slope the f32 nearest 1/100. -/
def lr (y : EReal) : EReal :=
  Scalar.select (Ideal.cmp .oge y (Ideal.ofBits .f32 0x00000000#32)) y (Ideal.ofBits .f32 0x3C23D70A#32 * y)

/-- Entry q of the two dense layers applied to one row: the rectified first layer's 256 entries, times the second
    weight's column q, plus the second bias, rectified. -/
def pre (xrow : Fin 256 → EReal) (w1 : Fin 256 → Fin 256 → EReal) (b1 : Fin 256 → EReal)
    (w2 : Fin 256 → Fin 128 → EReal) (b2 : Fin 128 → EReal) (q : Fin 128) : EReal :=
  lr (∑ k : Fin 256, lr (∑ j : Fin 256, xrow j * w1 j k + b1 k) * w2 k q + b2 q)

/-! ## The kernel's payload -/

/-- The kernel's rectifier (a select against a splat of zero, the slope a splat) at an index. -/
theorem lr_kernel {s : Shape} (y : FVec Ideal s .f32) (i : s.Idx) :
    select (cmpf .oge y (broadcast s (Scalar.ofBits (F := Ideal) .f32 0x00000000#32))) y
      (mulf (broadcast s (Scalar.ofBits (F := Ideal) .f32 0x3C23D70A#32)) y) i = lr (y i) := rfl

/-- One dense layer of the kernel — a matrix product into the zero accumulator plus a one-row bias broadcast down the
    rows — at an entry. -/
theorem dense_kernel_apply {M K N : Nat} {φ₁ φ₂ : FTy} (x : FVec Ideal ⟨2, ![M, K]⟩ φ₁) (w : FVec Ideal ⟨2, ![K, N]⟩ φ₂)
    (b : FVec Ideal ⟨2, ![1, N]⟩ .f32) (hs : (⟨2, ![1, N]⟩ : Shape).ShapeCasts ⟨2, ![1, N]⟩)
    (hb : (⟨2, ![1, N]⟩ : Shape).Broadcasts ⟨2, ![M, N]⟩) (p : Fin M) (c : Fin N) :
    addf (matmul (DotDims.plain M K N) none x w (constant ⟨2, ![M, N]⟩ .f32 0x00000000#32))
        (broadcastTo ⟨2, ![M, N]⟩ (shapeCast ⟨2, ![1, N]⟩ b hs) hb) (ix2 p c)
      = ∑ k : Fin K, x (ix2 p k) * w (ix2 k c) + b (ix2 (0 : Fin 1) c) := by
  rw [addf_apply, broadcastTo_1b_ab_apply, shapeCast_self]
  exact congrArg (· + b (ix2 (0 : Fin 1) c)) (Cert.MatmulIdx.matmul_plain_zero_apply none x w p c)

theorem pay_apply (x0 : Vec Ideal S1000x256 .f32) (w1 : Vec Ideal S256x256 .f32) (v5 : Vec Ideal S1x256 .f32)
    (w2 : Vec Ideal S256x128 .f32) (v18 : Vec Ideal S1x128 .f32) (p : Fin 1000) (q : Fin 128) :
    Gen.k0_pay1 (F := Ideal) x0 w1 v5 w2 v18 (ix2 p q)
      = pre (fun j => x0 (ix2 p j)) (fun j k => w1 (ix2 j k)) (fun k => v5 (ix2 (0 : Fin 1) k))
          (fun k c => w2 (ix2 k c)) (fun c => v18 (ix2 (0 : Fin 1) c)) q := by
  unfold Gen.k0_pay1 pre
  dsimp only
  refine (lr_kernel _ (ix2 p q)).trans (congrArg lr ?_)
  refine (dense_kernel_apply (M := 1000) (K := 256) (N := 128) _ _ v18 _ _ p q).trans ?_
  refine congrArg (· + v18 (ix2 (0 : Fin 1) q)) (Finset.sum_congr rfl fun k _ => congrArg (· * w2 (ix2 k q)) ?_)
  refine (lr_kernel _ (ix2 p k)).trans (congrArg lr ?_)
  exact dense_kernel_apply (M := 1000) (K := 256) (N := 256) _ _ v5 _ _ p k

/-! ## The network's two dense layers as host operations -/

theorem lrelu256_apply (x : FVec Ideal Cert.ReferenceIdeal.S50000x256 .f32) (i : Cert.ReferenceIdeal.S50000x256.Idx) :
    Cert.Spec.lrelu256 (F := Ideal) x i = lr (x i) := rfl

theorem lrelu128_apply (x : FVec Ideal Cert.ReferenceIdeal.S50000x128 .f32) (i : Cert.ReferenceIdeal.S50000x128.Idx) :
    Cert.Spec.lrelu128 (F := Ideal) x i = lr (x i) := rfl

/-- A bias laid along every row ([C] → [1, C] → [R, C]) at an entry. -/
theorem bias_apply {R C : Nat} (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (c : Fin C) :
    broadcastInDim ⟨2, ![R, C]⟩ ![0, 1] h2 (broadcastInDim ⟨2, ![1, C]⟩ ![1] h1 b) (ix2 p c) = b (ix1 c) := by
  rw [broadcastInDim_oneRow_apply]
  refine broadcastInDim_apply ![1] h1 b (ix2 (0 : Fin 1) c) (ix1 c) fun a => ?_
  match a with
  | ⟨0, _⟩ =>
    show c.val = if C = 1 then 0 else c.val
    split
    · have := c.isLt; omega
    · rfl

theorem dense_256_256_apply (x : FVec Ideal Cert.ReferenceIdeal.S50000x256 .f32) (w : FVec Ideal Cert.ReferenceIdeal.S256x256 .f32)
    (b : FVec Ideal Cert.ReferenceIdeal.S256 .f32) (p : Fin 50000) (c : Fin 256) :
    Cert.Spec.dense_256_256 (F := Ideal) x w b (ix2 p c) = ∑ k : Fin 256, x (ix2 p k) * w (ix2 k c) + b (ix1 c) := by
  unfold Cert.Spec.dense_256_256 Cert.Spec.bias256
  rw [addf_apply]
  refine congrArg₂ (· + ·) ?_ ?_
  · exact StackMember.dotGeneral_plain_apply (m := 50000) (n := 256) (k := 256) none x w p c
  · exact bias_apply (R := 50000) (C := 256) b _ _ p c

theorem dense_256_128_apply (x : FVec Ideal Cert.ReferenceIdeal.S50000x256 .f32) (w : FVec Ideal Cert.ReferenceIdeal.S256x128 .f32)
    (b : FVec Ideal Cert.ReferenceIdeal.S128 .f32) (p : Fin 50000) (c : Fin 128) :
    Cert.Spec.dense_256_128 (F := Ideal) x w b (ix2 p c) = ∑ k : Fin 256, x (ix2 p k) * w (ix2 k c) + b (ix1 c) := by
  unfold Cert.Spec.dense_256_128 Cert.Spec.bias128
  rw [addf_apply]
  refine congrArg₂ (· + ·) ?_ ?_
  · exact StackMember.dotGeneral_plain_apply (m := 50000) (n := 128) (k := 256) none x w p c
  · exact bias_apply (R := 50000) (C := 128) b _ _ p c

/-- THE TWO DENSE LAYERS AT AN ENTRY. -/
theorem prelayer_apply (x : FVec Ideal Cert.ReferenceIdeal.S50000x256 .f32) (w1 : FVec Ideal Cert.ReferenceIdeal.S256x256 .f32)
    (b1 : FVec Ideal Cert.ReferenceIdeal.S256 .f32) (w2 : FVec Ideal Cert.ReferenceIdeal.S256x128 .f32)
    (b2 : FVec Ideal Cert.ReferenceIdeal.S128 .f32) (p : Fin 50000) (q : Fin 128) :
    Cert.Spec.prelayer (F := Ideal) x w1 b1 w2 b2 (ix2 p q)
      = pre (fun j => x (ix2 p j)) (fun j k => w1 (ix2 j k)) (fun k => b1 (ix1 k))
          (fun k c => w2 (ix2 k c)) (fun c => b2 (ix1 c)) q := by
  unfold Cert.Spec.prelayer pre
  rw [lrelu128_apply, dense_256_128_apply]
  refine congrArg lr (congrArg (· + b2 (ix1 q)) (Finset.sum_congr rfl fun k _ => congrArg (· * w2 (ix2 k q)) ?_))
  rw [lrelu256_apply, dense_256_256_apply]

end Cert.KernelIdeal.Reg0

end
-- ==== Proof.Reg0.lean ====
/-
  Region 0 as a whole-array function: the array the fused two-layer dense kernel leaves is the network's two dense
  layers of the region's input arrays; and every entry of those two layers of real arrays is real.
-/
import proofs.«175486_j44117904065163_2_alg».proof.Proof.Gen.KernelIdeal.Frame
import proofs.«175486_j44117904065163_2_alg».proof.Proof.Spec
import proofs.«175486_j44117904065163_2_alg».proof.Proof.Reg0Idx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Reg0

open Idealize.ShloMosaic Idealize.ShloMosaic.TcCoe Idealize.SL.Sem Cert.KernelIdeal Cert.KernelIdeal.Facts₀ Cert.KernelIdeal.Facts
open Idealize.ShloMosaic.ValueIdx
open Idealize.ShloMosaic.Pipeline (Dat)

theorem hz : (![0, 0] : Fin 2 → Nat) = fun _ => 0 := funext fun a => by fin_cases a <;> rfl

/-- The printed index maps, decided over the grid: the row-blocked windows (the input rows, the output rows) sit at
    block (t, 0), the weights and biases at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The two layers of a row block: the payload of blocks that are rows of the arrays -/

/-- The payload of a block of 1000 rows of x starting at row r₀, the two weights, and the two biases as one-row
    matrices, is the two dense layers of the whole arrays at the block's rows. -/
theorem pay_block (X : FVec Ideal S50000x256 .f32) (W1 : FVec Ideal S256x256 .f32) (b1 : FVec Ideal S256 .f32)
    (W2 : FVec Ideal S256x128 .f32) (b2 : FVec Ideal S128 .f32)
    (x0 : Vec Ideal S1000x256 .f32) (w1 : Vec Ideal S256x256 .f32) (v5 : Vec Ideal S1x256 .f32)
    (w2 : Vec Ideal S256x128 .f32) (v18 : Vec Ideal S1x128 .f32) (p : Fin 1000) (q : Fin 128) (r : Fin 50000)
    (hx0 : ∀ j : Fin 256, x0 (ix2 p j) = X (ix2 r j))
    (hw1 : ∀ (j k : Fin 256), w1 (ix2 j k) = W1 (ix2 j k))
    (hv5 : ∀ k : Fin 256, v5 (ix2 (0 : Fin 1) k) = b1 (ix1 k))
    (hw2 : ∀ (k : Fin 256) (c : Fin 128), w2 (ix2 k c) = W2 (ix2 k c))
    (hv18 : ∀ c : Fin 128, v18 (ix2 (0 : Fin 1) c) = b2 (ix1 c)) :
    Gen.k0_pay1 (F := Ideal) x0 w1 v5 w2 v18 (ix2 p q) = Cert.Spec.prelayer (F := Ideal) X W1 b1 W2 b2 (ix2 r q) := by
  rw [pay_apply, prelayer_apply]
  simp only [hx0, hw1, hv5, hw2, hv18]

section
variable (V : (c : Dev nD) → (b : Ref sig .tc) → Buf (Elt Ideal) ((c : Thread nD τ).loc b)) (c : Dev nD)

/-! ## The windows' blocks, read at an entry

A block's coordinate in its array is the block index times the block size plus the coordinate inside the block:
the row-blocked input reads rows 1000 t … 1000 t + 999, the weights and the one-row biases are read whole. -/

theorem iblk0_0_apply (t : Fin cfg0.N) (p : Fin 1000) (j : Fin 256) (h : t.val * 1000 + p.val < 50000) :
    (Gen.iblk0 V c 0 t : Vec Ideal S1000x256 .f32) (ix2 p j)
      = (V c main_arg0 : S50000x256.Idx → Elt Ideal .f32) (ix2 ⟨t.val * 1000 + p.val, h⟩ j) := by
  obtain ⟨e0, e1, -⟩ := idx_facts t
  unfold Gen.iblk0
  rw [View.read_apply]
  show V c main_arg0 _ = V c main_arg0 _
  congr 1
  funext a
  apply Fin.ext
  match a with
  | ⟨0, _⟩ => show win0_0.index t 0 * 1000 + 1 * p.val = t.val * 1000 + p.val; rw [e0]; omega
  | ⟨1, _⟩ => show win0_0.index t 1 * 256 + 1 * j.val = j.val; rw [e1]; omega

theorem iblk0_1_apply (t : Fin cfg0.N) (j k : Fin 256) :
    (Gen.iblk0 V c 1 t : Vec Ideal S256x256 .f32) (ix2 j k)
      = (V c main_arg6 : S256x256.Idx → Elt Ideal .f32) (ix2 j k) := by
  obtain ⟨-, -, e0, e1, -⟩ := idx_facts t
  unfold Gen.iblk0
  rw [View.read_apply]
  show V c main_arg6 _ = V c main_arg6 _
  congr 1
  funext a
  apply Fin.ext
  match a with
  | ⟨0, _⟩ => show win0_1.index t 0 * 256 + 1 * j.val = j.val; rw [e0]; omega
  | ⟨1, _⟩ => show win0_1.index t 1 * 256 + 1 * k.val = k.val; rw [e1]; omega

theorem iblk0_2_apply (t : Fin cfg0.N) (k : Fin 256) :
    (Gen.iblk0 V c 2 t : Vec Ideal S1x256 .f32) (ix2 (0 : Fin 1) k)
      = (V c main_v0 : S1x256.Idx → Elt Ideal .f32) (ix2 (0 : Fin 1) k) := by
  obtain ⟨-, -, -, -, e0, e1, -⟩ := idx_facts t
  unfold Gen.iblk0
  rw [View.read_apply]
  show V c main_v0 _ = V c main_v0 _
  congr 1
  funext a
  apply Fin.ext
  match a with
  | ⟨0, _⟩ => show win0_2.index t 0 * 1 + 1 * 0 = 0; rw [e0]
  | ⟨1, _⟩ => show win0_2.index t 1 * 256 + 1 * k.val = k.val; rw [e1]; omega

theorem iblk0_3_apply (t : Fin cfg0.N) (k : Fin 256) (q : Fin 128) :
    (Gen.iblk0 V c 3 t : Vec Ideal S256x128 .f32) (ix2 k q)
      = (V c main_arg8 : S256x128.Idx → Elt Ideal .f32) (ix2 k q) := by
  obtain ⟨-, -, -, -, -, -, e0, e1, -⟩ := idx_facts t
  unfold Gen.iblk0
  rw [View.read_apply]
  show V c main_arg8 _ = V c main_arg8 _
  congr 1
  funext a
  apply Fin.ext
  match a with
  | ⟨0, _⟩ => show win0_3.index t 0 * 256 + 1 * k.val = k.val; rw [e0]; omega
  | ⟨1, _⟩ => show win0_3.index t 1 * 128 + 1 * q.val = q.val; rw [e1]; omega

theorem iblk0_4_apply (t : Fin cfg0.N) (q : Fin 128) :
    (Gen.iblk0 V c 4 t : Vec Ideal S1x128 .f32) (ix2 (0 : Fin 1) q)
      = (V c main_v1 : S1x128.Idx → Elt Ideal .f32) (ix2 (0 : Fin 1) q) := by
  obtain ⟨-, -, -, -, -, -, -, -, e0, e1, -⟩ := idx_facts t
  unfold Gen.iblk0
  rw [View.read_apply]
  show V c main_v1 _ = V c main_v1 _
  congr 1
  funext a
  apply Fin.ext
  match a with
  | ⟨0, _⟩ => show win0_4.index t 0 * 1 + 1 * 0 = 0; rw [e0]
  | ⟨1, _⟩ => show win0_4.index t 1 * 128 + 1 * q.val = q.val; rw [e1]; omega

/-! ## What a point writes back -/

/-- WHAT POINT t WRITES BACK is block t of the two dense layers of the region's input arrays. -/
theorem flushed_eq (b1 : FVec Ideal S256 .f32) (hb1 : V c main_v0 = shapeCast S1x256 b1 shapeCasts_S256_S1x256)
    (b2 : FVec Ideal S128 .f32) (hb2 : V c main_v1 = shapeCast S1x128 b2 shapeCasts_S128_S1x128) (t : Fin cfg0.N) :
    (Gen.dat0 (F := Ideal) V c).flushed 5 t
      = ((cfg0.win 5).blk t).view.read (Elt Ideal)
          (Cert.Spec.prelayer (F := Ideal) (V c main_arg0) (V c main_arg6) b1 (V c main_arg8) b2) := by
  show (cfg0.win 5).cut (grid0.coords t) ((Gen.dat0 V c).after 5 t) = _
  rw [Gen.after0_5]
  unfold Gen.out0_5
  rw [View.canon_unit_zero hz]
  simp only [View.ld_unit_zero (S := S1000x256) hz, View.ld_unit_zero (S := S256x256) hz, View.ld_unit_zero (S := S1x256) hz,
    View.ld_unit_zero (S := S256x128) hz, View.ld_unit_zero (S := S1x128) hz]
  refine funext fun (j : S1000x128.Idx) => ?_
  obtain ⟨p, q, rfl⟩ : ∃ (p : Fin 1000) (q : Fin 128), j = ix2 p q := ⟨j 0, j 1, eq_ix2 j⟩
  have hN : cfg0.N = 50 := Gen.N_0
  have ht : t.val < 50 := hN ▸ t.isLt
  have hr : t.val * 1000 + p.val < 50000 := by have := p.isLt; omega
  obtain ⟨-, -, -, -, -, -, -, -, -, -, e0, e1⟩ := idx_facts t
  have he : ((cfg0.win 5).blk t).view.emb (ix2 p q) = (ix2 (⟨t.val * 1000 + p.val, hr⟩ : Fin 50000) q : S50000x128.Idx) := by
    funext a
    apply Fin.ext
    match a with
    | ⟨0, _⟩ => show win0_5.index t 0 * 1000 + 1 * p.val = t.val * 1000 + p.val; rw [e0]; omega
    | ⟨1, _⟩ => show win0_5.index t 1 * 128 + 1 * q.val = q.val; rw [e1]; omega
  show Gen.k0_pay1 (Gen.iblk0 V c 0 t) (Gen.iblk0 V c 1 t) (Gen.iblk0 V c 2 t) (Gen.iblk0 V c 3 t) (Gen.iblk0 V c 4 t) (ix2 p q)
    = Cert.Spec.prelayer (F := Ideal) (V c main_arg0) (V c main_arg6) b1 (V c main_arg8) b2 (((cfg0.win 5).blk t).view.emb (ix2 p q))
  refine Eq.trans ?_ (congrArg (Cert.Spec.prelayer (F := Ideal) (V c main_arg0) (V c main_arg6) b1 (V c main_arg8) b2) he.symm)
  refine pay_block (V c main_arg0) (V c main_arg6) b1 (V c main_arg8) b2
    (Gen.iblk0 V c 0 t) (Gen.iblk0 V c 1 t) (Gen.iblk0 V c 2 t) (Gen.iblk0 V c 3 t) (Gen.iblk0 V c 4 t) p q ⟨t.val * 1000 + p.val, hr⟩
    (fun j => iblk0_0_apply V c t p j hr) (fun j k => iblk0_1_apply V c t j k) (fun k => ?_) (fun k c' => iblk0_3_apply V c t k c') (fun c' => ?_)
  · refine (iblk0_2_apply V c t k).trans ?_
    rw [hb1]
    exact shapeCast_a_1a_apply b1 shapeCasts_S256_S1x256 (0 : Fin 1) k
  · refine (iblk0_4_apply V c t c').trans ?_
    rw [hb2]
    exact shapeCast_a_1a_apply b2 shapeCasts_S128_S1x128 (0 : Fin 1) c'

/-! ## The cover and the array -/

/-- An index of the array is in point t's block iff each coordinate is in the block's range on its axis. -/
theorem mem_blk (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v2).slice (win0_5.rect t)).set ↔ _
  rw [View.set_slice_whole, Rect.mem_set_unit]
  exact Iff.rfl

/-- Row r is in the block of point r / 1000. -/
theorem cover (i : S50000x128.Idx) : ∃ t : Fin cfg0.N, (cfg0.win 5).flush t = true ∧ i ∈ ((cfg0.win 5).blk t).view.set := by
  have hN : cfg0.N = 50 := Gen.N_0
  have hi0 : (i 0).val < 50000 := (i 0).isLt
  have hi1 : (i 1).val < 128 := (i 1).isLt
  refine ⟨⟨(i 0).val / 1000, by rw [hN]; omega⟩, Gen.flush0_5 _, ?_⟩
  rw [mem_blk]
  obtain ⟨-, -, -, -, -, -, -, -, -, -, e0, e1⟩ := idx_facts ⟨(i 0).val / 1000, by rw [hN]; omega⟩
  intro a
  match a with
  | ⟨0, _⟩ =>
    show win0_5.index _ 0 * 1000 ≤ (i 0).val ∧ (i 0).val < win0_5.index _ 0 * 1000 + 1000
    rw [e0]; show (i 0).val / 1000 * 1000 ≤ (i 0).val ∧ (i 0).val < (i 0).val / 1000 * 1000 + 1000; omega
  | ⟨1, _⟩ =>
    show win0_5.index _ 1 * 128 ≤ (i 1).val ∧ (i 1).val < win0_5.index _ 1 * 128 + 128
    rw [e1]; omega

end

/-- THE ARRAY the region leaves in its output window: the two dense layers of the input arrays (the biases reach the
    region as one-row matrices that a reshape made of them). -/
theorem arr_eq (V : (c : Dev nD) → (b : Ref sig .tc) → Buf (Elt Ideal) ((c : Thread nD τ).loc b)) (c : Dev nD)
    (b1 : FVec Ideal S256 .f32) (hb1 : V c main_v0 = shapeCast S1x256 b1 shapeCasts_S256_S1x256)
    (b2 : FVec Ideal S128 .f32) (hb2 : V c main_v1 = shapeCast S1x128 b2 shapeCasts_S128_S1x128) :
    (Gen.dat0 (F := Ideal) V c).arrAt 5 cfg0.N
      = Cert.Spec.prelayer (F := Ideal) (V c main_arg0) (V c main_arg6) b1 (V c main_arg8) b2 :=
  (Gen.dat0 (F := Ideal) V c).arrAt_eq_of_cover 5
    (Cert.Spec.prelayer (F := Ideal) (V c main_arg0) (V c main_arg6) b1 (V c main_arg8) b2)
    (fun t _ => flushed_eq V c b1 hb1 b2 hb2 t) cover

/-! ## Finiteness: the two layers of real arrays are real -/

theorem real_add {a b : EReal} (ha : ∃ r : ℝ, a = (r : EReal)) (hb : ∃ r : ℝ, b = (r : EReal)) : ∃ r : ℝ, a + b = (r : EReal) := by
  obtain ⟨r, rfl⟩ := ha; obtain ⟨s, rfl⟩ := hb; exact ⟨r + s, (EReal.coe_add r s).symm⟩

theorem real_mul {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, (EReal.coe_mul r s).symm⟩

theorem real_sum {ι : Type} [Fintype ι] (f : ι → EReal) (h : ∀ k, ∃ r : ℝ, f k = (r : EReal)) : ∃ r : ℝ, ∑ k, f k = (r : EReal) :=
  Finset.sum_induction f (fun a => ∃ r : ℝ, a = (r : EReal)) (fun _ _ ha hb => real_add ha hb) ⟨0, EReal.coe_zero.symm⟩ fun k _ => h k

/-- The slope literal is a real number. -/
theorem slope_real : ∃ r : ℝ, Ideal.ofBits .f32 0x3C23D70A#32 = (r : EReal) := by
  unfold Ideal.ofBits Ideal.ieee
  dsimp only
  rw [if_neg (by decide), if_neg (by decide)]
  exact ⟨_, rfl⟩

/-- The rectifier of a real is real: both branches of the select are. -/
theorem lr_real {y : EReal} (hy : ∃ r : ℝ, y = (r : EReal)) : ∃ r : ℝ, lr y = (r : EReal) := by
  unfold lr Scalar.select
  split
  · exact hy
  · exact real_mul slope_real hy

/-- Every entry of the two dense layers of real arrays is real: finite sums of products of reals, and the rectifier. -/
theorem prelayer_finite (x : FVec Ideal S50000x256 .f32) (w1 : FVec Ideal S256x256 .f32) (b1 : FVec Ideal S256 .f32)
    (w2 : FVec Ideal S256x128 .f32) (b2 : FVec Ideal S128 .f32)
    (hx : ∀ i, ∃ r : ℝ, x i = (r : EReal)) (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) :
    ∀ i, ∃ r : ℝ, Cert.Spec.prelayer (F := Ideal) x w1 b1 w2 b2 i = (r : EReal) := by
  intro i
  obtain ⟨p, q, rfl⟩ : ∃ (p : Fin 50000) (q : Fin 128), i = ix2 p q := ⟨i 0, i 1, eq_ix2 i⟩
  rw [prelayer_apply]
  unfold pre
  refine lr_real (real_add (real_sum _ fun k => real_mul (lr_real (real_add (real_sum _ fun j => real_mul (hx _) (hw1 _)) (hb1 _))) (hw2 _)) (hb2 _))

end Cert.KernelIdeal.Reg0

end
-- ==== Proof.DenseIdx.lean ====
/-
  A DENSE LAYER x · W + b READ AT AN ENTRY.

  The pieces both descriptions of a dense layer are made of, each read at an entry (p, q) of the result, at the exact
  instance: the host's plain product of an M×K by a K×N matrix is the sum over the contracted coordinate of the
  products of the operands' entries; a row vector [1, N] broadcast down M rows reads its entry in column q; a bias
  [N] broadcast first to [1, N] and then down the rows reads its entry q; a bias [N] reshaped to [1, N] reads its
  entry q in row 0.
-/
import proofs.«175486_j44117904065163_2_alg».proof.Proof.LibMatmulIdx
import Idealize.ShloMosaic.Lib.Pipeline.Value
import Idealize.ShloMosaic.Lib.ValueIdx
import Idealize.ShloMosaic.PureOps.Ideal.Laws

noncomputable section

open scoped BigOperators

namespace Cert.DenseIdx

open Idealize.ShloMosaic Idealize.ShloMosaic.ValueIdx

/-- The host's plain product read at (p, c): the sum over the contracted coordinate. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (c : Fin N) :
    FloatOps.dotGeneral (DotDims.plain M K N) prec sched lhs rhs (ix2 p c)
      = ∑ k : Fin K, lhs (ix2 p k) * rhs (ix2 k c) := by
  rw [Ideal.dotGeneral_apply, ← Equiv.sum_comp (contrEquiv1 (DotDims.plain M K N) K rfl rfl).symm]
  refine Finset.sum_congr rfl fun k _ => ?_
  rw [Cert.MatmulIdx.plain_lhsIdx, Cert.MatmulIdx.plain_rhsIdx]

/-- A row vector broadcast down the rows reads, at (p, q), its entry in column q. -/
theorem broadcastTo_row_apply {α : Type} {M N : Nat} (x : (⟨2, ![1, N]⟩ : Shape).Idx → α)
    (h : (⟨2, ![1, N]⟩ : Shape).Broadcasts ⟨2, ![M, N]⟩) (p : Fin M) (q : Fin N) :
    broadcastTo ⟨2, ![M, N]⟩ x h (ix2 p q) = x (ix2 0 q) := by
  refine broadcastTo_apply x h (ix2 p q) (ix2 0 q) fun a => ?_
  match a with
  | ⟨0, _⟩ => exact (if_pos rfl).symm
  | ⟨1, _⟩ =>
    show q.val = if N = 1 then 0 else q.val
    split
    · have := q.isLt; omega
    · rfl

/-- A vector [N] broadcast to [1, N] and then down the rows reads, at (p, q), its entry q. -/
theorem broadcastInDim_bias_apply {α : Type} {M N : Nat} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 0 q) fun a => ?_).trans
    (broadcastInDim_apply ![1] h1 b (ix2 0 q) (ix1 q) fun a => ?_)
  · match a with
    | ⟨0, _⟩ => exact (if_pos rfl).symm
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- A vector [N] reshaped to [1, N] reads, at (0, q), its entry q. -/
theorem shapeCast_row_apply {α : Type} {N : Nat} (b : (⟨1, ![N]⟩ : Shape).Idx → α)
    (h : (⟨1, ![N]⟩ : Shape).ShapeCasts ⟨2, ![1, N]⟩) (z : Fin 1) (q : Fin N) :
    shapeCast ⟨2, ![1, N]⟩ b h (ix2 z q) = b (ix1 q) := by
  refine shapeCast_apply b h (ix2 z q) (ix1 q) ?_
  rw [Shape.rowMajor_val_one, Shape.rowMajor_val_two]
  show q.val = z.val * N + q.val
  have := z.isLt
  have hz : z.val = 0 := by omega
  rw [hz, Nat.zero_mul, Nat.zero_add]

end Cert.DenseIdx

end
-- ==== Proof.Reg1Idx.lean ====
/-
  Region 1, entry by entry: the block the dense kernel's body stores, and the dense layer of the specification,
  both read at an entry (row, column) as the sum over the contracted coordinate plus the bias entry of the column.
-/
import proofs.«175486_j44117904065163_2_alg».proof.Proof.Gen.KernelIdeal.Frame
import proofs.«175486_j44117904065163_2_alg».proof.Proof.Spec
import proofs.«175486_j44117904065163_2_alg».proof.Proof.DenseIdx
import Idealize.ShloMosaic.Lib.Pipeline.Value
import Idealize.ShloMosaic.Lib.ValueIdx
import Idealize.ShloMosaic.PureOps.Ideal.Laws

noncomputable section

open scoped BigOperators

namespace Cert.KernelIdeal.Reg1

open Idealize.ShloMosaic Idealize.ShloMosaic.TcCoe Idealize.SL.Sem Idealize.ShloMosaic.ValueIdx Cert.KernelIdeal Cert.KernelIdeal.Facts₀ Cert.KernelIdeal.Facts

/-- The block the body stores, at (p, q): row p of the row block times column q of the weights, plus the bias
    entry q (a change of float format is the identity on extended reals). -/
theorem pay_apply (x0 : FVec Ideal S1000x128 .f32) (x1 : FVec Ideal S128x256 .f32) (x2 : FVec Ideal S1x256 .f32)
    (p : Fin 1000) (q : Fin 256) :
    Gen.k1_pay1 (F := Ideal) x0 x1 x2 (ix2 p q) = (∑ k : Fin 128, x0 (ix2 p k) * x1 (ix2 k q)) + x2 (ix2 0 q) := by
  unfold Gen.k1_pay1
  rw [shapeCast_self, shapeCast_self]
  refine (addf_apply _ _ _).trans (congrArg₂ (· + ·) ?_ ?_)
  · exact Cert.MatmulIdx.matmul_plain_zero_apply (M := 1000) (K := 128) (N := 256) none
      (truncf .bf16 x0 bitsLt_bf16_f32) (truncf .bf16 x1 bitsLt_bf16_f32) p q
  · exact Cert.DenseIdx.broadcastTo_row_apply x2 _ p q

/-- The specification's dense layer at (r, q): row r of the input times column q of the weights, plus the bias
    entry q. -/
theorem spec_apply (X : FVec Ideal Cert.ReferenceIdeal.S50000x128 .f32) (W : FVec Ideal Cert.ReferenceIdeal.S128x256 .f32)
    (b : FVec Ideal Cert.ReferenceIdeal.S256 .f32) (r : Fin 50000) (q : Fin 256) :
    Cert.Spec.dense_128_256 (F := Ideal) X W b (ix2 r q) = (∑ k : Fin 128, X (ix2 r k) * W (ix2 k q)) + b (ix1 q) := by
  unfold Cert.Spec.dense_128_256 Cert.Spec.bias256
  refine (addf_apply _ _ _).trans (congrArg₂ (· + ·) ?_ ?_)
  · exact Cert.DenseIdx.dotGeneral_plain_apply (M := 50000) (K := 128) (N := 256) none .single X W r q
  · exact Cert.DenseIdx.broadcastInDim_bias_apply b _ _ r q

end Cert.KernelIdeal.Reg1

end
-- ==== Proof.Reg1.lean ====
/-
  Region 1: the array the dense kernel leaves in its output window is the dense layer of the specification,
  x · W + b, of the arrays the region reads.
-/
import proofs.«175486_j44117904065163_2_alg».proof.Proof.Gen.KernelIdeal.Frame
import proofs.«175486_j44117904065163_2_alg».proof.Proof.Spec
import proofs.«175486_j44117904065163_2_alg».proof.Proof.Reg1Idx
import Idealize.ShloMosaic.Lib.Pipeline.Value
import Idealize.ShloMosaic.Lib.ValueIdx
import Idealize.ShloMosaic.PureOps.Ideal.Laws

noncomputable section

open scoped BigOperators

namespace Cert.KernelIdeal.Reg1

open Idealize.ShloMosaic Idealize.ShloMosaic.TcCoe Idealize.SL.Sem Idealize.ShloMosaic.ValueIdx Cert.KernelIdeal Cert.KernelIdeal.Facts₀ Cert.KernelIdeal.Facts

theorem hz : (![0, 0] : Fin 2 → Nat) = fun _ => 0 := funext fun a => by fin_cases a <;> rfl

/-- The printed index maps over the grid: the row-blocked windows (input 0, output 3) sit at block (t, 0), the
    weights and the bias at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b)) (c : Dev nD)

/-- The row block of the input at point t is rows 1000 t … 1000 t + 999 of the input array. -/
theorem rows_apply (t : Fin cfg1.N) (p : Fin 1000) (k : Fin 128) (i : S50000x128.Idx)
    (hi0 : (i 0).val = 1000 * t.val + p.val) (hi1 : (i 1).val = k.val) :
    (Gen.iblk1 (F := Ideal) V c 0 t : Vec Ideal S1000x128 .f32) (ix2 p k) = (V c main_v45 : S50000x128.Idx → Elt Ideal .f32) i := by
  obtain ⟨e0, e1, -⟩ := idx_facts t
  unfold Gen.iblk1
  rw [View.read_apply]
  show V c main_v45 _ = V c main_v45 _
  refine congrArg (V c main_v45) (funext fun a => Fin.ext ?_)
  match a with
  | ⟨0, _⟩ => show win1_0.index t 0 * 1000 + 1 * p.val = (i 0).val; rw [e0, hi0]; omega
  | ⟨1, _⟩ => show win1_0.index t 1 * 128 + 1 * k.val = (i 1).val; rw [e1, hi1]; omega

/-- The weights' block at every point is the weight array. -/
theorem weights_apply (t : Fin cfg1.N) (k : Fin 128) (q : Fin 256) :
    (Gen.iblk1 (F := Ideal) V c 1 t : Vec Ideal S128x256 .f32) (ix2 k q) = (V c main_arg10 : S128x256.Idx → Elt Ideal .f32) (ix2 k q) := by
  obtain ⟨-, -, e0, e1, -⟩ := idx_facts t
  unfold Gen.iblk1
  rw [View.read_apply]
  show V c main_arg10 _ = V c main_arg10 _
  refine congrArg (V c main_arg10) (funext fun a => Fin.ext ?_)
  match a with
  | ⟨0, _⟩ => show win1_1.index t 0 * 128 + 1 * k.val = k.val; rw [e0]; omega
  | ⟨1, _⟩ => show win1_1.index t 1 * 256 + 1 * q.val = q.val; rw [e1]; omega

/-- The bias' block at every point is the bias row. -/
theorem biasrow_apply (t : Fin cfg1.N) (z : Fin 1) (q : Fin 256) :
    (Gen.iblk1 (F := Ideal) V c 2 t : Vec Ideal S1x256 .f32) (ix2 z q) = (V c main_v46 : S1x256.Idx → Elt Ideal .f32) (ix2 z q) := by
  obtain ⟨-, -, -, -, e0, e1, -⟩ := idx_facts t
  unfold Gen.iblk1
  rw [View.read_apply]
  show V c main_v46 _ = V c main_v46 _
  refine congrArg (V c main_v46) (funext fun a => Fin.ext ?_)
  match a with
  | ⟨0, _⟩ => show win1_2.index t 0 * 1 + 1 * z.val = z.val; rw [e0]; omega
  | ⟨1, _⟩ => show win1_2.index t 1 * 256 + 1 * q.val = q.val; rw [e1]; omega

/-- WHAT POINT t WRITES BACK is block t of the dense layer of the arrays the region reads. -/
theorem flushed_eq (b : FVec Ideal S256 .f32) (hb : V c main_v46 = shapeCast S1x256 b shapeCasts_S256_S1x256) (t : Fin cfg1.N) :
    (Gen.dat1 (F := Ideal) V c).flushed 3 t
      = ((cfg1.win 3).blk t).view.read (Elt Ideal) (Cert.Spec.dense_128_256 (F := Ideal) (V c main_v45) (V c main_arg10) b) := by
  show (cfg1.win 3).cut (grid1.coords t) ((Gen.dat1 V c).after 3 t) = _
  rw [Gen.after1_3]
  unfold Gen.out1_3
  rw [View.canon_unit_zero hz]
  simp only [View.ld_unit_zero (S := S1000x128) hz, View.ld_unit_zero (S := S128x256) hz, View.ld_unit_zero (S := S1x256) hz]
  funext j
  obtain ⟨p, q, rfl⟩ : ∃ (p : Fin 1000) (q : Fin 256), j = ix2 p q := ⟨j 0, j 1, eq_ix2 j⟩
  have hN : cfg1.N = 50 := Gen.N_1
  have ht : t.val < 50 := hN ▸ t.isLt
  have hp : p.val < 1000 := p.isLt
  obtain ⟨-, -, -, -, -, -, e0, e1⟩ := idx_facts t
  have hemb : ((cfg1.win 3).blk t).view.emb (ix2 p q) = (ix2 ⟨1000 * t.val + p.val, by omega⟩ q : S50000x256.Idx) := by
    funext a; apply Fin.ext
    match a with
    | ⟨0, _⟩ => show win1_3.index t 0 * 1000 + 1 * p.val = 1000 * t.val + p.val; rw [e0]; omega
    | ⟨1, _⟩ => show win1_3.index t 1 * 256 + 1 * q.val = q.val; rw [e1]; omega
  show Gen.k1_pay1 (Gen.iblk1 V c 0 t) (Gen.iblk1 V c 1 t) (Gen.iblk1 V c 2 t) (ix2 p q) = _
  rw [View.read_apply]
  refine Eq.trans ?_ (congrArg (Cert.Spec.dense_128_256 (F := Ideal) (V c main_v45) (V c main_arg10) b) hemb).symm
  rw [spec_apply]
  refine (pay_apply _ _ _ p q).trans (congrArg₂ (· + ·) (Finset.sum_congr rfl fun k _ => congrArg₂ (· * ·) ?_ ?_) ?_)
  · exact rows_apply V c t p k _ rfl rfl
  · exact weights_apply V c t k q
  · exact (biasrow_apply V c t 0 q).trans ((congrFun hb _).trans (Cert.DenseIdx.shapeCast_row_apply b _ 0 q))

/-- An index of the output array is in point t's block iff each coordinate is in the block's range on its axis. -/
theorem mem_blk (t : Fin cfg1.N) (i : S50000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v47).slice (win1_3.rect t)).set ↔ _
  rw [View.set_slice_whole, Rect.mem_set_unit]
  exact Iff.rfl

/-- THE COVER: row r of the output array is in the block of point r / 1000, which is written back. -/
theorem cover (i : S50000x256.Idx) :
    ∃ t : Fin cfg1.N, (cfg1.win 3).flush t = true ∧ i ∈ ((cfg1.win 3).blk t).view.set := by
  have hN : cfg1.N = 50 := Gen.N_1
  have hi0 : (i 0).val < 50000 := (i 0).isLt
  have hi1 : (i 1).val < 256 := (i 1).isLt
  obtain ⟨t, htv⟩ : ∃ t : Fin cfg1.N, t.val = (i 0).val / 1000 := ⟨⟨(i 0).val / 1000, by rw [hN]; omega⟩, rfl⟩
  obtain ⟨-, -, -, -, -, -, e0, e1⟩ := idx_facts t
  refine ⟨t, Gen.flush1_3 t, ?_⟩
  rw [mem_blk]
  intro a
  match a with
  | ⟨0, _⟩ =>
    show win1_3.index t 0 * 1000 ≤ (i 0).val ∧ (i 0).val < win1_3.index t 0 * 1000 + 1000
    rw [e0, htv]; omega
  | ⟨1, _⟩ =>
    show win1_3.index t 1 * 256 ≤ (i 1).val ∧ (i 1).val < win1_3.index t 1 * 256 + 256
    rw [e1]; omega

end Blocks

/-- THE ARRAY the region leaves in its output window: the dense layer x · W + b of the arrays it reads, the bias
    row being the reshape of the bias vector. -/
theorem arr_eq (V : (c : Dev nD) → (b : Ref sig .tc) → Buf (Elt Ideal) ((c : Thread nD τ).loc b)) (c : Dev nD)
    (b : FVec Ideal S256 .f32) (hb : V c main_v46 = shapeCast S1x256 b shapeCasts_S256_S1x256) :
    (Gen.dat1 (F := Ideal) V c).arrAt 3 cfg1.N
      = Cert.Spec.dense_128_256 (F := Ideal) (V c main_v45) (V c main_arg10) b :=
  (Gen.dat1 (F := Ideal) V c).arrAt_eq_of_cover 3 _ (fun t _ => flushed_eq V c b hb t) cover

end Cert.KernelIdeal.Reg1

end
-- ==== Proof.GruIdx.lean ====
/-
  The gated recurrent cell at one entry, as plain arithmetic on extended reals.

  A gate's pre-activation is a row of the input times a column of the weight plus the bias entry; the cell
  combines six pre-activations (reset, update and candidate, from the input and from the carried state) with the
  carried entry: r = σ(a₀ + b₀), z = σ(a₁ + b₁), n = tanh(a₂ + r·b₂), result (1 − z)·n + z·h.
  Both the blocked computation (a matrix product into a zero accumulator plus a broadcast row) and the whole-array
  one (a contraction plus a bias broadcast in two steps) read, at an entry, as the same `gate`.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«175486_j44117904065163_2_alg».proof.Proof.LibMatmulIdx

noncomputable section

open scoped BigOperators

namespace Cert.GruIdx

open Idealize.ShloMosaic Idealize.ShloMosaic.ValueIdx

/-- x where x ≥ 0, else slope · x (the slope the f32 nearest 1/100). -/
def lrelu (x : EReal) : EReal :=
  Scalar.select (FloatOps.cmpf (F := Ideal) (φ := .f32) .oge x (Ideal.ofBits .f32 0x00000000#32)) x
    (Ideal.ofBits .f32 0x3C23D70A#32 * x)

/-- Column `c` of x · W + b for one row x. -/
def gate {K N : Nat} (x : Fin K → EReal) (w : (⟨2, ![K, N]⟩ : Shape).Idx → EReal) (b : Fin N → EReal) (c : Fin N) : EReal :=
  (∑ k : Fin K, x k * w (ix2 k c)) + b c

/-- The cell from its six pre-activations and the carried entry. -/
def cell (a0 b0 a1 b1 a2 b2 h : EReal) : EReal :=
  (Ideal.ofBits .f32 0x3F800000#32 - Ideal.logistic (a1 + b1)) * Ideal.tanh (a2 + Ideal.logistic (a0 + b0) * b2)
    + Ideal.logistic (a1 + b1) * h

/-- One entry of the cell's result: row x of the (rectified) input, row h of the carried state, the two weights,
    the two biases, the three gate columns and the carried entry. -/
def out {K N : Nat} (x h : Fin K → EReal) (wih whh : (⟨2, ![K, N]⟩ : Shape).Idx → EReal) (bih bhh : Fin N → EReal)
    (c0 c1 c2 : Fin N) (hq : EReal) : EReal :=
  cell (gate (fun k => lrelu (x k)) wih bih c0) (gate h whh bhh c0)
    (gate (fun k => lrelu (x k)) wih bih c1) (gate h whh bhh c1)
    (gate (fun k => lrelu (x k)) wih bih c2) (gate h whh bhh c2) hq

/-- The cell's entry depends on its operands only through the entries it reads. -/
theorem out_congr {K N : Nat} {x x' h h' : Fin K → EReal} {wih wih' whh whh' : (⟨2, ![K, N]⟩ : Shape).Idx → EReal}
    {bih bih' bhh bhh' : Fin N → EReal} (c0 c1 c2 : Fin N) {hq hq' : EReal}
    (hx : ∀ k, x k = x' k) (hh : ∀ k, h k = h' k) (hwi : wih = wih') (hwh : whh = whh')
    (hbi : ∀ c, bih c = bih' c) (hbh : ∀ c, bhh c = bhh' c) (hhq : hq = hq') :
    out x h wih whh bih bhh c0 c1 c2 hq = out x' h' wih' whh' bih' bhh' c0 c1 c2 hq' := by
  obtain rfl : x = x' := funext hx
  obtain rfl : h = h' := funext hh
  obtain rfl : bih = bih' := funext hbi
  obtain rfl : bhh = bhh' := funext hbh
  subst hwi hwh hhq
  rfl

/-- The logistic function written out with negate, exponential, add and divide around the f32 one. -/
theorem sigm_eq (x : EReal) :
    Ideal.div (Ideal.ofBits .f32 0x3F800000#32) (Ideal.ofBits .f32 0x3F800000#32 + Ideal.exp (-x)) = Ideal.logistic x := by
  rw [Ideal.ofBits_one_f32]; rfl

/-- A blocked gate: the product of (narrowed) operands into the zero accumulator plus the one-row bias broadcast
    over the rows, read at an entry. -/
theorem gate_matmul {M K N : Nat} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (hb : FTy.bits .bf16 < FTy.bits .f32)
    (b : FVec Ideal ⟨2, ![1, N]⟩ .f32) (hbc : (⟨2, ![1, N]⟩ : Shape).Broadcasts ⟨2, ![M, N]⟩) (p : Fin M) (c : Fin N) :
    addf (matmul d prec (truncf .bf16 x hb) (truncf .bf16 w hb) (constant ⟨2, ![M, N]⟩ .f32 0x00000000#32))
        (broadcastTo ⟨2, ![M, N]⟩ b hbc) (ix2 p c)
      = gate (fun k => x (ix2 p k)) w (fun c => b (ix2 (0 : Fin 1) c)) c := by
  subst hd
  rw [addf_apply, broadcastTo_1b_ab_apply]
  unfold gate
  exact congrArg (· + b (ix2 (0 : Fin 1) c)) (Cert.MatmulIdx.matmul_plain_zero_apply prec _ _ p c)

/-- The whole-array gate: the contraction of the operands plus the bias broadcast first to one row and then over the
    rows, read at an entry. -/
theorem gate_dot {M K N : Nat} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (c : Fin N) :
    addf (Host.dotGeneral d prec x w)
        (broadcastInDim ⟨2, ![M, N]⟩ ![0, 1] h2 (broadcastInDim ⟨2, ![1, N]⟩ ![1] h1 b)) (ix2 p c)
      = gate (fun k => x (ix2 p k)) w (fun c => b (ix1 c)) c := by
  subst hd
  have hc : (if N = 1 then 0 else c.val) = c.val := by
    split
    · have := c.isLt; omega
    · rfl
  have e2 : broadcastInDim ⟨2, ![M, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun a => by
      match a with
      | ⟨0, _⟩ => rfl
      | ⟨1, _⟩ => exact hc.symm
  have e1 : broadcastInDim ⟨2, ![1, N]⟩ ![1] h1 b (ix2 (0 : Fin 1) c) = b (ix1 c) :=
    broadcastInDim_apply _ h1 _ (ix2 (0 : Fin 1) c) (ix1 c) fun a => by
      match a with
      | ⟨0, _⟩ => exact hc.symm
  rw [addf_apply, e2, e1]
  unfold gate
  refine congrArg (· + b (ix1 c)) ?_
  refine (Ideal.dotGeneral_apply (DotDims.plain M K N) prec .single x w (ix2 p c)).trans ?_
  rw [← Equiv.sum_comp (contrEquiv1 (DotDims.plain M K N) K rfl rfl).symm]
  refine Finset.sum_congr rfl fun k _ => ?_
  rw [Cert.MatmulIdx.plain_lhsIdx, Cert.MatmulIdx.plain_rhsIdx]

/-- The host's exponential, negation and hyperbolic tangent at an entry. -/
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostTanh_apply {s : Shape} {φ : FTy} (a : FVec Ideal s φ) (i : s.Idx) : Host.tanh a i = Ideal.tanh (a i) := rfl

/-- The vector logistic and hyperbolic tangent at an entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

end Cert.GruIdx

end
-- ==== Proof.Reg2Pay.lean ====
/-
  The width-256 cell's blocked computation read at an entry: one block of 1000 rows, entry (p, q).
-/
import proofs.«175486_j44117904065163_2_alg».proof.Proof.Gen.KernelIdeal.Skeleton
import proofs.«175486_j44117904065163_2_alg».proof.Proof.GruIdx

noncomputable section

namespace Cert.KernelIdeal.Reg2

open Idealize.ShloMosaic Idealize.ShloMosaic.ValueIdx Cert.KernelIdeal Cert.KernelIdeal.Facts₀ Cert.KernelIdeal.Facts

/-- Entry (p, q) of the block the body computes: the cell of row p of the two row blocks, the whole weights and the
    one-row biases, at gate columns q, 256 + q and 512 + q. -/
theorem pay_apply (x0 x1 : Vec Ideal S1000x256 .f32) (w1 w2 : Vec Ideal S256x768 .f32) (b1 b2 : Vec Ideal S1x768 .f32)
    (p : Fin 1000) (q : Fin 256) :
    Gen.k2_pay1 (F := Ideal) x0 x1 w1 w2 b1 b2 (ix2 p q)
      = Cert.GruIdx.out (fun k => x0 (ix2 p k)) (fun k => x1 (ix2 p k)) w1 w2
          (fun c => b1 (ix2 (0 : Fin 1) c)) (fun c => b2 (ix2 (0 : Fin 1) c))
          ⟨0 + q.val, by omega⟩ ⟨256 + q.val, by omega⟩ ⟨512 + q.val, by omega⟩ (x1 (ix2 p q)) := by
  unfold Gen.k2_pay1
  simp only [shapeCast_self]
  simp only [addf_apply, mulf_apply, subf_apply, broadcast_apply, Cert.GruIdx.logistic_apply, Cert.GruIdx.tanh_apply]
  simp only [slice2_axis1_eq]
  simp only [Cert.GruIdx.gate_matmul dot_S1000x256_S256x768_S1000x768_1_0_0_1_n_n rfl]
  rfl

end Cert.KernelIdeal.Reg2

end
-- ==== Proof.Reg2Spec.lean ====
/-
  The width-256 cell as a whole-array function, read at an entry (p, q).
-/
import proofs.«175486_j44117904065163_2_alg».proof.Proof.Spec
import proofs.«175486_j44117904065163_2_alg».proof.Proof.GruIdx

noncomputable section

namespace Cert.Spec.Gru256

open Idealize.ShloMosaic Idealize.ShloMosaic.ValueIdx Cert.ReferenceIdeal Cert.ReferenceIdeal.Facts₀ Cert.ReferenceIdeal.Facts

/-- A constant broadcast from rank 0 reads the constant everywhere. -/
theorem bc_const (b : BitVec (FTy.bits .f32)) (j : S50000x256.Idx) :
    broadcastInDim S50000x256 ![] bcast_S_S50000x256 (constant (F := Ideal) S_ .f32 b) j = Ideal.ofBits .f32 b := rfl

/-- The rectified input at an entry. -/
theorem lrelu256_apply (X : FVec Ideal S50000x256 .f32) (i : S50000x256.Idx) :
    Cert.Spec.lrelu256 (F := Ideal) X i = Cert.GruIdx.lrelu (X i) := by
  rfl

/-- Entry (p, q) of the cell: row p of the input and of the carried state, the weights, the biases, gate columns
    q, 256 + q and 512 + q. -/
theorem spec_apply (X H : FVec Ideal S50000x256 .f32) (wih whh : FVec Ideal S256x768 .f32) (bih bhh : FVec Ideal S768 .f32)
    (p : Fin 50000) (q : Fin 256) :
    Cert.Spec.gru256 (F := Ideal) (Cert.Spec.lrelu256 X) H wih whh bih bhh (ix2 p q)
      = Cert.GruIdx.out (fun k => X (ix2 p k)) (fun k => H (ix2 p k)) wih whh
          (fun c => bih (ix1 c)) (fun c => bhh (ix1 c))
          ⟨0 + q.val, by omega⟩ ⟨256 + q.val, by omega⟩ ⟨512 + q.val, by omega⟩ (H (ix2 p q)) := by
  unfold Cert.Spec.gru256 Cert.Spec.sigm256 Cert.Spec.one256 Cert.Spec.bias768
  simp only [addf_apply, mulf_apply, subf_apply, hostDivf_apply, Cert.GruIdx.hostExp_apply, Cert.GruIdx.hostNegf_apply,
    Cert.GruIdx.hostTanh_apply]
  rw [bc_const]
  simp only [slice2_axis1_eq]
  simp only [Cert.GruIdx.gate_dot dot_S50000x256_S256x768_S50000x768_1_0_0_1_n_n rfl, Cert.GruIdx.sigm_eq, lrelu256_apply]
  rfl

end Cert.Spec.Gru256

end
-- ==== Proof.Reg2.lean ====
/-
  The width-256 gated recurrent cell's region as a whole-array function: the array its pipeline leaves in the output
  window is the cell of the (rectified) input, the carried state, the two weights and the two biases.

  Point t of the grid handles rows 1000·t … 1000·t + 999: the two row-blocked inputs and the output move together,
  the weights and the one-row biases are whole at every point. So the block a point writes back is that block of
  the whole-array cell, and the fifty blocks cover the array.
-/
import proofs.«175486_j44117904065163_2_alg».proof.Proof.Gen.KernelIdeal.Frame
import proofs.«175486_j44117904065163_2_alg».proof.Proof.Spec
import proofs.«175486_j44117904065163_2_alg».proof.Proof.Reg2Pay
import proofs.«175486_j44117904065163_2_alg».proof.Proof.Reg2Spec
import Idealize.ShloMosaic.Lib.Pipeline.Value
import Idealize.ShloMosaic.Lib.ValueIdx
import Idealize.ShloMosaic.PureOps.Ideal.Laws

noncomputable section

namespace Cert.KernelIdeal.Reg2

open Idealize.ShloMosaic Idealize.ShloMosaic.TcCoe Idealize.SL.Sem Cert.KernelIdeal Cert.KernelIdeal.Facts₀ Cert.KernelIdeal.Facts
open Idealize.ShloMosaic.ValueIdx
open Idealize.ShloMosaic.Pipeline (Dat)

theorem hz : (![0, 0] : Fin 2 → Nat) = fun _ => 0 := funext fun a => by fin_cases a <;> rfl

/-- The printed index maps over the grid: the row-blocked windows are at block (t, 0), the others at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section
variable (V : (c : Dev nD) → (b : Ref sig .tc) → Buf (Elt Ideal) ((c : Thread nD τ).loc b)) (c : Dev nD)

/-- Row p of the input's block at point t is row 1000·t + p of the array. -/
theorem iblk0_apply (t : Fin cfg2.N) (p : Fin 1000) (k : Fin 256) (P : Fin 50000) (hP : P.val = 1000 * t.val + p.val) :
    (Gen.iblk2 V c 0 t : Vec Ideal S1000x256 .f32) (ix2 p k) = (V c main_v47 : S50000x256.Idx → EReal) (ix2 P k) := by
  obtain ⟨e0, e1, -⟩ := idx_facts t
  unfold Gen.iblk2
  rw [View.read_apply]
  show V c main_v47 _ = V c main_v47 _
  congr 1
  funext a
  apply Fin.ext
  match a with
  | ⟨0, _⟩ => show win2_0.index t 0 * 1000 + 1 * p.val = P.val; rw [e0, hP]; omega
  | ⟨1, _⟩ => show win2_0.index t 1 * 256 + 1 * k.val = k.val; rw [e1]; omega

/-- Row p of the carried state's block at point t is row 1000·t + p of the array. -/
theorem iblk1_apply (t : Fin cfg2.N) (p : Fin 1000) (k : Fin 256) (P : Fin 50000) (hP : P.val = 1000 * t.val + p.val) :
    (Gen.iblk2 V c 1 t : Vec Ideal S1000x256 .f32) (ix2 p k) = (V c main_arg4 : S50000x256.Idx → EReal) (ix2 P k) := by
  obtain ⟨-, -, e0, e1, -⟩ := idx_facts t
  unfold Gen.iblk2
  rw [View.read_apply]
  show V c main_arg4 _ = V c main_arg4 _
  congr 1
  funext a
  apply Fin.ext
  match a with
  | ⟨0, _⟩ => show win2_1.index t 0 * 1000 + 1 * p.val = P.val; rw [e0, hP]; omega
  | ⟨1, _⟩ => show win2_1.index t 1 * 256 + 1 * k.val = k.val; rw [e1]; omega

/-- The input weight's block at any point is the whole weight. -/
theorem iblk2_eq (t : Fin cfg2.N) :
    (Gen.iblk2 V c 2 t : Vec Ideal S256x768 .f32) = (V c main_arg14 : S256x768.Idx → EReal) := by
  obtain ⟨-, -, -, -, e0, e1, -⟩ := idx_facts t
  funext y
  unfold Gen.iblk2
  rw [View.read_apply]
  show V c main_arg14 _ = V c main_arg14 _
  congr 1
  funext a
  apply Fin.ext
  match a with
  | ⟨0, _⟩ => show win2_2.index t 0 * 256 + 1 * (y 0).val = (y 0).val; rw [e0]; omega
  | ⟨1, _⟩ => show win2_2.index t 1 * 768 + 1 * (y 1).val = (y 1).val; rw [e1]; omega

/-- The carried weight's block at any point is the whole weight. -/
theorem iblk3_eq (t : Fin cfg2.N) :
    (Gen.iblk2 V c 3 t : Vec Ideal S256x768 .f32) = (V c main_arg15 : S256x768.Idx → EReal) := by
  obtain ⟨-, -, -, -, -, -, e0, e1, -⟩ := idx_facts t
  funext y
  unfold Gen.iblk2
  rw [View.read_apply]
  show V c main_arg15 _ = V c main_arg15 _
  congr 1
  funext a
  apply Fin.ext
  match a with
  | ⟨0, _⟩ => show win2_3.index t 0 * 256 + 1 * (y 0).val = (y 0).val; rw [e0]; omega
  | ⟨1, _⟩ => show win2_3.index t 1 * 768 + 1 * (y 1).val = (y 1).val; rw [e1]; omega

/-- The input bias's block at any point, read at column c', is the bias the one-row array was cast from. -/
theorem iblk4_apply (bih : FVec Ideal S768 .f32) (hbih : V c main_v48 = shapeCast S1x768 bih shapeCasts_S768_S1x768)
    (t : Fin cfg2.N) (c' : Fin 768) :
    (Gen.iblk2 V c 4 t : Vec Ideal S1x768 .f32) (ix2 (0 : Fin 1) c') = bih (ix1 c') := by
  obtain ⟨-, -, -, -, -, -, -, -, e0, e1, -⟩ := idx_facts t
  unfold Gen.iblk2
  rw [View.read_apply]
  refine Eq.trans (b := (V c main_v48 : S1x768.Idx → EReal) (ix2 (0 : Fin 1) c')) ?_ ?_
  · show V c main_v48 _ = V c main_v48 _
    congr 1
    funext a
    apply Fin.ext
    match a with
    | ⟨0, _⟩ => show win2_4.index t 0 * 1 + 1 * 0 = 0; rw [e0]
    | ⟨1, _⟩ => show win2_4.index t 1 * 768 + 1 * c'.val = c'.val; rw [e1]; omega
  · rw [hbih]
    exact shapeCast_a_1a_apply bih shapeCasts_S768_S1x768 0 c'

/-- The carried bias's block at any point, read at column c', is the bias the one-row array was cast from. -/
theorem iblk5_apply (bhh : FVec Ideal S768 .f32) (hbhh : V c main_v49 = shapeCast S1x768 bhh shapeCasts_S768_S1x768)
    (t : Fin cfg2.N) (c' : Fin 768) :
    (Gen.iblk2 V c 5 t : Vec Ideal S1x768 .f32) (ix2 (0 : Fin 1) c') = bhh (ix1 c') := by
  obtain ⟨-, -, -, -, -, -, -, -, -, -, e0, e1, -⟩ := idx_facts t
  unfold Gen.iblk2
  rw [View.read_apply]
  refine Eq.trans (b := (V c main_v49 : S1x768.Idx → EReal) (ix2 (0 : Fin 1) c')) ?_ ?_
  · show V c main_v49 _ = V c main_v49 _
    congr 1
    funext a
    apply Fin.ext
    match a with
    | ⟨0, _⟩ => show win2_5.index t 0 * 1 + 1 * 0 = 0; rw [e0]
    | ⟨1, _⟩ => show win2_5.index t 1 * 768 + 1 * c'.val = c'.val; rw [e1]; omega
  · rw [hbhh]
    exact shapeCast_a_1a_apply bhh shapeCasts_S768_S1x768 0 c'

/-- WHAT POINT t WRITES BACK is block t of the whole-array cell of the arrays as the region finds them. -/
theorem flushed_eq (bih : FVec Ideal S768 .f32) (hbih : V c main_v48 = shapeCast S1x768 bih shapeCasts_S768_S1x768)
    (bhh : FVec Ideal S768 .f32) (hbhh : V c main_v49 = shapeCast S1x768 bhh shapeCasts_S768_S1x768) (t : Fin cfg2.N) :
    (Gen.dat2 (F := Ideal) V c).flushed 6 t = ((cfg2.win 6).blk t).view.read (Elt Ideal)
      (Cert.Spec.gru256 (F := Ideal) (Cert.Spec.lrelu256 (V c main_v47)) (V c main_arg4) (V c main_arg14) (V c main_arg15) bih bhh) := by
  show (cfg2.win 6).cut (grid2.coords t) ((Gen.dat2 V c).after 6 t) = _
  rw [Gen.after2_6]
  unfold Gen.out2_6
  rw [View.canon_unit_zero hz]
  simp only [View.ld_unit_zero (S := S1000x256) hz, View.ld_unit_zero (S := S256x768) hz, View.ld_unit_zero (S := S1x768) hz]
  funext j
  obtain ⟨p, q, rfl⟩ : ∃ (p : Fin 1000) (q : Fin 256), j = ix2 p q := ⟨j 0, j 1, eq_ix2 j⟩
  obtain ⟨-, -, -, -, -, -, -, -, -, -, -, -, e0, e1⟩ := idx_facts t
  have hN : cfg2.N = 50 := Gen.N_2
  have hP : 1000 * t.val + p.val < 50000 := by have := t.isLt; omega
  have hemb : ((cfg2.win 6).blk t).view.emb (ix2 p q) = ix2 (⟨1000 * t.val + p.val, hP⟩ : Fin 50000) q := by
    funext a
    apply Fin.ext
    match a with
    | ⟨0, _⟩ => show win2_6.index t 0 * 1000 + 1 * p.val = 1000 * t.val + p.val; rw [e0]; omega
    | ⟨1, _⟩ => show win2_6.index t 1 * 256 + 1 * q.val = q.val; rw [e1]; omega
  show Gen.k2_pay1 (F := Ideal) (Gen.iblk2 V c 0 t) (Gen.iblk2 V c 1 t) (Gen.iblk2 V c 2 t) (Gen.iblk2 V c 3 t)
      (Gen.iblk2 V c 4 t) (Gen.iblk2 V c 5 t) (ix2 p q)
    = Cert.Spec.gru256 (F := Ideal) (Cert.Spec.lrelu256 (V c main_v47)) (V c main_arg4) (V c main_arg14) (V c main_arg15) bih bhh
        (((cfg2.win 6).blk t).view.emb (ix2 p q))
  refine Eq.trans ?_ (congrArg _ hemb.symm)
  refine (pay_apply (Gen.iblk2 V c 0 t) (Gen.iblk2 V c 1 t) (Gen.iblk2 V c 2 t) (Gen.iblk2 V c 3 t)
    (Gen.iblk2 V c 4 t) (Gen.iblk2 V c 5 t) p q).trans ?_
  refine Eq.trans ?_ (Cert.Spec.Gru256.spec_apply (V c main_v47) (V c main_arg4) (V c main_arg14) (V c main_arg15) bih bhh
    ⟨1000 * t.val + p.val, hP⟩ q).symm
  exact Cert.GruIdx.out_congr _ _ _
    (fun k => iblk0_apply V c t p k ⟨1000 * t.val + p.val, hP⟩ rfl)
    (fun k => iblk1_apply V c t p k ⟨1000 * t.val + p.val, hP⟩ rfl)
    (iblk2_eq V c t) (iblk3_eq V c t)
    (fun c' => iblk4_apply V c bih hbih t c') (fun c' => iblk5_apply V c bhh hbhh t c')
    (iblk1_apply V c t p q ⟨1000 * t.val + p.val, hP⟩ rfl)

end

/-- An index of the array is in point t's block iff each coordinate is in the block's range on its axis. -/
theorem mem_blk (t : Fin cfg2.N) (i : S50000x256.Idx) :
    i ∈ ((cfg2.win 6).blk t).view.set ↔ ∀ a : Fin 2, win2_6.index t a * S1000x256.size a ≤ (i a).val
      ∧ (i a).val < win2_6.index t a * S1000x256.size a + S1000x256.size a := by
  show i ∈ ((View.whole main_v50).slice (win2_6.rect t)).set ↔ _
  rw [View.set_slice_whole, Rect.mem_set_unit]
  exact Iff.rfl

/-- Row r of the array is in the block of point r / 1000. -/
theorem cover (i : S50000x256.Idx) :
    ∃ t : Fin cfg2.N, (cfg2.win 6).flush t = true ∧ i ∈ ((cfg2.win 6).blk t).view.set := by
  have h0 : (i 0).val < 50000 := (i 0).isLt
  have h1 : (i 1).val < 256 := (i 1).isLt
  have hN : cfg2.N = 50 := Gen.N_2
  have ht : (i 0).val / 1000 < cfg2.N := by rw [hN]; omega
  obtain ⟨-, -, -, -, -, -, -, -, -, -, -, -, e0, e1⟩ := idx_facts ⟨(i 0).val / 1000, ht⟩
  refine ⟨⟨(i 0).val / 1000, ht⟩, Gen.flush2_6 _, ?_⟩
  rw [mem_blk]
  intro a
  match a with
  | ⟨0, _⟩ =>
    show win2_6.index ⟨(i 0).val / 1000, ht⟩ 0 * 1000 ≤ (i 0).val
      ∧ (i 0).val < win2_6.index ⟨(i 0).val / 1000, ht⟩ 0 * 1000 + 1000
    rw [e0]
    show (i 0).val / 1000 * 1000 ≤ (i 0).val ∧ (i 0).val < (i 0).val / 1000 * 1000 + 1000
    omega
  | ⟨1, _⟩ =>
    show win2_6.index ⟨(i 0).val / 1000, ht⟩ 1 * 256 ≤ (i 1).val
      ∧ (i 1).val < win2_6.index ⟨(i 0).val / 1000, ht⟩ 1 * 256 + 256
    rw [e1]
    omega

/-- THE ARRAY the region leaves in its output window is the whole-array cell of its input arrays. -/
theorem arr_eq (V : (c : Dev nD) → (b : Ref sig .tc) → Buf (Elt Ideal) ((c : Thread nD τ).loc b)) (c : Dev nD)
    (bih : FVec Ideal S768 .f32) (hbih : V c main_v48 = shapeCast S1x768 bih shapeCasts_S768_S1x768)
    (bhh : FVec Ideal S768 .f32) (hbhh : V c main_v49 = shapeCast S1x768 bhh shapeCasts_S768_S1x768) :
    (Gen.dat2 (F := Ideal) V c).arrAt 6 cfg2.N
      = Cert.Spec.gru256 (F := Ideal) (Cert.Spec.lrelu256 (V c main_v47)) (V c main_arg4) (V c main_arg14) (V c main_arg15) bih bhh := by
  exact (Gen.dat2 (F := Ideal) V c).arrAt_eq_of_cover 6 _ (fun t _ => flushed_eq V c bih hbih bhh hbhh t) cover

end Cert.KernelIdeal.Reg2

end
-- ==== Proof.Reg3Idx.lean ====
/-
  Region 3, entry by entry: the block the dense kernel's body stores, and the dense layer of the specification,
  both read at an entry (row, column) as the sum over the contracted coordinate plus the bias entry of the column.
-/
import proofs.«175486_j44117904065163_2_alg».proof.Proof.Gen.KernelIdeal.Frame
import proofs.«175486_j44117904065163_2_alg».proof.Proof.Spec
import proofs.«175486_j44117904065163_2_alg».proof.Proof.DenseIdx
import Idealize.ShloMosaic.Lib.Pipeline.Value
import Idealize.ShloMosaic.Lib.ValueIdx
import Idealize.ShloMosaic.PureOps.Ideal.Laws

noncomputable section

open scoped BigOperators

namespace Cert.KernelIdeal.Reg3

open Idealize.ShloMosaic Idealize.ShloMosaic.TcCoe Idealize.SL.Sem Idealize.ShloMosaic.ValueIdx Cert.KernelIdeal Cert.KernelIdeal.Facts₀ Cert.KernelIdeal.Facts

/-- The block the body stores, at (p, q): row p of the row block times column q of the weights, plus the bias
    entry q (a change of float format is the identity on extended reals). -/
theorem pay_apply (x0 : FVec Ideal S1000x256 .f32) (x1 : FVec Ideal S256x128 .f32) (x2 : FVec Ideal S1x128 .f32)
    (p : Fin 1000) (q : Fin 128) :
    Gen.k3_pay1 (F := Ideal) x0 x1 x2 (ix2 p q) = (∑ k : Fin 256, x0 (ix2 p k) * x1 (ix2 k q)) + x2 (ix2 0 q) := by
  unfold Gen.k3_pay1
  rw [shapeCast_self, shapeCast_self]
  refine (addf_apply _ _ _).trans (congrArg₂ (· + ·) ?_ ?_)
  · exact Cert.MatmulIdx.matmul_plain_zero_apply (M := 1000) (K := 256) (N := 128) none
      (truncf .bf16 x0 bitsLt_bf16_f32) (truncf .bf16 x1 bitsLt_bf16_f32) p q
  · exact Cert.DenseIdx.broadcastTo_row_apply x2 _ p q

/-- The specification's dense layer at (r, q): row r of the input times column q of the weights, plus the bias
    entry q. -/
theorem spec_apply (X : FVec Ideal Cert.ReferenceIdeal.S50000x256 .f32) (W : FVec Ideal Cert.ReferenceIdeal.S256x128 .f32)
    (b : FVec Ideal Cert.ReferenceIdeal.S128 .f32) (r : Fin 50000) (q : Fin 128) :
    Cert.Spec.dense_256_128 (F := Ideal) X W b (ix2 r q) = (∑ k : Fin 256, X (ix2 r k) * W (ix2 k q)) + b (ix1 q) := by
  unfold Cert.Spec.dense_256_128 Cert.Spec.bias128
  refine (addf_apply _ _ _).trans (congrArg₂ (· + ·) ?_ ?_)
  · exact Cert.DenseIdx.dotGeneral_plain_apply (M := 50000) (K := 256) (N := 128) none .single X W r q
  · exact Cert.DenseIdx.broadcastInDim_bias_apply b _ _ r q

end Cert.KernelIdeal.Reg3

end
-- ==== Proof.Reg3.lean ====
/-
  Region 3: the array the dense kernel leaves in its output window is the dense layer of the specification,
  x · W + b, of the arrays the region reads.
-/
import proofs.«175486_j44117904065163_2_alg».proof.Proof.Gen.KernelIdeal.Frame
import proofs.«175486_j44117904065163_2_alg».proof.Proof.Spec
import proofs.«175486_j44117904065163_2_alg».proof.Proof.Reg3Idx
import Idealize.ShloMosaic.Lib.Pipeline.Value
import Idealize.ShloMosaic.Lib.ValueIdx
import Idealize.ShloMosaic.PureOps.Ideal.Laws

noncomputable section

open scoped BigOperators

namespace Cert.KernelIdeal.Reg3

open Idealize.ShloMosaic Idealize.ShloMosaic.TcCoe Idealize.SL.Sem Idealize.ShloMosaic.ValueIdx Cert.KernelIdeal Cert.KernelIdeal.Facts₀ Cert.KernelIdeal.Facts

theorem hz : (![0, 0] : Fin 2 → Nat) = fun _ => 0 := funext fun a => by fin_cases a <;> rfl

/-- The printed index maps over the grid: the row-blocked windows (input 0, output 3) sit at block (t, 0), the
    weights and the bias at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Blocks

variable (V : (c : Dev nD) → (b : Ref sig .tc) → Buf (Elt Ideal) ((c : Thread nD τ).loc b)) (c : Dev nD)

/-- The row block of the input at point t is rows 1000 t … 1000 t + 999 of the input array. -/
theorem rows_apply (t : Fin cfg3.N) (p : Fin 1000) (k : Fin 256) (i : S50000x256.Idx)
    (hi0 : (i 0).val = 1000 * t.val + p.val) (hi1 : (i 1).val = k.val) :
    (Gen.iblk3 (F := Ideal) V c 0 t : Vec Ideal S1000x256 .f32) (ix2 p k) = (V c main_v50 : S50000x256.Idx → Elt Ideal .f32) i := by
  obtain ⟨e0, e1, -⟩ := idx_facts t
  unfold Gen.iblk3
  rw [View.read_apply]
  show V c main_v50 _ = V c main_v50 _
  refine congrArg (V c main_v50) (funext fun a => Fin.ext ?_)
  match a with
  | ⟨0, _⟩ => show win3_0.index t 0 * 1000 + 1 * p.val = (i 0).val; rw [e0, hi0]; omega
  | ⟨1, _⟩ => show win3_0.index t 1 * 256 + 1 * k.val = (i 1).val; rw [e1, hi1]; omega

/-- The weights' block at every point is the weight array. -/
theorem weights_apply (t : Fin cfg3.N) (k : Fin 256) (q : Fin 128) :
    (Gen.iblk3 (F := Ideal) V c 1 t : Vec Ideal S256x128 .f32) (ix2 k q) = (V c main_arg12 : S256x128.Idx → Elt Ideal .f32) (ix2 k q) := by
  obtain ⟨-, -, e0, e1, -⟩ := idx_facts t
  unfold Gen.iblk3
  rw [View.read_apply]
  show V c main_arg12 _ = V c main_arg12 _
  refine congrArg (V c main_arg12) (funext fun a => Fin.ext ?_)
  match a with
  | ⟨0, _⟩ => show win3_1.index t 0 * 256 + 1 * k.val = k.val; rw [e0]; omega
  | ⟨1, _⟩ => show win3_1.index t 1 * 128 + 1 * q.val = q.val; rw [e1]; omega

/-- The bias' block at every point is the bias row. -/
theorem biasrow_apply (t : Fin cfg3.N) (z : Fin 1) (q : Fin 128) :
    (Gen.iblk3 (F := Ideal) V c 2 t : Vec Ideal S1x128 .f32) (ix2 z q) = (V c main_v52 : S1x128.Idx → Elt Ideal .f32) (ix2 z q) := by
  obtain ⟨-, -, -, -, e0, e1, -⟩ := idx_facts t
  unfold Gen.iblk3
  rw [View.read_apply]
  show V c main_v52 _ = V c main_v52 _
  refine congrArg (V c main_v52) (funext fun a => Fin.ext ?_)
  match a with
  | ⟨0, _⟩ => show win3_2.index t 0 * 1 + 1 * z.val = z.val; rw [e0]; omega
  | ⟨1, _⟩ => show win3_2.index t 1 * 128 + 1 * q.val = q.val; rw [e1]; omega

/-- WHAT POINT t WRITES BACK is block t of the dense layer of the arrays the region reads. -/
theorem flushed_eq (b : FVec Ideal S128 .f32) (hb : V c main_v52 = shapeCast S1x128 b shapeCasts_S128_S1x128) (t : Fin cfg3.N) :
    (Gen.dat3 (F := Ideal) V c).flushed 3 t
      = ((cfg3.win 3).blk t).view.read (Elt Ideal) (Cert.Spec.dense_256_128 (F := Ideal) (V c main_v50) (V c main_arg12) b) := by
  show (cfg3.win 3).cut (grid3.coords t) ((Gen.dat3 V c).after 3 t) = _
  rw [Gen.after3_3]
  unfold Gen.out3_3
  rw [View.canon_unit_zero hz]
  simp only [View.ld_unit_zero (S := S1000x256) hz, View.ld_unit_zero (S := S256x128) hz, View.ld_unit_zero (S := S1x128) hz]
  funext j
  obtain ⟨p, q, rfl⟩ : ∃ (p : Fin 1000) (q : Fin 128), j = ix2 p q := ⟨j 0, j 1, eq_ix2 j⟩
  have hN : cfg3.N = 50 := Gen.N_3
  have ht : t.val < 50 := hN ▸ t.isLt
  have hp : p.val < 1000 := p.isLt
  obtain ⟨-, -, -, -, -, -, e0, e1⟩ := idx_facts t
  have hemb : ((cfg3.win 3).blk t).view.emb (ix2 p q) = (ix2 ⟨1000 * t.val + p.val, by omega⟩ q : S50000x128.Idx) := by
    funext a; apply Fin.ext
    match a with
    | ⟨0, _⟩ => show win3_3.index t 0 * 1000 + 1 * p.val = 1000 * t.val + p.val; rw [e0]; omega
    | ⟨1, _⟩ => show win3_3.index t 1 * 128 + 1 * q.val = q.val; rw [e1]; omega
  show Gen.k3_pay1 (Gen.iblk3 V c 0 t) (Gen.iblk3 V c 1 t) (Gen.iblk3 V c 2 t) (ix2 p q) = _
  rw [View.read_apply]
  refine Eq.trans ?_ (congrArg (Cert.Spec.dense_256_128 (F := Ideal) (V c main_v50) (V c main_arg12) b) hemb).symm
  rw [spec_apply]
  refine (pay_apply _ _ _ p q).trans (congrArg₂ (· + ·) (Finset.sum_congr rfl fun k _ => congrArg₂ (· * ·) ?_ ?_) ?_)
  · exact rows_apply V c t p k _ rfl rfl
  · exact weights_apply V c t k q
  · exact (biasrow_apply V c t 0 q).trans ((congrFun hb _).trans (Cert.DenseIdx.shapeCast_row_apply b _ 0 q))

/-- An index of the output array is in point t's block iff each coordinate is in the block's range on its axis. -/
theorem mem_blk (t : Fin cfg3.N) (i : S50000x128.Idx) :
    i ∈ ((cfg3.win 3).blk t).view.set ↔ ∀ a : Fin 2, win3_3.index t a * S1000x128.size a ≤ (i a).val
      ∧ (i a).val < win3_3.index t a * S1000x128.size a + S1000x128.size a := by
  show i ∈ ((View.whole main_v53).slice (win3_3.rect t)).set ↔ _
  rw [View.set_slice_whole, Rect.mem_set_unit]
  exact Iff.rfl

/-- THE COVER: row r of the output array is in the block of point r / 1000, which is written back. -/
theorem cover (i : S50000x128.Idx) :
    ∃ t : Fin cfg3.N, (cfg3.win 3).flush t = true ∧ i ∈ ((cfg3.win 3).blk t).view.set := by
  have hN : cfg3.N = 50 := Gen.N_3
  have hi0 : (i 0).val < 50000 := (i 0).isLt
  have hi1 : (i 1).val < 128 := (i 1).isLt
  obtain ⟨t, htv⟩ : ∃ t : Fin cfg3.N, t.val = (i 0).val / 1000 := ⟨⟨(i 0).val / 1000, by rw [hN]; omega⟩, rfl⟩
  obtain ⟨-, -, -, -, -, -, e0, e1⟩ := idx_facts t
  refine ⟨t, Gen.flush3_3 t, ?_⟩
  rw [mem_blk]
  intro a
  match a with
  | ⟨0, _⟩ =>
    show win3_3.index t 0 * 1000 ≤ (i 0).val ∧ (i 0).val < win3_3.index t 0 * 1000 + 1000
    rw [e0, htv]; omega
  | ⟨1, _⟩ =>
    show win3_3.index t 1 * 128 ≤ (i 1).val ∧ (i 1).val < win3_3.index t 1 * 128 + 128
    rw [e1]; omega

end Blocks

/-- THE ARRAY the region leaves in its output window: the dense layer x · W + b of the arrays it reads, the bias
    row being the reshape of the bias vector. -/
theorem arr_eq (V : (c : Dev nD) → (b : Ref sig .tc) → Buf (Elt Ideal) ((c : Thread nD τ).loc b)) (c : Dev nD)
    (b : FVec Ideal S128 .f32) (hb : V c main_v52 = shapeCast S1x128 b shapeCasts_S128_S1x128) :
    (Gen.dat3 (F := Ideal) V c).arrAt 3 cfg3.N
      = Cert.Spec.dense_256_128 (F := Ideal) (V c main_v50) (V c main_arg12) b :=
  (Gen.dat3 (F := Ideal) V c).arrAt_eq_of_cover 3 _ (fun t _ => flushed_eq V c b hb t) cover

end Cert.KernelIdeal.Reg3

end
-- ==== Proof.Reg4Pay.lean ====
/-
  The width-128 cell's blocked computation read at an entry: one block of 2000 rows, entry (p, q).
-/
import proofs.«175486_j44117904065163_2_alg».proof.Proof.Gen.KernelIdeal.Skeleton
import proofs.«175486_j44117904065163_2_alg».proof.Proof.GruIdx

noncomputable section

namespace Cert.KernelIdeal.Reg4

open Idealize.ShloMosaic Idealize.ShloMosaic.ValueIdx Cert.KernelIdeal Cert.KernelIdeal.Facts₀ Cert.KernelIdeal.Facts

/-- Entry (p, q) of the block the body computes: the cell of row p of the two row blocks, the whole weights and the
    one-row biases, at gate columns q, 128 + q and 256 + q. -/
theorem pay_apply (x0 x1 : Vec Ideal S2000x128 .f32) (w1 w2 : Vec Ideal S128x384 .f32) (b1 b2 : Vec Ideal S1x384 .f32)
    (p : Fin 2000) (q : Fin 128) :
    Gen.k4_pay1 (F := Ideal) x0 x1 w1 w2 b1 b2 (ix2 p q)
      = Cert.GruIdx.out (fun k => x0 (ix2 p k)) (fun k => x1 (ix2 p k)) w1 w2
          (fun c => b1 (ix2 (0 : Fin 1) c)) (fun c => b2 (ix2 (0 : Fin 1) c))
          ⟨0 + q.val, by omega⟩ ⟨128 + q.val, by omega⟩ ⟨256 + q.val, by omega⟩ (x1 (ix2 p q)) := by
  unfold Gen.k4_pay1
  simp only [shapeCast_self]
  simp only [addf_apply, mulf_apply, subf_apply, broadcast_apply, Cert.GruIdx.logistic_apply, Cert.GruIdx.tanh_apply]
  simp only [slice2_axis1_eq]
  simp only [Cert.GruIdx.gate_matmul dot_S2000x128_S128x384_S2000x384_1_0_0_1_n_n rfl]
  rfl

end Cert.KernelIdeal.Reg4

end
-- ==== Proof.Reg4Spec.lean ====
/-
  The width-128 cell as a whole-array function, read at an entry (p, q).
-/
import proofs.«175486_j44117904065163_2_alg».proof.Proof.Spec
import proofs.«175486_j44117904065163_2_alg».proof.Proof.GruIdx

noncomputable section

namespace Cert.Spec.Gru128

open Idealize.ShloMosaic Idealize.ShloMosaic.ValueIdx Cert.ReferenceIdeal Cert.ReferenceIdeal.Facts₀ Cert.ReferenceIdeal.Facts

/-- A constant broadcast from rank 0 reads the constant everywhere. -/
theorem bc_const (b : BitVec (FTy.bits .f32)) (j : S50000x128.Idx) :
    broadcastInDim S50000x128 ![] bcast_S_S50000x128 (constant (F := Ideal) S_ .f32 b) j = Ideal.ofBits .f32 b := rfl

/-- The rectified input at an entry. -/
theorem lrelu128_apply (X : FVec Ideal S50000x128 .f32) (i : S50000x128.Idx) :
    Cert.Spec.lrelu128 (F := Ideal) X i = Cert.GruIdx.lrelu (X i) := by
  rfl

/-- Entry (p, q) of the cell: row p of the input and of the carried state, the weights, the biases, gate columns
    q, 128 + q and 256 + q. -/
theorem spec_apply (X H : FVec Ideal S50000x128 .f32) (wih whh : FVec Ideal S128x384 .f32) (bih bhh : FVec Ideal S384 .f32)
    (p : Fin 50000) (q : Fin 128) :
    Cert.Spec.gru128 (F := Ideal) (Cert.Spec.lrelu128 X) H wih whh bih bhh (ix2 p q)
      = Cert.GruIdx.out (fun k => X (ix2 p k)) (fun k => H (ix2 p k)) wih whh
          (fun c => bih (ix1 c)) (fun c => bhh (ix1 c))
          ⟨0 + q.val, by omega⟩ ⟨128 + q.val, by omega⟩ ⟨256 + q.val, by omega⟩ (H (ix2 p q)) := by
  unfold Cert.Spec.gru128 Cert.Spec.sigm128 Cert.Spec.one128 Cert.Spec.bias384
  simp only [addf_apply, mulf_apply, subf_apply, hostDivf_apply, Cert.GruIdx.hostExp_apply, Cert.GruIdx.hostNegf_apply,
    Cert.GruIdx.hostTanh_apply]
  rw [bc_const]
  simp only [slice2_axis1_eq]
  simp only [Cert.GruIdx.gate_dot dot_S50000x128_S128x384_S50000x384_1_0_0_1_n_n rfl, Cert.GruIdx.sigm_eq, lrelu128_apply]
  rfl

end Cert.Spec.Gru128

end
-- ==== Proof.Reg4.lean ====
/-
  The width-128 gated recurrent cell's region as a whole-array function: the array its pipeline leaves in the output
  window is the cell of the (rectified) input, the carried state, the two weights and the two biases.

  Point t of the grid handles rows 2000·t … 2000·t + 1999: the two row-blocked inputs and the output move together,
  the weights and the one-row biases are whole at every point. So the block a point writes back is that block of
  the whole-array cell, and the twenty-five blocks cover the array.
-/
import proofs.«175486_j44117904065163_2_alg».proof.Proof.Gen.KernelIdeal.Frame
import proofs.«175486_j44117904065163_2_alg».proof.Proof.Spec
import proofs.«175486_j44117904065163_2_alg».proof.Proof.Reg4Pay
import proofs.«175486_j44117904065163_2_alg».proof.Proof.Reg4Spec
import Idealize.ShloMosaic.Lib.Pipeline.Value
import Idealize.ShloMosaic.Lib.ValueIdx
import Idealize.ShloMosaic.PureOps.Ideal.Laws

noncomputable section

namespace Cert.KernelIdeal.Reg4

open Idealize.ShloMosaic Idealize.ShloMosaic.TcCoe Idealize.SL.Sem Cert.KernelIdeal Cert.KernelIdeal.Facts₀ Cert.KernelIdeal.Facts
open Idealize.ShloMosaic.ValueIdx
open Idealize.ShloMosaic.Pipeline (Dat)

theorem hz : (![0, 0] : Fin 2 → Nat) = fun _ => 0 := funext fun a => by fin_cases a <;> rfl

/-- The printed index maps over the grid: the row-blocked windows are at block (t, 0), the others at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

section
variable (V : (c : Dev nD) → (b : Ref sig .tc) → Buf (Elt Ideal) ((c : Thread nD τ).loc b)) (c : Dev nD)

/-- Row p of the input's block at point t is row 2000·t + p of the array. -/
theorem iblk0_apply (t : Fin cfg4.N) (p : Fin 2000) (k : Fin 128) (P : Fin 50000) (hP : P.val = 2000 * t.val + p.val) :
    (Gen.iblk4 V c 0 t : Vec Ideal S2000x128 .f32) (ix2 p k) = (V c main_v69 : S50000x128.Idx → EReal) (ix2 P k) := by
  obtain ⟨e0, e1, -⟩ := idx_facts t
  unfold Gen.iblk4
  rw [View.read_apply]
  show V c main_v69 _ = V c main_v69 _
  congr 1
  funext a
  apply Fin.ext
  match a with
  | ⟨0, _⟩ => show win4_0.index t 0 * 2000 + 1 * p.val = P.val; rw [e0, hP]; omega
  | ⟨1, _⟩ => show win4_0.index t 1 * 128 + 1 * k.val = k.val; rw [e1]; omega

/-- Row p of the carried state's block at point t is row 2000·t + p of the array. -/
theorem iblk1_apply (t : Fin cfg4.N) (p : Fin 2000) (k : Fin 128) (P : Fin 50000) (hP : P.val = 2000 * t.val + p.val) :
    (Gen.iblk4 V c 1 t : Vec Ideal S2000x128 .f32) (ix2 p k) = (V c main_arg5 : S50000x128.Idx → EReal) (ix2 P k) := by
  obtain ⟨-, -, e0, e1, -⟩ := idx_facts t
  unfold Gen.iblk4
  rw [View.read_apply]
  show V c main_arg5 _ = V c main_arg5 _
  congr 1
  funext a
  apply Fin.ext
  match a with
  | ⟨0, _⟩ => show win4_1.index t 0 * 2000 + 1 * p.val = P.val; rw [e0, hP]; omega
  | ⟨1, _⟩ => show win4_1.index t 1 * 128 + 1 * k.val = k.val; rw [e1]; omega

/-- The input weight's block at any point is the whole weight. -/
theorem iblk2_eq (t : Fin cfg4.N) :
    (Gen.iblk4 V c 2 t : Vec Ideal S128x384 .f32) = (V c main_arg18 : S128x384.Idx → EReal) := by
  obtain ⟨-, -, -, -, e0, e1, -⟩ := idx_facts t
  funext y
  unfold Gen.iblk4
  rw [View.read_apply]
  show V c main_arg18 _ = V c main_arg18 _
  congr 1
  funext a
  apply Fin.ext
  match a with
  | ⟨0, _⟩ => show win4_2.index t 0 * 128 + 1 * (y 0).val = (y 0).val; rw [e0]; omega
  | ⟨1, _⟩ => show win4_2.index t 1 * 384 + 1 * (y 1).val = (y 1).val; rw [e1]; omega

/-- The carried weight's block at any point is the whole weight. -/
theorem iblk3_eq (t : Fin cfg4.N) :
    (Gen.iblk4 V c 3 t : Vec Ideal S128x384 .f32) = (V c main_arg19 : S128x384.Idx → EReal) := by
  obtain ⟨-, -, -, -, -, -, e0, e1, -⟩ := idx_facts t
  funext y
  unfold Gen.iblk4
  rw [View.read_apply]
  show V c main_arg19 _ = V c main_arg19 _
  congr 1
  funext a
  apply Fin.ext
  match a with
  | ⟨0, _⟩ => show win4_3.index t 0 * 128 + 1 * (y 0).val = (y 0).val; rw [e0]; omega
  | ⟨1, _⟩ => show win4_3.index t 1 * 384 + 1 * (y 1).val = (y 1).val; rw [e1]; omega

/-- The input bias's block at any point, read at column c', is the bias the one-row array was cast from. -/
theorem iblk4_apply (bih : FVec Ideal S384 .f32) (hbih : V c main_v70 = shapeCast S1x384 bih shapeCasts_S384_S1x384)
    (t : Fin cfg4.N) (c' : Fin 384) :
    (Gen.iblk4 V c 4 t : Vec Ideal S1x384 .f32) (ix2 (0 : Fin 1) c') = bih (ix1 c') := by
  obtain ⟨-, -, -, -, -, -, -, -, e0, e1, -⟩ := idx_facts t
  unfold Gen.iblk4
  rw [View.read_apply]
  refine Eq.trans (b := (V c main_v70 : S1x384.Idx → EReal) (ix2 (0 : Fin 1) c')) ?_ ?_
  · show V c main_v70 _ = V c main_v70 _
    congr 1
    funext a
    apply Fin.ext
    match a with
    | ⟨0, _⟩ => show win4_4.index t 0 * 1 + 1 * 0 = 0; rw [e0]
    | ⟨1, _⟩ => show win4_4.index t 1 * 384 + 1 * c'.val = c'.val; rw [e1]; omega
  · rw [hbih]
    exact shapeCast_a_1a_apply bih shapeCasts_S384_S1x384 0 c'

/-- The carried bias's block at any point, read at column c', is the bias the one-row array was cast from. -/
theorem iblk5_apply (bhh : FVec Ideal S384 .f32) (hbhh : V c main_v71 = shapeCast S1x384 bhh shapeCasts_S384_S1x384)
    (t : Fin cfg4.N) (c' : Fin 384) :
    (Gen.iblk4 V c 5 t : Vec Ideal S1x384 .f32) (ix2 (0 : Fin 1) c') = bhh (ix1 c') := by
  obtain ⟨-, -, -, -, -, -, -, -, -, -, e0, e1, -⟩ := idx_facts t
  unfold Gen.iblk4
  rw [View.read_apply]
  refine Eq.trans (b := (V c main_v71 : S1x384.Idx → EReal) (ix2 (0 : Fin 1) c')) ?_ ?_
  · show V c main_v71 _ = V c main_v71 _
    congr 1
    funext a
    apply Fin.ext
    match a with
    | ⟨0, _⟩ => show win4_5.index t 0 * 1 + 1 * 0 = 0; rw [e0]
    | ⟨1, _⟩ => show win4_5.index t 1 * 384 + 1 * c'.val = c'.val; rw [e1]; omega
  · rw [hbhh]
    exact shapeCast_a_1a_apply bhh shapeCasts_S384_S1x384 0 c'

/-- WHAT POINT t WRITES BACK is block t of the whole-array cell of the arrays as the region finds them. -/
theorem flushed_eq (bih : FVec Ideal S384 .f32) (hbih : V c main_v70 = shapeCast S1x384 bih shapeCasts_S384_S1x384)
    (bhh : FVec Ideal S384 .f32) (hbhh : V c main_v71 = shapeCast S1x384 bhh shapeCasts_S384_S1x384) (t : Fin cfg4.N) :
    (Gen.dat4 (F := Ideal) V c).flushed 6 t = ((cfg4.win 6).blk t).view.read (Elt Ideal)
      (Cert.Spec.gru128 (F := Ideal) (Cert.Spec.lrelu128 (V c main_v69)) (V c main_arg5) (V c main_arg18) (V c main_arg19) bih bhh) := by
  show (cfg4.win 6).cut (grid4.coords t) ((Gen.dat4 V c).after 6 t) = _
  rw [Gen.after4_6]
  unfold Gen.out4_6
  rw [View.canon_unit_zero hz]
  simp only [View.ld_unit_zero (S := S2000x128) hz, View.ld_unit_zero (S := S128x384) hz, View.ld_unit_zero (S := S1x384) hz]
  funext j
  obtain ⟨p, q, rfl⟩ : ∃ (p : Fin 2000) (q : Fin 128), j = ix2 p q := ⟨j 0, j 1, eq_ix2 j⟩
  obtain ⟨-, -, -, -, -, -, -, -, -, -, -, -, e0, e1⟩ := idx_facts t
  have hN : cfg4.N = 25 := Gen.N_4
  have hP : 2000 * t.val + p.val < 50000 := by have := t.isLt; omega
  have hemb : ((cfg4.win 6).blk t).view.emb (ix2 p q) = ix2 (⟨2000 * t.val + p.val, hP⟩ : Fin 50000) q := by
    funext a
    apply Fin.ext
    match a with
    | ⟨0, _⟩ => show win4_6.index t 0 * 2000 + 1 * p.val = 2000 * t.val + p.val; rw [e0]; omega
    | ⟨1, _⟩ => show win4_6.index t 1 * 128 + 1 * q.val = q.val; rw [e1]; omega
  show Gen.k4_pay1 (F := Ideal) (Gen.iblk4 V c 0 t) (Gen.iblk4 V c 1 t) (Gen.iblk4 V c 2 t) (Gen.iblk4 V c 3 t)
      (Gen.iblk4 V c 4 t) (Gen.iblk4 V c 5 t) (ix2 p q)
    = Cert.Spec.gru128 (F := Ideal) (Cert.Spec.lrelu128 (V c main_v69)) (V c main_arg5) (V c main_arg18) (V c main_arg19) bih bhh
        (((cfg4.win 6).blk t).view.emb (ix2 p q))
  refine Eq.trans ?_ (congrArg _ hemb.symm)
  refine (pay_apply (Gen.iblk4 V c 0 t) (Gen.iblk4 V c 1 t) (Gen.iblk4 V c 2 t) (Gen.iblk4 V c 3 t)
    (Gen.iblk4 V c 4 t) (Gen.iblk4 V c 5 t) p q).trans ?_
  refine Eq.trans ?_ (Cert.Spec.Gru128.spec_apply (V c main_v69) (V c main_arg5) (V c main_arg18) (V c main_arg19) bih bhh
    ⟨2000 * t.val + p.val, hP⟩ q).symm
  exact Cert.GruIdx.out_congr _ _ _
    (fun k => iblk0_apply V c t p k ⟨2000 * t.val + p.val, hP⟩ rfl)
    (fun k => iblk1_apply V c t p k ⟨2000 * t.val + p.val, hP⟩ rfl)
    (iblk2_eq V c t) (iblk3_eq V c t)
    (fun c' => iblk4_apply V c bih hbih t c') (fun c' => iblk5_apply V c bhh hbhh t c')
    (iblk1_apply V c t p q ⟨2000 * t.val + p.val, hP⟩ rfl)

end

/-- An index of the array is in point t's block iff each coordinate is in the block's range on its axis. -/
theorem mem_blk (t : Fin cfg4.N) (i : S50000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v72).slice (win4_6.rect t)).set ↔ _
  rw [View.set_slice_whole, Rect.mem_set_unit]
  exact Iff.rfl

/-- Row r of the array is in the block of point r / 2000. -/
theorem cover (i : S50000x128.Idx) :
    ∃ t : Fin cfg4.N, (cfg4.win 6).flush t = true ∧ i ∈ ((cfg4.win 6).blk t).view.set := by
  have h0 : (i 0).val < 50000 := (i 0).isLt
  have h1 : (i 1).val < 128 := (i 1).isLt
  have hN : cfg4.N = 25 := Gen.N_4
  have ht : (i 0).val / 2000 < cfg4.N := by rw [hN]; omega
  obtain ⟨-, -, -, -, -, -, -, -, -, -, -, -, e0, e1⟩ := idx_facts ⟨(i 0).val / 2000, ht⟩
  refine ⟨⟨(i 0).val / 2000, ht⟩, Gen.flush4_6 _, ?_⟩
  rw [mem_blk]
  intro a
  match a with
  | ⟨0, _⟩ =>
    show win4_6.index ⟨(i 0).val / 2000, ht⟩ 0 * 2000 ≤ (i 0).val
      ∧ (i 0).val < win4_6.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win4_6.index ⟨(i 0).val / 2000, ht⟩ 1 * 128 ≤ (i 1).val
      ∧ (i 1).val < win4_6.index ⟨(i 0).val / 2000, ht⟩ 1 * 128 + 128
    rw [e1]
    omega

/-- THE ARRAY the region leaves in its output window is the whole-array cell of its input arrays. -/
theorem arr_eq (V : (c : Dev nD) → (b : Ref sig .tc) → Buf (Elt Ideal) ((c : Thread nD τ).loc b)) (c : Dev nD)
    (bih : FVec Ideal S384 .f32) (hbih : V c main_v70 = shapeCast S1x384 bih shapeCasts_S384_S1x384)
    (bhh : FVec Ideal S384 .f32) (hbhh : V c main_v71 = shapeCast S1x384 bhh shapeCasts_S384_S1x384) :
    (Gen.dat4 (F := Ideal) V c).arrAt 6 cfg4.N
      = Cert.Spec.gru128 (F := Ideal) (Cert.Spec.lrelu128 (V c main_v69)) (V c main_arg5) (V c main_arg18) (V c main_arg19) bih bhh := by
  exact (Gen.dat4 (F := Ideal) V c).arrAt_eq_of_cover 6 _ (fun t _ => flushed_eq V c bih hbih bhh hbhh t) cover

end Cert.KernelIdeal.Reg4

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.Head.lean ====
/-
  The edge scores: the kernel program's way of computing them equals the plain program's, as whole arrays at the
  ideal values.

  Index by index both are
    ∑_{k<128} h[ρ₀ e, k]·w[k] + ∑_{k<128} h[ρ₁ e, k]·w[128+k] + ∑_{k<16} ea[e, k]·w[256+k] + b[0],
  where ρ₀ e and ρ₁ e are the rows the two start indices of edge e select (read signed, clamped into the table).
  The plain program forms the row (h[ρ₀ e] ‖ h[ρ₁ e] ‖ ea[e]) of length 272 and contracts it with the weight column;
  the kernel's program contracts the three parts of the weight column separately, the first two BEFORE the gather.
  A gathered row depends only on the start index, not on the table's width, so the gather of the products' column is
  the product at the gathered row; the sum over 272 splits as 128 + 128 + 16. Only the grouping of the additions is
  used — no distributivity — so nothing need be finite.
-/
import proofs.«175486_j44117904065163_2_alg».proof.Proof.Spec
import proofs.«175486_j44117904065163_2_alg».proof.Proof.SpecK
import proofs.«175486_j44117904065163_2_alg».proof.Proof.LibRowGather
import Idealize.ShloMosaic.Lib.ValueIdx
import Idealize.ShloMosaic.Lib.StackMember
import Idealize.ShloMosaic.Lib.Pipeline.Value
import Idealize.ShloMosaic.PureOps.Ideal.Laws

noncomputable section

open scoped BigOperators

namespace Cert.Head

open Idealize.ShloMosaic Idealize.ShloMosaic.ValueIdx Cert.KernelIdeal

/-! ## The sum over 272 split as 128 + 128 + 16 -/

/-- Column k of the first part. -/
def inj0 (c : Fin 128) : Fin 272 := ⟨c.val, by omega⟩
/-- Column 128 + k of the second part. -/
def inj1 (c : Fin 128) : Fin 272 := ⟨128 + c.val, by omega⟩
/-- Column 256 + k of the third part. -/
def inj2 (c : Fin 16) : Fin 272 := ⟨256 + c.val, by omega⟩

theorem sum_272 {M : Type} [AddCommMonoid M] (f : Fin 272 → M) :
    ∑ k : Fin 272, f k = ∑ c : Fin 128, f (inj0 c) + ∑ c : Fin 128, f (inj1 c) + ∑ c : Fin 16, f (inj2 c) := by
  have h1 := Fin.sum_univ_add (a := 128 + 128) (b := 16) (f := (f : Fin (128 + 128 + 16) → M))
  have h2 := Fin.sum_univ_add (a := 128) (b := 128) (f := fun i => (f : Fin (128 + 128 + 16) → M) (Fin.castAdd 16 i))
  refine h1.trans ?_
  rw [h2]
  refine congrArg₂ (· + ·) (congrArg₂ (· + ·) ?_ ?_) ?_
  · exact Finset.sum_congr rfl fun c _ => congrArg f (Fin.ext rfl)
  · exact Finset.sum_congr rfl fun c _ => congrArg f (Fin.ext rfl)
  · exact Finset.sum_congr rfl fun c _ => congrArg f (Fin.ext rfl)

/-! ## The operations read at an index -/

/-- A column [P, 1] flattened to [P], read at e, is the column at (e, 0). -/
theorem flatten_col_apply {α : Type} {P : Nat} (X : (⟨2, ![P, 1]⟩ : Shape).Idx → α)
    (hc : (⟨2, ![P, 1]⟩ : Shape).ShapeCasts ⟨1, ![P]⟩) (e : Fin P) :
    shapeCast ⟨1, ![P]⟩ X hc (ix1 e) = X (ix2 e 0) := by
  refine shapeCast_apply X hc (ix1 e) (ix2 e 0) ?_
  rw [Shape.rowMajor_val_two, Shape.rowMajor_val_one]
  show e.val * 1 + 0 = e.val
  omega

/-- The bias [1] broadcast to [1, 1] and then down the P rows, read at (e, 0), is b[0]. -/
theorem bias_apply {α : Type} {P : Nat} (b : (⟨1, ![1]⟩ : Shape).Idx → α)
    (h1 : (⟨1, ![1]⟩ : Shape).BroadcastsInDim ⟨2, ![1, 1]⟩ (![1] : Fin 1 → Fin 2))
    (h2 : (⟨2, ![1, 1]⟩ : Shape).BroadcastsInDim ⟨2, ![P, 1]⟩ (![0, 1] : Fin 2 → Fin 2)) (e : Fin P) :
    broadcastInDim ⟨2, ![P, 1]⟩ (![0, 1] : Fin 2 → Fin 2) h2 (broadcastInDim ⟨2, ![1, 1]⟩ (![1] : Fin 1 → Fin 2) h1 b) (ix2 e 0)
      = b (ix1 0) := by
  refine (broadcastInDim_apply _ h2 _ (ix2 e 0) (ix2 0 0) ?_).trans ?_
  · intro a
    match a with
    | ⟨0, _⟩ => rfl
    | ⟨1, _⟩ => rfl
  refine broadcastInDim_apply _ h1 b (ix2 0 0) (ix1 0) ?_
  intro a
  match a with
  | ⟨0, _⟩ => rfl

/-- A [M, K] by [K, 1] product (one contracted axis) read at (p, 0) is the sum over the contracted coordinate. -/
theorem dot_col_apply {M K : Nat} (D : DotDims ⟨2, ![M, K]⟩ ⟨2, ![K, 1]⟩ ⟨2, ![M, 1]⟩) (hD : D = DotDims.plain M K 1)
    (A : FVec Ideal ⟨2, ![M, K]⟩ .f32) (B : FVec Ideal ⟨2, ![K, 1]⟩ .f32) (p : Fin M) :
    Host.dotGeneral D none A B (ix2 p 0) = ∑ c : Fin K, A (ix2 p c) * B (ix2 c 0) := by
  subst hD
  exact StackMember.dotGeneral_plain_apply none A B p 0

/-- A row gather read at (p, c) is the table at the selected row, column c. -/
theorem gather_apply {α : Type} {N P C : Nat} (hN : 0 < N)
    (wf : GatherDims.WF ⟨2, ![N, C]⟩ ⟨2, ![P, 1]⟩ ⟨2, ![P, C]⟩ [1] [0] [] [0] [] 1 ![1, C])
    (D : GatherDims ⟨2, ![N, C]⟩ ⟨2, ![P, 1]⟩ ⟨2, ![P, C]⟩) (hD : D = Cert.RowGather.rowDims N P C wf)
    (x : (⟨2, ![N, C]⟩ : Shape).Idx → α) (idx : IVec ⟨2, ![P, 1]⟩ 32) (p : Fin P) (c : Fin C) :
    Host.gather D x idx (ix2 p c) = x (ix2 (Cert.RowGather.rowOf N hN idx p) c) := by
  subst hD
  exact Cert.RowGather.gather_rows_apply hN wf x idx p c

/-- Rows k.. of the weight column, read at (c, 0). -/
theorem wslice_apply {α : Type} {K : Nat} (off : Nat) (w : (⟨2, ![272, 1]⟩ : Shape).Idx → α)
    (hs : (⟨2, ![272, 1]⟩ : Shape).Slices ![off, 0] ⟨2, ![K, 1]⟩) (c : Fin K) (k : Fin 272) (hk : k.val = off + c.val) :
    extractStridedSlice ⟨2, ![K, 1]⟩ ![off, 0] w hs (ix2 c 0) = w (ix2 k 0) := by
  refine extractStridedSlice_apply _ w hs (ix2 c 0) (ix2 k 0) ?_
  intro a
  match a with
  | ⟨0, _⟩ => exact hk
  | ⟨1, _⟩ => rfl

/-- Three pieces of widths 128, 128, 16 side by side, read in the first. -/
theorem cat_apply0 {α : Type} (x0 x1 : (⟨2, ![200000, 128]⟩ : Shape).Idx → α) (x2 : (⟨2, ![200000, 16]⟩ : Shape).Idx → α)
    (hc : Shape.Concatenates [(⟨2, ![200000, 128]⟩ : Shape), ⟨2, ![200000, 128]⟩, ⟨2, ![200000, 16]⟩] ⟨2, ![200000, 272]⟩ (1 : Fin 2))
    (e : Fin 200000) (c : Fin 128) :
    concatenate ⟨2, ![200000, 272]⟩ (1 : Fin 2) [⟨⟨2, ![200000, 128]⟩, x0⟩, ⟨⟨2, ![200000, 128]⟩, x1⟩, ⟨⟨2, ![200000, 16]⟩, x2⟩] hc
      (ix2 e (inj0 c)) = x0 (ix2 e c) := by
  refine concatenate_apply_piece (t := ⟨2, ![200000, 272]⟩) (1 : Fin 2)
    [⟨⟨2, ![200000, 128]⟩, x0⟩, ⟨⟨2, ![200000, 128]⟩, x1⟩, ⟨⟨2, ![200000, 16]⟩, x2⟩] hc (ix2 e (inj0 c)) 0 (by simp)
    ⟨2, ![200000, 128]⟩ x0 rfl rfl 0 rfl (ix2 e c) ?_ ?_
  · intro b hb
    match b with
    | ⟨0, _⟩ => rfl
    | ⟨1, _⟩ => exact absurd rfl hb
  · show 0 + c.val = c.val
    omega

/-- … in the second. -/
theorem cat_apply1 {α : Type} (x0 x1 : (⟨2, ![200000, 128]⟩ : Shape).Idx → α) (x2 : (⟨2, ![200000, 16]⟩ : Shape).Idx → α)
    (hc : Shape.Concatenates [(⟨2, ![200000, 128]⟩ : Shape), ⟨2, ![200000, 128]⟩, ⟨2, ![200000, 16]⟩] ⟨2, ![200000, 272]⟩ (1 : Fin 2))
    (e : Fin 200000) (c : Fin 128) :
    concatenate ⟨2, ![200000, 272]⟩ (1 : Fin 2) [⟨⟨2, ![200000, 128]⟩, x0⟩, ⟨⟨2, ![200000, 128]⟩, x1⟩, ⟨⟨2, ![200000, 16]⟩, x2⟩] hc
      (ix2 e (inj1 c)) = x1 (ix2 e c) := by
  refine concatenate_apply_piece (t := ⟨2, ![200000, 272]⟩) (1 : Fin 2)
    [⟨⟨2, ![200000, 128]⟩, x0⟩, ⟨⟨2, ![200000, 128]⟩, x1⟩, ⟨⟨2, ![200000, 16]⟩, x2⟩] hc (ix2 e (inj1 c)) 1 (by simp)
    ⟨2, ![200000, 128]⟩ x1 rfl rfl 128 rfl (ix2 e c) ?_ ?_
  · intro b hb
    match b with
    | ⟨0, _⟩ => rfl
    | ⟨1, _⟩ => exact absurd rfl hb
  · show 128 + c.val = 128 + c.val
    rfl

/-- … in the third. -/
theorem cat_apply2 {α : Type} (x0 x1 : (⟨2, ![200000, 128]⟩ : Shape).Idx → α) (x2 : (⟨2, ![200000, 16]⟩ : Shape).Idx → α)
    (hc : Shape.Concatenates [(⟨2, ![200000, 128]⟩ : Shape), ⟨2, ![200000, 128]⟩, ⟨2, ![200000, 16]⟩] ⟨2, ![200000, 272]⟩ (1 : Fin 2))
    (e : Fin 200000) (c : Fin 16) :
    concatenate ⟨2, ![200000, 272]⟩ (1 : Fin 2) [⟨⟨2, ![200000, 128]⟩, x0⟩, ⟨⟨2, ![200000, 128]⟩, x1⟩, ⟨⟨2, ![200000, 16]⟩, x2⟩] hc
      (ix2 e (inj2 c)) = x2 (ix2 e c) := by
  refine concatenate_apply_piece (t := ⟨2, ![200000, 272]⟩) (1 : Fin 2)
    [⟨⟨2, ![200000, 128]⟩, x0⟩, ⟨⟨2, ![200000, 128]⟩, x1⟩, ⟨⟨2, ![200000, 16]⟩, x2⟩] hc (ix2 e (inj2 c)) 2 (by simp)
    ⟨2, ![200000, 16]⟩ x2 rfl rfl 256 rfl (ix2 e c) ?_ ?_
  · intro b hb
    match b with
    | ⟨0, _⟩ => rfl
    | ⟨1, _⟩ => exact absurd rfl hb
  · show 256 + c.val = 256 + c.val
    rfl

/-! ## The two programs read at an edge -/

/-- The kernel's program at edge e. -/
theorem kernel_read (h : FVec Ideal S50000x128 .f32) (q : IVec S2x200000 32) (ea : FVec Ideal S200000x16 .f32)
    (w : FVec Ideal S272x1 .f32) (b : FVec Ideal S1 .f32) (e : Fin 200000) :
    Cert.SpecK.scores (F := Ideal) h q ea w b (ix1 e)
      = (∑ c : Fin 128, h (ix2 (Cert.RowGather.rowOf 50000 (by omega) (Cert.SpecK.wrapQ (Cert.SpecK.endp0 q)) e) c) * w (ix2 (inj0 c) 0))
        + (∑ c : Fin 128, h (ix2 (Cert.RowGather.rowOf 50000 (by omega) (Cert.SpecK.wrapQ (Cert.SpecK.endp1 q)) e) c) * w (ix2 (inj1 c) 0))
        + (∑ c : Fin 16, ea (ix2 e c) * w (ix2 (inj2 c) 0))
        + b (ix1 0) := by
  unfold Cert.SpecK.scores
  refine (flatten_col_apply _ _ e).trans ?_
  rw [addf_apply, addf_apply, addf_apply]
  refine congrArg₂ (· + ·) (congrArg₂ (· + ·) (congrArg₂ (· + ·) ?_ ?_) ?_) ?_
  · refine (gather_apply (N := 50000) (P := 200000) (C := 1) (by omega) _ _ rfl _ _ e 0).trans ?_
    refine (dot_col_apply _ rfl h _ _).trans ?_
    refine Finset.sum_congr rfl fun c _ => congrArg (h _ * ·) ?_
    exact wslice_apply 0 w _ c (inj0 c) (by show c.val = 0 + c.val; omega)
  · refine (gather_apply (N := 50000) (P := 200000) (C := 1) (by omega) _ _ rfl _ _ e 0).trans ?_
    refine (dot_col_apply _ rfl h _ _).trans ?_
    refine Finset.sum_congr rfl fun c _ => congrArg (h _ * ·) ?_
    exact wslice_apply 128 w _ c (inj1 c) rfl
  · refine (dot_col_apply _ rfl ea _ e).trans ?_
    refine Finset.sum_congr rfl fun c _ => congrArg (ea _ * ·) ?_
    exact wslice_apply 256 w _ c (inj2 c) rfl
  · exact bias_apply b _ _ e

/-- The plain program at edge e. -/
theorem ref_read (h : FVec Ideal S50000x128 .f32) (q : IVec S2x200000 32) (ea : FVec Ideal S200000x16 .f32)
    (w : FVec Ideal S272x1 .f32) (b : FVec Ideal S1 .f32) (e : Fin 200000) :
    Cert.Spec.scores (F := Ideal) h q ea w b (ix1 e)
      = (∑ c : Fin 128, h (ix2 (Cert.RowGather.rowOf 50000 (by omega) (Cert.Spec.wrapQ (Cert.Spec.endp0 q)) e) c) * w (ix2 (inj0 c) 0))
        + (∑ c : Fin 128, h (ix2 (Cert.RowGather.rowOf 50000 (by omega) (Cert.Spec.wrapQ (Cert.Spec.endp1 q)) e) c) * w (ix2 (inj1 c) 0))
        + (∑ c : Fin 16, ea (ix2 e c) * w (ix2 (inj2 c) 0))
        + b (ix1 0) := by
  unfold Cert.Spec.scores
  refine (flatten_col_apply _ _ e).trans ?_
  rw [addf_apply]
  refine congrArg₂ (· + ·) ?_ (bias_apply b _ _ e)
  refine (dot_col_apply _ rfl _ w e).trans ?_
  rw [sum_272]
  refine congrArg₂ (· + ·) (congrArg₂ (· + ·) ?_ ?_) ?_
  · refine Finset.sum_congr rfl fun c _ => congrArg (· * w _) ?_
    refine (cat_apply0 _ _ _ _ e c).trans ?_
    exact gather_apply (N := 50000) (P := 200000) (C := 128) (by omega) _ _ rfl h _ e c
  · refine Finset.sum_congr rfl fun c _ => congrArg (· * w _) ?_
    refine (cat_apply1 _ _ _ _ e c).trans ?_
    exact gather_apply (N := 50000) (P := 200000) (C := 128) (by omega) _ _ rfl h _ e c
  · refine Finset.sum_congr rfl fun c _ => congrArg (· * w _) ?_
    exact cat_apply2 _ _ _ _ e c

/-- The start-index columns of the two programs are the same terms. -/
theorem wrap0_eq (q : IVec S2x200000 32) : Cert.SpecK.wrapQ (Cert.SpecK.endp0 q) = Cert.Spec.wrapQ (Cert.Spec.endp0 q) := rfl
theorem wrap1_eq (q : IVec S2x200000 32) : Cert.SpecK.wrapQ (Cert.SpecK.endp1 q) = Cert.Spec.wrapQ (Cert.Spec.endp1 q) := rfl

/-- THE EDGE SCORES: the kernel program's way of computing them equals the plain program's. -/
theorem scores_eq (h : FVec Ideal S50000x128 .f32) (q : IVec S2x200000 32) (ea : FVec Ideal S200000x16 .f32)
    (w : FVec Ideal S272x1 .f32) (b : FVec Ideal S1 .f32) :
    Cert.SpecK.scores (F := Ideal) h q ea w b = Cert.Spec.scores (F := Ideal) h q ea w b := by
  funext j
  obtain ⟨e, rfl⟩ : ∃ e : Fin 200000, j = ix1 e := ⟨j 0, eq_ix1 j⟩
  rw [kernel_read, ref_read, wrap0_eq, wrap1_eq]

end Cert.Head

end
-- ==== Proof.LibRowScatterAdd.lean ====
/-
  A ROW SCATTER-ADD read at an index.

  Adding rows `upd : [P, C]` into a table `x : [N, C]` at a column of integers `idx : [P, 1]` (one start index per
  update row) is StableHLO's scatter with an `add` body, update window axis 1, inserted window axis 0,
  scatter-dims-to-operand-dims map [0] and the index vector on axis 1. Update entry `(e, q')` lands on the table's
  entry `(t, q')`, where `t` is the start index `idx[e, 0]` read as a SIGNED integer and NOT clamped: when `t` is not
  in `[0, N)` the whole update row is dropped. Hence the result at `(n, q)` is the table's entry plus the sum, over the
  update rows `e` whose start index is exactly `n`, of `upd[e, q]`. The set of those rows depends on the indices and on
  `n` only — not on the column `q`, and not on the width `C`.
-/
import Idealize.ShloMosaic.PureOps.Ideal
import Idealize.ShloMosaic.Lib.ValueIdx

noncomputable section

namespace Cert.RowScatter

open Idealize.ShloMosaic Idealize.ShloMosaic.ValueIdx

/-- The update rows that land on row `n` of an `N`-row table: those whose start index, the 32-bit word read SIGNED
    and not clamped, is `n`. It does not depend on the table's width. -/
def landing (N : Nat) {P : Nat} (idx : (⟨2, ![P, 1]⟩ : Shape).Idx → BitVec 32) (n : Fin N) : Finset (Fin P) :=
  Finset.univ.filter fun e => (idx (ix2 e 0)).toInt = (n : ℤ)

/-- Membership in `landing`: the start index of update row `e`, read signed, is `n`. -/
theorem mem_landing {N P : Nat} (idx : (⟨2, ![P, 1]⟩ : Shape).Idx → BitVec 32) (n : Fin N) (e : Fin P) :
    e ∈ landing N idx n ↔ (idx (ix2 e 0)).toInt = (n : ℤ) := by
  simp [landing]

/-- The dimension numbers of a row scatter of `[P, C]` updates into an `[N, C]` table by `[P, 1]` start indices; their
    conditions `wf` are decided on a program's literal shapes. -/
abbrev rowDims (N P C : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section
variable {N P C : Nat} (wf : ScatterDims.WF ⟨2, ![N, C]⟩ ⟨2, ![P, 1]⟩ ⟨2, ![P, C]⟩ [1] [0] [0] 1)

/-- On the row axis the window of update entry `(e, q')` starts at the start index `idx[e, 0]`, read signed. -/
theorem start_row (idx : IVec ⟨2, ![P, 1]⟩ 32) (e : Fin P) (q' : Fin C) :
    (rowDims N P C wf).start (ix2 e q') idx 0 = (idx (ix2 e 0)).toInt := by
  unfold ScatterDims.start
  rw [dif_pos (show (0 : Fin 2) ∈ (rowDims N P C wf).scatterDimsToOperandDims from List.mem_singleton.mpr rfl)]
  have hsi : (rowDims N P C wf).siIdx (ix2 e q')
      ⟨List.idxOf (0 : Fin 2) (rowDims N P C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start-index map does not name, the window starts at zero. -/
theorem start_col (idx : IVec ⟨2, ![P, 1]⟩ 32) (e : Fin P) (q' : Fin C) :
    (rowDims N P C wf).start (ix2 e q') idx 1 = 0 := by
  unfold ScatterDims.start
  have h10 : ¬ (1 : Fin 2) ∈ [(0 : Fin 2)] := fun h =>
    absurd (congrArg Fin.val (List.mem_singleton.mp h)) Nat.one_ne_zero
  rw [dif_neg (show ¬ (1 : Fin 2) ∈ (rowDims N P C wf).scatterDimsToOperandDims from h10)]

/-- The row axis is an inserted window axis: the window coordinate on it is zero. -/
theorem window_row (e : Fin P) (q' : Fin C) : (rowDims N P C wf).window (ix2 e q') 0 = 0 := by
  unfold ScatterDims.window
  have h0 : ¬ (0 : Fin 2) ∈ (rowDims N P C wf).sKept := by
    intro h
    have := (List.mem_filter.mp h).2
    simp at this
  rw [dif_neg h0]

/-- On the column axis the window coordinate of update entry `(e, q')` is its column `q'`. -/
theorem window_col (e : Fin P) (q' : Fin C) : (rowDims N P C wf).window (ix2 e q') 1 = q'.val := by
  unfold ScatterDims.window
  have h1 : (1 : Fin 2) ∈ (rowDims N P C wf).sKept := by
    refine List.mem_filter.mpr ⟨List.mem_finRange _, ?_⟩
    simp
  rw [dif_pos h1]
  rfl

/-- WHERE AN UPDATE ENTRY LANDS: update entry `(e, q')` lands on table entry `(n, q)` exactly when the start index of
    row `e`, read signed, is `n`, and the columns agree. -/
theorem resultIdx?_eq_some_iff (idx : IVec ⟨2, ![P, 1]⟩ 32) (e : Fin P) (q' : Fin C) (n : Fin N) (q : Fin C) :
    (rowDims N P C wf).resultIdx? (ix2 e q') idx = some (ix2 n q) ↔ (idx (ix2 e 0)).toInt = (n : ℤ) ∧ q' = q := by
  have hs0 := start_row wf idx e q'
  have hs1 := start_col wf idx e q'
  have hw0 := window_row wf e q'
  have hw1 := window_col wf e q'
  unfold ScatterDims.resultIdx?
  constructor
  · intro h
    split at h
    · rename_i hall
      have hfun := Option.some.inj h
      have e0 := congrArg Fin.val (congrFun hfun 0)
      have e1 := congrArg Fin.val (congrFun hfun 1)
      have a0 := hall 0
      simp only [hs0, hw0] at e0 a0
      simp only [hs1, hw1] at e1
      refine ⟨?_, Fin.ext ?_⟩
      · have : ((ix2 n q : (⟨2, ![N, C]⟩ : Shape).Idx) 0).val = n.val := rfl
        rw [this] at e0
        omega
      · have : ((ix2 n q : (⟨2, ![N, C]⟩ : Shape).Idx) 1).val = q.val := rfl
        rw [this] at e1
        omega
    · cases h
  · rintro ⟨ht, rfl⟩
    have hall : ∀ a : Fin 2, 0 ≤ (rowDims N P C wf).start (ix2 e q') idx a + ((rowDims N P C wf).window (ix2 e q') a : ℤ) ∧
        (rowDims N P C wf).start (ix2 e q') idx a + ((rowDims N P C wf).window (ix2 e q') a : ℤ)
          < ((⟨2, ![N, C]⟩ : Shape).size a : ℤ) := by
      intro a
      match a with
      | ⟨0, _⟩ =>
        show 0 ≤ (rowDims N P C wf).start (ix2 e q') idx 0 + ((rowDims N P C wf).window (ix2 e q') 0 : ℤ) ∧
          (rowDims N P C wf).start (ix2 e q') idx 0 + ((rowDims N P C wf).window (ix2 e q') 0 : ℤ) < (N : ℤ)
        rw [hs0, hw0, ht]
        have := n.isLt
        omega
      | ⟨1, _⟩ =>
        show 0 ≤ (rowDims N P C wf).start (ix2 e q') idx 1 + ((rowDims N P C wf).window (ix2 e q') 1 : ℤ) ∧
          (rowDims N P C wf).start (ix2 e q') idx 1 + ((rowDims N P C wf).window (ix2 e q') 1 : ℤ) < (C : ℤ)
        rw [hs1, hw1]
        have := q'.isLt
        omega
    rw [dif_pos hall]
    congr 1
    funext a
    refine Fin.ext ?_
    match a with
    | ⟨0, _⟩ =>
      show ((rowDims N P C wf).start (ix2 e q') idx 0 + ((rowDims N P C wf).window (ix2 e q') 0 : ℤ)).toNat = n.val
      rw [hs0, hw0, ht]
      omega
    | ⟨1, _⟩ =>
      show ((rowDims N P C wf).start (ix2 e q') idx 1 + ((rowDims N P C wf).window (ix2 e q') 1 : ℤ)).toNat = q'.val
      rw [hs1, hw1]
      omega

/-- THE ROW SCATTER-ADD READ AT `(n, q)`: the table's entry plus column `q` of every update row that lands on row
    `n`. -/
theorem scatterAdd_rows_apply (x : (⟨2, ![N, C]⟩ : Shape).Idx → EReal) (idx : IVec ⟨2, ![P, 1]⟩ 32)
    (upd : (⟨2, ![P, C]⟩ : Shape).Idx → EReal) (n : Fin N) (q : Fin C) :
    Ideal.hostScatterAdd (rowDims N P C wf) x idx upd (ix2 n q)
      = x (ix2 n q) + ∑ e ∈ landing N idx n, upd (ix2 e q) := by
  unfold Ideal.hostScatterAdd
  congr 1
  refine Finset.sum_nbij' (fun j => j 0) (fun e => ix2 e q) ?_ ?_ ?_ ?_ ?_
  · intro j hj
    rw [Finset.mem_filter] at hj
    have h := hj.2
    rw [eq_ix2 j] at h
    exact (mem_landing idx n (j 0)).mpr ((resultIdx?_eq_some_iff wf idx (j 0) (j 1) n q).mp h).1
  · intro e he
    rw [Finset.mem_filter]
    exact ⟨Finset.mem_univ _, (resultIdx?_eq_some_iff wf idx e q n q).mpr ⟨(mem_landing idx n e).mp he, rfl⟩⟩
  · intro j hj
    rw [Finset.mem_filter] at hj
    have h := hj.2
    rw [eq_ix2 j] at h
    have hq := ((resultIdx?_eq_some_iff wf idx (j 0) (j 1) n q).mp h).2
    rw [← hq]
    exact (eq_ix2 j).symm
  · intro e _
    rfl
  · intro j hj
    rw [Finset.mem_filter] at hj
    have h := hj.2
    rw [eq_ix2 j] at h
    have hq := ((resultIdx?_eq_some_iff wf idx (j 0) (j 1) n q).mp h).2
    rw [← hq]
    exact congrArg upd (eq_ix2 j)

/-- The program's form of the same reading: `Host.scatterAdd` at the extended reals is the exact accumulating
    scatter, so it reads at `(n, q)` as the table's entry plus column `q` of every update row landing on row `n`. -/
theorem host_scatterAdd_rows_apply {φ : FTy} (x : FVec Ideal ⟨2, ![N, C]⟩ φ) (idx : IVec ⟨2, ![P, 1]⟩ 32)
    (upd : FVec Ideal ⟨2, ![P, C]⟩ φ) (n : Fin N) (q : Fin C) :
    Host.scatterAdd (F := Ideal) (rowDims N P C wf) x idx upd (ix2 n q)
      = x (ix2 n q) + ∑ e ∈ landing N idx n, upd (ix2 e q) :=
  scatterAdd_rows_apply wf x idx upd n q

end

end Cert.RowScatter

end
-- ==== Proof.Reorder.lean ====
/-
  Two rearrangements of the plain program's stages.

  (B) A dense layer whose bias is the zero vector is the plain product: entry by entry y + 0 = y.

  (A) Aggregating rows along the edges and then multiplying by a matrix on the right equals multiplying first and
  aggregating afterwards: entry (node, q) of the first is ∑_k (0 + ∑_{e into node} h[ρ e, k] · n[e]) · W[k, q], of the
  second 0 + ∑_{e into node} (∑_k h[ρ e, k] · W[k, q]) · n[e], where ρ e is the row the edge's source selects and the
  edges into a node are those whose target is the node; ρ e and that set of edges do not depend on the width of the
  rows. The two sums agree by distributivity, which on the extended reals needs the entries to be reals; so the
  entries of h, n and W are taken to be reals, the sums are computed in ℝ, and there the equality is an exchange of
  two finite sums.
-/
import proofs.«175486_j44117904065163_2_alg».proof.Proof.Spec
import proofs.«175486_j44117904065163_2_alg».proof.Proof.Gen.KernelIdeal
import proofs.«175486_j44117904065163_2_alg».proof.Proof.LibRowGather
import proofs.«175486_j44117904065163_2_alg».proof.Proof.LibRowScatterAdd
import proofs.«175486_j44117904065163_2_alg».proof.Proof.LibMatmulIdx
import Idealize.ShloMosaic.Lib.Pipeline.Value
import Idealize.ShloMosaic.Lib.ValueIdx
import Idealize.ShloMosaic.PureOps.Ideal.Laws

noncomputable section

open scoped BigOperators

namespace Cert.Reorder

open Idealize.ShloMosaic Idealize.ShloMosaic.ValueIdx
open Cert.ReferenceIdeal Cert.ReferenceIdeal.Facts₀

/-! ### A dense layer with the zero bias -/

theorem dense_zero (x : FVec Ideal S50000x256 .f32) (w : FVec Ideal S256x128 .f32) :
    Cert.Spec.dense_256_128 (F := Ideal) x w
        (broadcastInDim S128 ![] Cert.KernelIdeal.Facts₀.bcast_S_S128 (constant S_ .f32 0x00000000#32))
      = Host.dotGeneral (F := Ideal) dot_S50000x256_S256x128_S50000x128_1_0_0_1_n_n none x w := by
  funext i
  show _ + Ideal.ofBits .f32 0x00000000#32 = _
  rw [Ideal.ofBits_zero_f32, add_zero]

/-! ### The pieces read at an entry -/

/-- The coercion of reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The host's plain product of an M×K by a K×N matrix read at (p, c): the sum over the contracted coordinate. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (c : Fin N) :
    FloatOps.dotGeneral (DotDims.plain M K N) prec sched lhs rhs (ix2 p c)
      = ∑ k : Fin K, lhs (ix2 p k) * rhs (ix2 k c) := by
  rw [Ideal.dotGeneral_apply, ← Equiv.sum_comp (contrEquiv1 (DotDims.plain M K N) K rfl rfl).symm]
  refine Finset.sum_congr rfl fun k _ => ?_
  rw [Cert.MatmulIdx.plain_lhsIdx, Cert.MatmulIdx.plain_rhsIdx]

/-- A vector [P] broadcast to a column [P, 1] and then along C columns reads, at (e, k), its entry e. -/
theorem bcast_col_apply {α : Type} {P C : Nat} (n : (⟨1, ![P]⟩ : Shape).Idx → α)
    (h1 : (⟨1, ![P]⟩ : Shape).BroadcastsInDim ⟨2, ![P, 1]⟩ ![0])
    (h2 : (⟨2, ![P, 1]⟩ : Shape).BroadcastsInDim ⟨2, ![P, C]⟩ ![0, 1]) (e : Fin P) (k : Fin C) :
    broadcastInDim ⟨2, ![P, C]⟩ ![0, 1] h2 (broadcastInDim ⟨2, ![P, 1]⟩ ![0] h1 n) (ix2 e k) = n (ix1 e) := by
  refine (broadcastInDim_apply ![0, 1] h2 _ (ix2 e k) (ix2 e 0) fun a => ?_).trans
    (broadcastInDim_apply ![0] h1 n (ix2 e 0) (ix1 e) fun a => ?_)
  · match a with
    | ⟨0, _⟩ =>
      show e.val = if P = 1 then 0 else e.val
      split
      · have := e.isLt; omega
      · rfl
    | ⟨1, _⟩ => exact (if_pos rfl).symm
  · match a with
    | ⟨0, _⟩ =>
      show e.val = if P = 1 then 0 else e.val
      split
      · have := e.isLt; omega
      · rfl

/-- THE AGGREGATION READ AT (p, q): gather a row per edge, scale it by the edge's coefficient, add it into the zero
    table at the edge's target. Entry (p, q) is 0 plus the sum, over the edges whose target is p, of the gathered row's
    entry q times the coefficient. Neither the set of edges nor the gathered row depends on the width C. -/
theorem agg_apply {N P C : Nat} (hN : 0 < N)
    (wfS : ScatterDims.WF ⟨2, ![N, C]⟩ ⟨2, ![P, 1]⟩ ⟨2, ![P, C]⟩ [1] [0] [0] 1)
    (wfG : GatherDims.WF ⟨2, ![N, C]⟩ ⟨2, ![P, 1]⟩ ⟨2, ![P, C]⟩ [1] [0] [] [0] [] 1 ![1, C])
    (hb0 : (⟨0, ![]⟩ : Shape).BroadcastsInDim ⟨2, ![N, C]⟩ ![])
    (hb1 : (⟨1, ![P]⟩ : Shape).BroadcastsInDim ⟨2, ![P, 1]⟩ ![0])
    (hb2 : (⟨2, ![P, 1]⟩ : Shape).BroadcastsInDim ⟨2, ![P, C]⟩ ![0, 1])
    (h : FVec Ideal ⟨2, ![N, C]⟩ .f32) (ws : IVec ⟨2, ![P, 1]⟩ 32) (t : IVec ⟨1, ![P]⟩ 32)
    (n : FVec Ideal ⟨1, ![P]⟩ .f32) (p : Fin N) (q : Fin C) :
    Host.scatterAdd (F := Ideal) (Cert.RowScatter.rowDims N P C wfS)
        (broadcastInDim ⟨2, ![N, C]⟩ ![] hb0 (constant (F := Ideal) ⟨0, ![]⟩ .f32 0x00000000#32))
        (broadcastInDim ⟨2, ![P, 1]⟩ ![0] hb1 t)
        (mulf (Host.gather (Cert.RowGather.rowDims N P C wfG) h ws)
          (broadcastInDim ⟨2, ![P, C]⟩ ![0, 1] hb2 (broadcastInDim ⟨2, ![P, 1]⟩ ![0] hb1 n))) (ix2 p q)
      = 0 + ∑ e ∈ Cert.RowScatter.landing N (broadcastInDim ⟨2, ![P, 1]⟩ ![0] hb1 t) p,
          h (ix2 (Cert.RowGather.rowOf N hN ws e) q) * n (ix1 e) := by
  rw [Cert.RowScatter.host_scatterAdd_rows_apply]
  congr 1
  · show Ideal.ofBits .f32 0x00000000#32 = 0
    exact Ideal.ofBits_zero_f32
  · refine Finset.sum_congr rfl fun e _ => ?_
    show Host.gather (Cert.RowGather.rowDims N P C wfG) h ws (ix2 e q)
        * broadcastInDim ⟨2, ![P, C]⟩ ![0, 1] hb2 (broadcastInDim ⟨2, ![P, 1]⟩ ![0] hb1 n) (ix2 e q) = _
    rw [Cert.RowGather.gather_rows_apply hN, bcast_col_apply]

/-! ### The two aggregations of the program read at an entry -/

/-- The edges into node p: the update rows whose start index, the target read signed, is p. -/
abbrev into (t : IVec S850000 32) (p : Fin 50000) : Finset (Fin 850000) :=
  Cert.RowScatter.landing 50000 (broadcastInDim S850000x1 ![0] bcast_S850000_S850000x1_0 t) p

/-- The row of a 50000-row table that edge e's source selects. -/
abbrev srcRow (s : IVec S850000 32) (e : Fin 850000) : Fin 50000 :=
  Cert.RowGather.rowOf 50000 (Nat.succ_pos _) (Cert.Spec.wrap s) e

theorem agg128_apply (h : FVec Ideal S50000x128 .f32) (s t : IVec S850000 32) (n : FVec Ideal S850000 .f32)
    (p : Fin 50000) (k : Fin 128) :
    Cert.Spec.agg128 (F := Ideal) h s t n (ix2 p k) = 0 + ∑ e ∈ into t p, h (ix2 (srcRow s e) k) * n (ix1 e) := by
  have e1 : scatter_S50000x128_S850000x1_S850000x128_1_0_0_1
      = Cert.RowScatter.rowDims 50000 850000 128 scatter_S50000x128_S850000x1_S850000x128_1_0_0_1_wf := rfl
  have e2 : gather_S50000x128_S850000x1_S850000x128_1_0_n_n_0_1_1128
      = Cert.RowGather.rowDims 50000 850000 128 gather_S50000x128_S850000x1_S850000x128_1_0_n_n_0_1_1128_wf := rfl
  unfold Cert.Spec.agg128
  rw [e1, e2]
  exact agg_apply (N := 50000) (P := 850000) (C := 128) (Nat.succ_pos _) _ _ bcast_S_S50000x128
    bcast_S850000_S850000x1_0 bcast_S850000x1_S850000x128_0_1 h (Cert.Spec.wrap s) t n p k

theorem agg256_apply (x : FVec Ideal S50000x256 .f32) (s t : IVec S850000 32) (n : FVec Ideal S850000 .f32)
    (p : Fin 50000) (q : Fin 256) :
    Cert.Spec.agg256 (F := Ideal) x s t n (ix2 p q) = 0 + ∑ e ∈ into t p, x (ix2 (srcRow s e) q) * n (ix1 e) := by
  have e1 : scatter_S50000x256_S850000x1_S850000x256_1_0_0_1
      = Cert.RowScatter.rowDims 50000 850000 256 scatter_S50000x256_S850000x1_S850000x256_1_0_0_1_wf := rfl
  have e2 : gather_S50000x256_S850000x1_S850000x256_1_0_n_n_0_1_1256
      = Cert.RowGather.rowDims 50000 850000 256 gather_S50000x256_S850000x1_S850000x256_1_0_n_n_0_1_1256_wf := rfl
  unfold Cert.Spec.agg256
  rw [e1, e2]
  exact agg_apply (N := 50000) (P := 850000) (C := 256) (Nat.succ_pos _) _ _ bcast_S_S50000x256
    bcast_S850000_S850000x1_0 bcast_S850000x1_S850000x256_0_1 x (Cert.Spec.wrap s) t n p q

/-- The program's dimension numbers of the [50000, 128] by [128, 256] product are the plain ones. -/
theorem dot_eq_plain : dot_S50000x128_S128x256_S50000x256_1_0_0_1_n_n = DotDims.plain 50000 128 256 := rfl

/-! ### The reorder -/

/-- The exchange of the two finite sums, in ℝ. -/
theorem real_exchange {ι : Type} (L : Finset ι) {K : Nat} (H : ι → Fin K → ℝ) (c : ι → ℝ) (W : Fin K → ℝ) :
    ∑ k : Fin K, (∑ e ∈ L, H e k * c e) * W k = ∑ e ∈ L, (∑ k : Fin K, H e k * W k) * c e := by
  simp only [Finset.sum_mul]
  rw [Finset.sum_comm]
  refine Finset.sum_congr rfl fun e _ => Finset.sum_congr rfl fun k _ => ?_
  ring

theorem gcn1_reorder (h : FVec Ideal S50000x128 .f32) (s t : IVec S850000 32) (n : FVec Ideal S850000 .f32)
    (w : FVec Ideal S128x256 .f32) (b : FVec Ideal S256 .f32) (hh : ∀ i, ∃ r : ℝ, h i = (r : EReal))
    (hn : ∀ i, ∃ r : ℝ, n i = (r : EReal)) (hw : ∀ i, ∃ r : ℝ, w i = (r : EReal)) :
    Cert.Spec.dense_128_256 (F := Ideal) (Cert.Spec.agg128 h s t n) w b
      = addf (Cert.Spec.agg256 (Host.dotGeneral (F := Ideal) dot_S50000x128_S128x256_S50000x256_1_0_0_1_n_n none h w) s t n)
          (Cert.Spec.bias256 b) := by
  choose H hH using hh
  choose c hc using hn
  choose W hW using hw
  funext j
  obtain ⟨p, q, rfl⟩ : ∃ (p : Fin 50000) (q : Fin 256), j = ix2 p q := ⟨j 0, j 1, eq_ix2 j⟩
  unfold Cert.Spec.dense_128_256
  rw [addf_apply, addf_apply, agg256_apply, dot_eq_plain]
  refine congrArg (fun z : EReal => z + Cert.Spec.bias256 (F := Ideal) b (ix2 p q)) ?_
  dsimp only [Host.dotGeneral]
  rw [dotGeneral_plain_apply]
  simp only [agg128_apply, dotGeneral_plain_apply, hH, hc, hW, zero_add, ← EReal.coe_mul, ← coe_sum]
  rw [real_exchange (into t p) (fun e k => H (ix2 (srcRow s e) k)) (fun e => c (ix1 e)) (fun k => W (ix2 k q))]

end Cert.Reorder

end
-- ==== Proof.Finite.lean ====
/-
  Finiteness.

  (1) The precondition is a conjunction, one conjunct per float input, of "every entry has absolute value below
  +∞"; an extended real whose absolute value is below +∞ is a real. The conjunction is a chain of `and`s whose last
  operand was added last, so it is peeled from the outside; every conjunct is a reduction by `and` over all axes of
  the array of comparisons.

  (2) The coefficient of an edge is the product of two entries of the array d^(-1/2)-where-d>0-else-0. Every entry
  of that array is a real whatever the degrees are: where d > 0 fails the entry is the real 0; where d > 0 holds,
  d is a positive real (its inverse square root is a real) or +∞ (its inverse square root is 0). A gathered entry
  is some entry of the table, and the product of two reals is a real.
-/
import proofs.«175486_j44117904065163_2_alg».proof.Proof.Gen.Pre_finite_inputs
import proofs.«175486_j44117904065163_2_alg».proof.Proof.Spec
import Idealize.ShloMosaic.Lib.ReduceAll
import Idealize.ShloMosaic.Lib.ValueIdx

noncomputable section

namespace Cert.Finite

open Idealize.ShloMosaic

/-- The shape of a scalar has one index. -/
instance : Subsingleton (⟨0, ![]⟩ : Shape).Idx := ⟨fun a b => funext fun d => d.elim0⟩

/-- The f32 pattern 0x7F800000 is +∞. -/
theorem inf_eq_top : Ideal.ofBits .f32 0x7F800000#32 = (⊤ : EReal) := by simp [Ideal.ofBits, Ideal.ieee]

/-- The f32 pattern 0 is the real 0. -/
theorem zero_eq : Ideal.ofBits .f32 0x00000000#32 = (0 : EReal) := by simp [Ideal.ofBits, Ideal.ieee]

/-- An extended real with |x| < +∞ is a real. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- Both operands of an `and` of two `i1` arrays that is 1 at an index are 1 there. -/
theorem andi_ix {s : Shape} (x y : IVec s 1) (i : s.Idx) (h : andi x y i = 1#1) : x i = 1#1 ∧ y i = 1#1 :=
  IntOp.andi_eq_one.1 h

section
open Cert.Pre_finite_inputs Cert.Pre_finite_inputs.Facts

/-- One conjunct of the precondition: all entries of |a| are below +∞, so all entries of a are reals. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi
        (cmpf .olt (Host.absf a) (broadcastInDim s ![] hb (constant (F := Ideal) S_ .f32 0x7F800000#32)))
        (constantI S_ 1 1#1) hr hu ValueIdx.ix0 = 1#1) :
    ∀ i, ∃ r : ℝ, a i = (r : EReal) := by
  intro i
  have e := Host.reduce_andi_all _ _ hr hu _ h i
  exact real_of_abs_lt_inf (a i) e

/-! ### The conjunction, peeled from the outside

  The chain of operations is cut into parts; each part takes the conjunction accumulated so far and returns it with more conjuncts added;
  the last part's result is the whole. So the last part being 1 makes its accumulated input 1, and so on inwards;
  the conjuncts a part adds for the arrays asked for are read off on the way. -/

theorem p6 (a23 : FVec Ideal S1 .f32) (v98 : IVec S_ 1) (v101 : IVec S272x1 1) (c39 : IVec S_ 1)
    (h : fn_part6 (F := Ideal) a23 v98 v101 c39 ValueIdx.ix0 = 1#1) : v98 ValueIdx.ix0 = 1#1 :=
  (andi_ix _ _ _ (andi_ix _ _ _ h).1).1

theorem p5 (a20 a21 : FVec Ideal S384 .f32) (a22 : FVec Ideal S272x1 .f32) (a23 : FVec Ideal S1 .f32)
    (v83 : IVec S_ 1) (v84 : FVec Ideal S128x384 .f32) (c32 : FVec Ideal S_ .f32)
    (h : fn_part5 (F := Ideal) a20 a21 a22 a23 v83 v84 c32 ValueIdx.ix0 = 1#1) : v83 ValueIdx.ix0 = 1#1 :=
  (andi_ix _ _ _ (andi_ix _ _ _ (andi_ix _ _ _ (p6 _ _ _ _ h)).1).1).1

theorem p4 (a16 a17 : FVec Ideal S768 .f32) (a18 a19 : FVec Ideal S128x384 .f32) (a20 a21 : FVec Ideal S384 .f32)
    (a22 : FVec Ideal S272x1 .f32) (a23 : FVec Ideal S1 .f32) (v63 v67 : IVec S_ 1)
    (h : fn_part4 (F := Ideal) a16 a17 a18 a19 a20 a21 a22 a23 v63 v67 ValueIdx.ix0 = 1#1) : v63 ValueIdx.ix0 = 1#1 :=
  (andi_ix _ _ _ (andi_ix _ _ _ (andi_ix _ _ _ (andi_ix _ _ _ (p5 _ _ _ _ _ _ _ h)).1).1).1).1

theorem p3 (a13 : FVec Ideal S128 .f32) (a14 a15 : FVec Ideal S256x768 .f32) (a16 a17 : FVec Ideal S768 .f32)
    (a18 a19 : FVec Ideal S128x384 .f32) (a20 a21 : FVec Ideal S384 .f32)
    (a22 : FVec Ideal S272x1 .f32) (a23 : FVec Ideal S1 .f32) (v48 : IVec S_ 1) (v49 v50 : FVec Ideal S256x128 .f32)
    (h : fn_part3 (F := Ideal) a13 a14 a15 a16 a17 a18 a19 a20 a21 a22 a23 v48 v49 v50 ValueIdx.ix0 = 1#1) :
    v48 ValueIdx.ix0 = 1#1 :=
  (andi_ix _ _ _ (andi_ix _ _ _ (andi_ix _ _ _ (p4 _ _ _ _ _ _ _ _ _ _ h)).1).1).1

theorem p2 (a9 : FVec Ideal S128 .f32) (a10 : FVec Ideal S128x256 .f32) (a11 : FVec Ideal S256 .f32)
    (a12 : FVec Ideal S256x128 .f32) (a13 : FVec Ideal S128 .f32) (a14 a15 : FVec Ideal S256x768 .f32)
    (a16 a17 : FVec Ideal S768 .f32) (a18 a19 : FVec Ideal S128x384 .f32) (a20 a21 : FVec Ideal S384 .f32)
    (a22 : FVec Ideal S272x1 .f32) (a23 : FVec Ideal S1 .f32) (v33 : IVec S_ 1)
    (h : fn_part2 (F := Ideal) a9 a10 a11 a12 a13 a14 a15 a16 a17 a18 a19 a20 a21 a22 a23 v33 ValueIdx.ix0 = 1#1) :
    v33 ValueIdx.ix0 = 1#1 ∧ (∀ i, ∃ r : ℝ, a9 i = (r : EReal)) ∧ (∀ i, ∃ r : ℝ, a10 i = (r : EReal)) := by
  have h48 := p3 _ _ _ _ _ _ _ _ _ _ _ _ _ _ h
  have h43 := (andi_ix _ _ _ h48).1
  have h38 := (andi_ix _ _ _ h43).1
  have h42 := (andi_ix _ _ _ h43).2
  have h33 := (andi_ix _ _ _ h38).1
  have h37 := (andi_ix _ _ _ h38).2
  exact ⟨h33, all_real bcast_S_S128 reducesTo_S128_S_d0 h_S_ a9 h37,
    all_real bcast_S_S128x256 reducesTo_S128x256_S_d0_1 h_S_ a10 h42⟩

theorem p1 (a6 : FVec Ideal S256x256 .f32) (a7 : FVec Ideal S256 .f32) (a8 : FVec Ideal S256x128 .f32)
    (a9 : FVec Ideal S128 .f32) (a10 : FVec Ideal S128x256 .f32) (a11 : FVec Ideal S256 .f32)
    (a12 : FVec Ideal S256x128 .f32) (a13 : FVec Ideal S128 .f32) (a14 a15 : FVec Ideal S256x768 .f32)
    (a16 a17 : FVec Ideal S768 .f32) (a18 a19 : FVec Ideal S128x384 .f32) (a20 a21 : FVec Ideal S384 .f32)
    (a22 : FVec Ideal S272x1 .f32) (a23 : FVec Ideal S1 .f32) (v13 : IVec S_ 1) (v16 : IVec S50000x128 1)
    (h : fn_part1 (F := Ideal) a6 a7 a8 a9 a10 a11 a12 a13 a14 a15 a16 a17 a18 a19 a20 a21 a22 a23 v13 v16 ValueIdx.ix0
      = 1#1) :
    v13 ValueIdx.ix0 = 1#1 ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal)) := by
  obtain ⟨h33, f9, f10⟩ := p2 _ _ _ _ _ _ _ _ _ _ _ _ _ _ _ _ h
  have h28 := (andi_ix _ _ _ h33).1
  have h32 := (andi_ix _ _ _ h33).2
  have h23 := (andi_ix _ _ _ h28).1
  have h27 := (andi_ix _ _ _ h28).2
  have h18 := (andi_ix _ _ _ h23).1
  have h22 := (andi_ix _ _ _ h23).2
  have h13 := (andi_ix _ _ _ h18).1
  exact ⟨h13, all_real bcast_S_S256x256 reducesTo_S256x256_S_d0_1 h_S_ a6 h22,
    all_real bcast_S_S256 reducesTo_S256_S_d0 h_S_ a7 h27,
    all_real bcast_S_S256x128 reducesTo_S256x128_S_d0_1 h_S_ a8 h32, f9, f10⟩

theorem finite_of_pre (a0 : FVec Ideal S50000x256 .f32) (a1 : IVec S2x800000 32) (a2 : IVec S2x200000 32) (a3 : FVec Ideal S200000x16 .f32) (a4 : FVec Ideal S50000x256 .f32) (a5 : FVec Ideal S50000x128 .f32) (a6 : FVec Ideal S256x256 .f32) (a7 : FVec Ideal S256 .f32) (a8 : FVec Ideal S256x128 .f32) (a9 : FVec Ideal S128 .f32) (a10 : FVec Ideal S128x256 .f32) (a11 : FVec Ideal S256 .f32) (a12 : FVec Ideal S256x128 .f32) (a13 : FVec Ideal S128 .f32) (a14 : FVec Ideal S256x768 .f32) (a15 : FVec Ideal S256x768 .f32) (a16 : FVec Ideal S768 .f32) (a17 : FVec Ideal S768 .f32) (a18 : FVec Ideal S128x384 .f32) (a19 : FVec Ideal S128x384 .f32) (a20 : FVec Ideal S384 .f32) (a21 : FVec Ideal S384 .f32) (a22 : FVec Ideal S272x1 .f32) (a23 : FVec Ideal S1 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i, ∃ r : ℝ, a0 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) := by
  have h0 : Cert.Pre_finite_inputs.fn (F := Ideal) a0 a1 a2 a3 a4 a5 a6 a7 a8 a9 a10 a11 a12 a13 a14 a15 a16 a17 a18 a19 a20 a21 a22 a23 ValueIdx.ix0 = 1#1 :=
    congrFun h ValueIdx.ix0
  obtain ⟨h13, f6, f7, f8, f9, f10⟩ := p1 _ _ _ _ _ _ _ _ _ _ _ _ _ _ _ _ _ _ _ _ h0
  have h8 := (andi_ix _ _ _ h13).1
  have h3 := (andi_ix _ _ _ h8).1
  exact ⟨all_real bcast_S_S50000x256 reducesTo_S50000x256_S_d0_1 h_S_ a0 h3, f6, f7, f8, f9, f10⟩

end

/-! ### The edge coefficients -/

section
open Cert.ReferenceIdeal Cert.ReferenceIdeal.Facts₀ Cert.ReferenceIdeal.Facts

/-- Every entry of d^(-1/2)-where-d>0-else-0 is a real, whatever the extended reals d are. -/
theorem dinv_finite (d : FVec Ideal S50000 .f32) : ∀ i, ∃ r : ℝ, Cert.Spec.dinv (F := Ideal) d i = (r : EReal) := by
  intro i
  have e : Cert.Spec.dinv (F := Ideal) d i
      = Scalar.select (Ideal.cmp .ogt (d i) (Ideal.ofBits .f32 0x00000000#32)) (Ideal.rsqrt (d i))
          (Ideal.ofBits .f32 0x00000000#32) := rfl
  rw [e, zero_eq]
  generalize d i = x
  unfold Scalar.select Ideal.cmp
  induction x using EReal.rec with
  | bot => exact ⟨0, by simp⟩
  | top => exact ⟨0, by simp⟩
  | coe r =>
    by_cases hr : 0 < r
    · refine ⟨(Real.sqrt r)⁻¹, ?_⟩
      have h1 : ¬ r < 0 := not_lt.2 hr.le
      have h2 : r ≠ 0 := hr.ne'
      simp [Ideal.rsqrt_coe, hr, h1, h2]
    · exact ⟨0, by simp [hr]⟩

/-- An entry of the coefficient array is the product of two entries of the table, so a real when they all are. -/
theorem coef_finite (dv : FVec Ideal S50000 .f32) (hdv : ∀ j, ∃ r : ℝ, dv j = (r : EReal)) (s t : IVec S850000 32) :
    ∀ i, ∃ r : ℝ, Cert.Spec.coef (F := Ideal) dv s t i = (r : EReal) := by
  intro i
  obtain ⟨j1, j2, e⟩ : ∃ j1 j2, Cert.Spec.coef (F := Ideal) dv s t i = dv j1 * dv j2 := ⟨_, _, rfl⟩
  obtain ⟨x, hx⟩ := hdv j1
  obtain ⟨y, hy⟩ := hdv j2
  exact ⟨x * y, by rw [e, hx, hy, EReal.coe_mul]⟩

end

theorem norm_finite (e : IVec Cert.ReferenceIdeal.S2x800000 32) :
    ∀ i, ∃ r : ℝ, Cert.Spec.norm (F := Ideal) e i = (r : EReal) :=
  coef_finite _ (dinv_finite _) _ _

end Cert.Finite

end
-- ==== Proof.KValue.lean ====
/-
  The kernel's program read from launch to return: each region's result and each host stretch's results as the
  stages of the network applied to the argument arrays. Region 0 leaves the two dense layers of x; the stretch after
  it aggregates those rows along the edges; region 1 transforms the aggregate — which, all entries being finite,
  is the transform aggregated (the one use of finiteness); region 2 is the first gated cell, region 3 the second
  layer's transform (its zero bias adds nothing), the stretch after it aggregates and adds the bias, region 4 is the
  second gated cell, and the last stretch computes the edge scores by parts of the weight column, which is the
  plain program's product with the whole column.
-/
import proofs.«175486_j44117904065163_2_alg».proof.Proof.Gen.KernelIdeal.Frame
import proofs.«175486_j44117904065163_2_alg».proof.Proof.Spec
import proofs.«175486_j44117904065163_2_alg».proof.Proof.SpecK
import proofs.«175486_j44117904065163_2_alg».proof.Proof.KStretch
import proofs.«175486_j44117904065163_2_alg».proof.Proof.KStretch1
import proofs.«175486_j44117904065163_2_alg».proof.Proof.KKeep
import proofs.«175486_j44117904065163_2_alg».proof.Proof.Reg0
import proofs.«175486_j44117904065163_2_alg».proof.Proof.Reg1
import proofs.«175486_j44117904065163_2_alg».proof.Proof.Reg2
import proofs.«175486_j44117904065163_2_alg».proof.Proof.Reg3
import proofs.«175486_j44117904065163_2_alg».proof.Proof.Reg4
import proofs.«175486_j44117904065163_2_alg».proof.Proof.Head
import proofs.«175486_j44117904065163_2_alg».proof.Proof.Reorder
import proofs.«175486_j44117904065163_2_alg».proof.Proof.Finite

noncomputable section
namespace Cert.KernelIdeal.KValue
open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array as launched, on core `c`. -/
abbrev A (r : Ref sig .tc) : Buf (Elt Ideal) ((c.tc : Thread nD τ).loc r) := m ((c.tc : Thread nD τ).loc r)

/-- The two dense layers of x. -/
def H0 : FVec Ideal Cert.ReferenceIdeal.S50000x128 .f32 :=
  Cert.Spec.prelayer (F := Ideal) (A m c main_arg0) (A m c main_arg6) (A m c main_arg7) (A m c main_arg8) (A m c main_arg9)
/-- The first embedding. -/
def E1 : FVec Ideal Cert.ReferenceIdeal.S50000x256 .f32 := Cert.Spec.emb1 (F := Ideal) (A m c main_arg0) (A m c main_arg1) (A m c main_arg4) (A m c main_arg6) (A m c main_arg7) (A m c main_arg8) (A m c main_arg9) (A m c main_arg10) (A m c main_arg11) (A m c main_arg14) (A m c main_arg15) (A m c main_arg16) (A m c main_arg17)
/-- The second embedding. -/
def E2 : FVec Ideal Cert.ReferenceIdeal.S50000x128 .f32 := Cert.Spec.emb2 (F := Ideal) (E1 m c) (A m c main_arg1) (A m c main_arg5) (A m c main_arg12) (A m c main_arg13) (A m c main_arg18) (A m c main_arg19) (A m c main_arg20) (A m c main_arg21)

/-- Every entry an (extended-real-embedded) real number. -/
def AllReal (S : Shape) (x : FVec Ideal S .f32) : Prop := ∀ i, ∃ r : ℝ, x i = (r : EReal)

/-! ## Region 0 -/

theorem v2_at2 : W2 m ρ c (Proc.devRef .tc main_v2) = H0 m c := by
  refine (W2_arr m ρ c 5).trans ?_
  have hb1 : V1 m ρ c main_v0 = shapeCast S1x256 (A m c main_arg7) shapeCasts_S256_S1x256 := (KStretch.st0 (W0 m ρ c)).1
  have hb2 : V1 m ρ c main_v1 = shapeCast S1x128 (A m c main_arg9) shapeCasts_S128_S1x128 := (KStretch.st0 (W0 m ρ c)).2
  refine (Reg0.arr_eq (V1 m ρ) c _ hb1 _ hb2).trans ?_
  show Cert.Spec.prelayer (F := Ideal) (W1 m ρ c (Proc.devRef .tc main_arg0)) (W1 m ρ c (Proc.devRef .tc main_arg6)) _ (W1 m ρ c (Proc.devRef .tc main_arg8)) _ = _
  rw [KKeep.at1_arg0, KKeep.at1_arg6, KKeep.at1_arg8]
  rfl

/-! ## The stretch between regions 0 and 1, and region 1 -/

theorem st1_at5 :
    W5 m ρ c (Proc.devRef .tc main_v45) = Cert.Spec.agg128 (F := Ideal) (H0 m c) (Cert.Spec.srcs (A m c main_arg1)) (Cert.Spec.tgts (A m c main_arg1)) (Cert.Spec.norm (F := Ideal) (A m c main_arg1))
    ∧ W5 m ρ c (Proc.devRef .tc main_v46) = shapeCast S1x256 (A m c main_arg11) shapeCasts_S256_S1x256
    ∧ W5 m ρ c (Proc.devRef .tc main_arg10) = (A m c main_arg10)
    ∧ W5 m ρ c (Proc.devRef .tc main_v8) = Cert.Spec.srcs (A m c main_arg1)
    ∧ W5 m ρ c (Proc.devRef .tc main_v9) = Cert.Spec.tgts (A m c main_arg1)
    ∧ W5 m ρ c (Proc.devRef .tc main_v32) = Cert.Spec.norm (F := Ideal) (A m c main_arg1) := by
  have h := KChain.st1 (W2 m ρ c)
  rw [v2_at2, KKeep.at2_arg1, KKeep.at2_arg10, KKeep.at2_arg11] at h
  exact h

theorem v47_at6 (h0 : AllReal _ (A m c main_arg0)) (h6 : AllReal _ (A m c main_arg6)) (h7 : AllReal _ (A m c main_arg7)) (h8 : AllReal _ (A m c main_arg8))
    (h9 : AllReal _ (A m c main_arg9)) (h10 : AllReal _ (A m c main_arg10)) :
    W6 m ρ c (Proc.devRef .tc main_v47) = Cert.Spec.gcn1 (F := Ideal) (H0 m c) (A m c main_arg1) (A m c main_arg10) (A m c main_arg11) := by
  obtain ⟨e45, e46, e10, -, -, -⟩ := st1_at5 m ρ c
  refine (W6_arr m ρ c 3).trans ?_
  refine (Reg1.arr_eq (V5 m ρ) c _ e46).trans ?_
  show Cert.Spec.dense_128_256 (F := Ideal) (W5 m ρ c (Proc.devRef .tc main_v45)) (W5 m ρ c (Proc.devRef .tc main_arg10)) _ = _
  rw [e45, e10]
  exact Cert.Reorder.gcn1_reorder (H0 m c) _ _ _ _ _ (Reg0.prelayer_finite _ _ _ _ _ h0 h6 h7 h8 h9) (Cert.Finite.norm_finite _) h10

/-! ## Region 2: the first gated cell -/

theorem v50_at8 (h0 : AllReal _ (A m c main_arg0)) (h6 : AllReal _ (A m c main_arg6)) (h7 : AllReal _ (A m c main_arg7)) (h8 : AllReal _ (A m c main_arg8))
    (h9 : AllReal _ (A m c main_arg9)) (h10 : AllReal _ (A m c main_arg10)) :
    W8 m ρ c (Proc.devRef .tc main_v50) = E1 m c := by
  refine (W8_arr m ρ c 6).trans ?_
  have hb1 : V7 m ρ c main_v48 = shapeCast S1x768 (A m c main_arg16) shapeCasts_S768_S1x768 := by
    refine (KStretch.st2 (W6 m ρ c)).1.trans ?_; rw [KKeep.at6_arg16]
  have hb2 : V7 m ρ c main_v49 = shapeCast S1x768 (A m c main_arg17) shapeCasts_S768_S1x768 := by
    refine (KStretch.st2 (W6 m ρ c)).2.trans ?_; rw [KKeep.at6_arg17]
  refine (Reg2.arr_eq (V7 m ρ) c _ hb1 _ hb2).trans ?_
  show Cert.Spec.gru256 (F := Ideal) (Cert.Spec.lrelu256 (W7 m ρ c (Proc.devRef .tc main_v47))) (W7 m ρ c (Proc.devRef .tc main_arg4)) (W7 m ρ c (Proc.devRef .tc main_arg14)) (W7 m ρ c (Proc.devRef .tc main_arg15)) _ _ = _
  rw [KKeep.v47_7_6, v47_at6 m ρ c h0 h6 h7 h8 h9 h10, KKeep.at7_arg4, KKeep.at7_arg14, KKeep.at7_arg15]
  rfl

/-! ## Region 3, the stretch after it, region 4: the second layer and the second gated cell -/

theorem v53_at10 (h0 : AllReal _ (A m c main_arg0)) (h6 : AllReal _ (A m c main_arg6)) (h7 : AllReal _ (A m c main_arg7)) (h8 : AllReal _ (A m c main_arg8))
    (h9 : AllReal _ (A m c main_arg9)) (h10 : AllReal _ (A m c main_arg10)) :
    W10 m ρ c (Proc.devRef .tc main_v53) = Host.dotGeneral (F := Ideal) (φ₂ := .f32) Cert.ReferenceIdeal.dot_S50000x256_S256x128_S50000x128_1_0_0_1_n_n none (E1 m c) (A m c main_arg12 : FVec Ideal Cert.ReferenceIdeal.S256x128 .f32) := by
  refine (W10_arr m ρ c 3).trans ?_
  refine (Reg3.arr_eq (V9 m ρ) c _ (KStretch.st3 (W8 m ρ c))).trans ?_
  show Cert.Spec.dense_256_128 (F := Ideal) (W9 m ρ c (Proc.devRef .tc main_v50)) (W9 m ρ c (Proc.devRef .tc main_arg12)) _ = _
  rw [KKeep.v50_9_8, v50_at8 m ρ c h0 h6 h7 h8 h9 h10, KKeep.at9_arg12]
  exact Cert.Reorder.dense_zero _ _

theorem v72_at12 (h0 : AllReal _ (A m c main_arg0)) (h6 : AllReal _ (A m c main_arg6)) (h7 : AllReal _ (A m c main_arg7)) (h8 : AllReal _ (A m c main_arg8))
    (h9 : AllReal _ (A m c main_arg9)) (h10 : AllReal _ (A m c main_arg10)) :
    W12 m ρ c (Proc.devRef .tc main_v72) = E2 m c := by
  obtain ⟨-, -, -, e8, e9, e32⟩ := st1_at5 m ρ c
  obtain ⟨s69, s70, s71⟩ := KStretch.st4 (W10 m ρ c)
  refine (W12_arr m ρ c 6).trans ?_
  have hb1 : V11 m ρ c main_v70 = shapeCast S1x384 (A m c main_arg20) shapeCasts_S384_S1x384 := by
    refine s70.trans ?_; rw [KKeep.at10_arg20]
  have hb2 : V11 m ρ c main_v71 = shapeCast S1x384 (A m c main_arg21) shapeCasts_S384_S1x384 := by
    refine s71.trans ?_; rw [KKeep.at10_arg21]
  refine (Reg4.arr_eq (V11 m ρ) c _ hb1 _ hb2).trans ?_
  show Cert.Spec.gru128 (F := Ideal) (Cert.Spec.lrelu128 (W11 m ρ c (Proc.devRef .tc main_v69))) (W11 m ρ c (Proc.devRef .tc main_arg5)) (W11 m ρ c (Proc.devRef .tc main_arg18)) (W11 m ρ c (Proc.devRef .tc main_arg19)) _ _ = _
  rw [show W11 m ρ c (Proc.devRef .tc main_v69) = _ from s69, v53_at10 m ρ c h0 h6 h7 h8 h9 h10, KKeep.v8_10_5, KKeep.v9_10_5, KKeep.v32_10_5, e8, e9, e32,
    KKeep.at10_arg13, KKeep.at11_arg5, KKeep.at11_arg18, KKeep.at11_arg19]
  rfl

/-! ## The three results at the return -/

theorem values (h0 : AllReal _ (A m c main_arg0)) (h6 : AllReal _ (A m c main_arg6)) (h7 : AllReal _ (A m c main_arg7)) (h8 : AllReal _ (A m c main_arg8))
    (h9 : AllReal _ (A m c main_arg9)) (h10 : AllReal _ (A m c main_arg10)) :
    W13 m ρ c (Proc.devRef .tc main_v102) = Cert.Spec.scores (F := Ideal) (E2 m c) (A m c main_arg2) (A m c main_arg3) (A m c main_arg22) (A m c main_arg23)
    ∧ W13 m ρ c (Proc.devRef .tc main_v50) = E1 m c
    ∧ W13 m ρ c (Proc.devRef .tc main_v72) = E2 m c := by
  refine ⟨?_, ?_, ?_⟩
  · refine (KStretch.st5 (W12 m ρ c)).trans ?_
    rw [v72_at12 m ρ c h0 h6 h7 h8 h9 h10, KKeep.at12_arg2, KKeep.at12_arg3, KKeep.at12_arg22, KKeep.at12_arg23]
    exact Cert.Head.scores_eq _ _ _ _ _
  · rw [KKeep.v50_13_8]; exact v50_at8 m ρ c h0 h6 h7 h8 h9 h10
  · rw [KKeep.v72_13_12]; exact v72_at12 m ρ c h0 h6 h7 h8 h9 h10

end Cert.KernelIdeal.KValue
end
-- ==== Proof.RefOps.lean ====
/-
  The plain program's host operations in order, cut where one stage of the network ends and the next begins (and where
  the printed text of the program is cut), each call of an outlined function spelled out over the call's record; the
  references each piece writes; and the program as that straight line.
-/
import proofs.«175486_j44117904065163_2_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- One operation writes one reference, which is in the list. -/
local macro "writes_case" : tactic =>
  `(tactic| (simp only [nullary_writes, unary_writes, binary_writes, ternary_writes, reshape_writes, nary_writes,
      Finset.singleton_subset_iff, List.mem_toFinset]; exact List.mem_map_of_mem (by decide)))

/-- 24 operations of the two dense layers with their rectifiers, in order. -/
def opsPre : List (HloOp τ sig (Elt F)) :=
  [ binary main_arg0 main_arg6 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg7 main_v1 (broadcastInDim S1x256 ![1] bcast_S256_S1x256_1 : (⟨S256, .f32⟩ : BufTy).Contents (Elt F) → (⟨S1x256, .f32⟩ : BufTy).Contents (Elt F)),
    unary main_v1 main_v2 (broadcastInDim S50000x256 ![0, 1] bcast_S1x256_S50000x256_0_1 : (⟨S1x256, .f32⟩ : BufTy).Contents (Elt F) → (⟨S50000x256, .f32⟩ : BufTy).Contents (Elt F)),
    binary main_v0 main_v2 main_v3 (addf : (⟨S50000x256, .f32⟩ : BufTy).Contents (Elt F) → (⟨S50000x256, .f32⟩ : BufTy).Contents (Elt F) → (⟨S50000x256, .f32⟩ : BufTy).Contents (Elt F)),
    nullary main_cst (constant S_ .f32 0x3C23D70A#32),
    TRef.nullary main_call0.cst (constant S_ .f32 0x00000000#32),
    TRef.unary main_call0.cst main_call0.v0 (broadcastInDim S50000x256 ![] bcast_S_S50000x256),
    TRef.binary (.of main_v3) main_call0.v0 main_call0.v1 (cmpf .oge),
    TRef.unary (.of main_cst) main_call0.v2 id,
    TRef.unary main_call0.v2 main_call0.v3 (broadcastInDim S50000x256 ![] bcast_S_S50000x256),
    TRef.binary main_call0.v3 (.of main_v3) main_call0.v4 mulf,
    TRef.ternary main_call0.v1 (.of main_v3) main_call0.v4 main_call0.call0.v0 select,
    binary main_v4 main_arg8 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg9 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v5 main_v7 main_v8 (addf : (⟨S50000x128, .f32⟩ : BufTy).Contents (Elt F) → (⟨S50000x128, .f32⟩ : BufTy).Contents (Elt F) → (⟨S50000x128, .f32⟩ : BufTy).Contents (Elt F)),
    nullary main_cst_0 (constant S_ .f32 0x3C23D70A#32),
    TRef.nullary main_call1.cst (constant S_ .f32 0x00000000#32),
    TRef.unary main_call1.cst main_call1.v0 (broadcastInDim S50000x128 ![] bcast_S_S50000x128),
    TRef.binary (.of main_v8) main_call1.v0 main_call1.v1 (cmpf .oge),
    TRef.unary (.of main_cst_0) main_call1.v2 id,
    TRef.unary main_call1.v2 main_call1.v3 (broadcastInDim S50000x128 ![] bcast_S_S50000x128),
    TRef.binary main_call1.v3 (.of main_v8) main_call1.v4 mulf,
    TRef.ternary main_call1.v1 (.of main_v8) main_call1.v4 main_call1.call0.v0 select ]
/-- The references those operations write. -/
abbrev opsPre_W : List (Ref sig .tc) := [main_v0, main_v1, main_v2, main_v3, main_cst, main_call0.cst.ref, main_call0.v0.ref, main_call0.v1.ref, main_call0.v2.ref, main_call0.v3.ref, main_call0.v4.ref, main_call0.call0.v0.ref, main_v5, main_v6, main_v7, main_v8, main_cst_0, main_call1.cst.ref, main_call1.v0.ref, main_call1.v1.ref, main_call1.v2.ref, main_call1.v3.ref, main_call1.v4.ref, main_call1.call0.v0.ref]
theorem opsPre_sub : (opsPre : List (HloOp τ sig (Elt F))).Forall fun op => op.bufs ⊆ tcRefs τ sig := by
  unfold opsPre; exact ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsPre_fresh : (opsPre : List (HloOp τ sig (Elt F))).Forall fun op => op.fresh = ∅ := by
  unfold opsPre; exact ⟨rfl, rfl, rfl, rfl, rfl, rfl, rfl, rfl, rfl, rfl, rfl, rfl, rfl, rfl, rfl, rfl, rfl, rfl, rfl, rfl, rfl, rfl, rfl, rfl⟩
theorem opsPre_writes : (opsPre : List (HloOp τ sig (Elt F))).Forall fun op => op.writes ⊆ (opsPre_W.map (Proc.devRef (τ := τ) .tc)).toFinset := by
  unfold opsPre; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 5 operations of the graph's sources, targets and edge coefficients (first time) (part a), in order. -/
def opsGraph1a : List (HloOp τ sig (Elt F)) :=
  [ unary main_arg1 main_v10 ((extractStridedSlice S1x800000 ![0, 0] · slices_S2x800000_S1x800000_0_0) : (⟨S2x800000, .i32⟩ : BufTy).Contents (Elt F) → (⟨S1x800000, .i32⟩ : BufTy).Contents (Elt F)),
    reshape main_v10 main_v11 rfl shapeCasts_S1x800000_S800000,
    unary main_arg1 main_v12 ((extractStridedSlice S1x800000 ![1, 0] · slices_S2x800000_S1x800000_1_0) : (⟨S2x800000, .i32⟩ : BufTy).Contents (Elt F) → (⟨S1x800000, .i32⟩ : BufTy).Contents (Elt F)),
    reshape main_v12 main_v13 rfl shapeCasts_S1x800000_S800000,
    nullary main_v14 (iotaInDim S50000 32 0) ]
/-- The references those operations write. -/
abbrev opsGraph1a_W : List (Ref sig .tc) := [main_v10, main_v11, main_v12, main_v13, main_v14]
theorem opsGraph1a_sub : (opsGraph1a : List (HloOp τ sig (Elt F))).Forall fun op => op.bufs ⊆ tcRefs τ sig := by
  unfold opsGraph1a; exact ⟨unary_bufs_sub .., reshape_bufs_sub .., unary_bufs_sub .., reshape_bufs_sub .., nullary_bufs_sub ..⟩
theorem opsGraph1a_fresh : (opsGraph1a : List (HloOp τ sig (Elt F))).Forall fun op => op.fresh = ∅ := by
  unfold opsGraph1a; exact ⟨rfl, rfl, rfl, rfl, rfl⟩
theorem opsGraph1a_writes : (opsGraph1a : List (HloOp τ sig (Elt F))).Forall fun op => op.writes ⊆ (opsGraph1a_W.map (Proc.devRef (τ := τ) .tc)).toFinset := by
  unfold opsGraph1a; simp only [List.Forall]; exact ⟨by writes_case, by writes_case, by writes_case, by writes_case, by writes_case⟩

/-- 1 operations of the graph's sources, targets and edge coefficients (first time) (part b), in order. -/
def opsGraph1b : List (HloOp τ sig (Elt F)) :=
  [ binary main_v11 main_v14 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The references those operations write. -/
abbrev opsGraph1b_W : List (Ref sig .tc) := [main_v15]
theorem opsGraph1b_sub : (opsGraph1b : List (HloOp τ sig (Elt F))).Forall fun op => op.bufs ⊆ tcRefs τ sig := by
  unfold opsGraph1b; exact binary_bufs_sub ..
theorem opsGraph1b_fresh : (opsGraph1b : List (HloOp τ sig (Elt F))).Forall fun op => op.fresh = ∅ := by
  unfold opsGraph1b; exact rfl
theorem opsGraph1b_writes : (opsGraph1b : List (HloOp τ sig (Elt F))).Forall fun op => op.writes ⊆ (opsGraph1b_W.map (Proc.devRef (τ := τ) .tc)).toFinset := by
  unfold opsGraph1b; simp only [List.Forall]; exact by writes_case

/-- 34 operations of the graph's sources, targets and edge coefficients (first time) (part c), in order. -/
def opsGraph1c : List (HloOp τ sig (Elt F)) :=
  [ binary main_v13 main_v14 main_v16 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_1 (constant S_ .f32 0x3F800000#32),
    unary main_cst_1 main_v17 (broadcastInDim S850000 ![] bcast_S_S850000 : (⟨S_, .f32⟩ : BufTy).Contents (Elt F) → (⟨S850000, .f32⟩ : BufTy).Contents (Elt F)),
    nullary main_cst_2 (constant S_ .f32 0x00000000#32),
    unary main_cst_2 main_v18 (broadcastInDim S50000 ![] bcast_S_S50000 : (⟨S_, .f32⟩ : BufTy).Contents (Elt F) → (⟨S50000, .f32⟩ : BufTy).Contents (Elt F)),
    unary main_v16 main_v19 (broadcastInDim S850000x1 ![0] bcast_S850000_S850000x1_0 : (⟨S850000, .i32⟩ : BufTy).Contents (Elt F) → (⟨S850000x1, .i32⟩ : BufTy).Contents (Elt F)),
    ternary main_v18 main_v19 main_v17 main_v20 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_3 (constant S_ .f32 0x00000000#32),
    unary main_cst_3 main_v21 (broadcastInDim S50000 ![] bcast_S_S50000 : (⟨S_, .f32⟩ : BufTy).Contents (Elt F) → (⟨S50000, .f32⟩ : BufTy).Contents (Elt F)),
    binary main_v20 main_v21 main_v22 (cmpf .ogt : (⟨S50000, .f32⟩ : BufTy).Contents (Elt F) → (⟨S50000, .f32⟩ : BufTy).Contents (Elt F) → (⟨S50000, .i1⟩ : BufTy).Contents (Elt F)),
    unary main_v20 main_v23 (Host.rsqrt : (⟨S50000, .f32⟩ : BufTy).Contents (Elt F) → (⟨S50000, .f32⟩ : BufTy).Contents (Elt F)),
    nullary main_cst_4 (constant S_ .f32 0x00000000#32),
    TRef.unary (.of main_cst_4) main_call2.v0 id,
    TRef.unary main_call2.v0 main_call2.v1 (broadcastInDim S50000 ![] bcast_S_S50000),
    TRef.ternary (.of main_v22) (.of main_v23) main_call2.v1 main_call2.v2 select,
    nullary main_c (constantI S_ 32 0#32),
    unary main_c main_v25 (broadcastInDim S850000 ![] bcast_S_S850000 : (⟨S_, .i32⟩ : BufTy).Contents (Elt F) → (⟨S850000, .i32⟩ : BufTy).Contents (Elt F)),
    binary main_v15 main_v25 main_v26 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v27 (broadcastInDim S850000 ![] bcast_S_S850000 : (⟨S_, .i32⟩ : BufTy).Contents (Elt F) → (⟨S850000, .i32⟩ : BufTy).Contents (Elt F)),
    binary main_v15 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v15 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v24 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v16 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v16 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v16 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v24 main_v37 main_v38 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v31 main_v38 main_v39 (mulf : (⟨S850000, .f32⟩ : BufTy).Contents (Elt F) → (⟨S850000, .f32⟩ : BufTy).Contents (Elt F) → (⟨S850000, .f32⟩ : BufTy).Contents (Elt F)) ]
/-- The references those operations write. -/
abbrev opsGraph1c_W : List (Ref sig .tc) := [main_v16, main_cst_1, main_v17, main_cst_2, main_v18, main_v19, main_v20, main_cst_3, main_v21, main_v22, main_v23, main_cst_4, main_call2.v0.ref, main_call2.v1.ref, main_call2.v2.ref, main_c, main_v25, main_v26, main_c_5, main_v27, main_v28, main_v29, main_v30, main_v31, main_c_6, main_v32, main_v33, main_c_7, main_v34, main_v35, main_v36, main_v37, main_v38, main_v39]
theorem opsGraph1c_sub : (opsGraph1c : List (HloOp τ sig (Elt F))).Forall fun op => op.bufs ⊆ tcRefs τ sig := by
  unfold opsGraph1c; exact ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsGraph1c_fresh : (opsGraph1c : List (HloOp τ sig (Elt F))).Forall fun op => op.fresh = ∅ := by
  unfold opsGraph1c; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsGraph1c_writes : (opsGraph1c : List (HloOp τ sig (Elt F))).Forall fun op => op.writes ⊆ (opsGraph1c_W.map (Proc.devRef (τ := τ) .tc)).toFinset := by
  unfold opsGraph1c; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 10 operations of graph layer 1: transform, gather, scale, scatter-add, bias (part a), in order. -/
def opsConv1a : List (HloOp τ sig (Elt F)) :=
  [ binary main_v9 main_arg10 main_v40 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_c_8 (constantI S_ 32 0#32),
    unary main_c_8 main_v41 (broadcastInDim S850000 ![] bcast_S_S850000 : (⟨S_, .i32⟩ : BufTy).Contents (Elt F) → (⟨S850000, .i32⟩ : BufTy).Contents (Elt F)),
    binary main_v15 main_v41 main_v42 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v43 (broadcastInDim S850000 ![] bcast_S_S850000 : (⟨S_, .i32⟩ : BufTy).Contents (Elt F) → (⟨S850000, .i32⟩ : BufTy).Contents (Elt F)),
    binary main_v15 main_v43 main_v44 (addi : (⟨S850000, .i32⟩ : BufTy).Contents (Elt F) → (⟨S850000, .i32⟩ : BufTy).Contents (Elt F) → (⟨S850000, .i32⟩ : BufTy).Contents (Elt F)),
    ternary main_v42 main_v44 main_v15 main_v45 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v45 main_v46 (broadcastInDim S850000x1 ![0] bcast_S850000_S850000x1_0 : (⟨S850000, .i32⟩ : BufTy).Contents (Elt F) → (⟨S850000x1, .i32⟩ : BufTy).Contents (Elt F)),
    binary main_v40 main_v46 main_v47 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)) ]
/-- The references those operations write. -/
abbrev opsConv1a_W : List (Ref sig .tc) := [main_v40, main_c_8, main_v41, main_v42, main_c_9, main_v43, main_v44, main_v45, main_v46, main_v47]
theorem opsConv1a_sub : (opsConv1a : List (HloOp τ sig (Elt F))).Forall fun op => op.bufs ⊆ tcRefs τ sig := by
  unfold opsConv1a; exact ⟨binary_bufs_sub .., nullary_bufs_sub .., unary_bufs_sub .., binary_bufs_sub .., nullary_bufs_sub .., unary_bufs_sub .., binary_bufs_sub .., ternary_bufs_sub .., unary_bufs_sub .., binary_bufs_sub ..⟩
theorem opsConv1a_fresh : (opsConv1a : List (HloOp τ sig (Elt F))).Forall fun op => op.fresh = ∅ := by
  unfold opsConv1a; exact ⟨rfl, rfl, rfl, rfl, rfl, rfl, rfl, rfl, rfl, rfl⟩
theorem opsConv1a_writes : (opsConv1a : List (HloOp τ sig (Elt F))).Forall fun op => op.writes ⊆ (opsConv1a_W.map (Proc.devRef (τ := τ) .tc)).toFinset := by
  unfold opsConv1a; simp only [List.Forall]; exact ⟨by writes_case, by writes_case, by writes_case, by writes_case, by writes_case, by writes_case, by writes_case, by writes_case, by writes_case, by writes_case⟩

/-- 10 operations of graph layer 1: transform, gather, scale, scatter-add, bias (part b), in order. -/
def opsConv1b : List (HloOp τ sig (Elt F)) :=
  [ unary main_v39 main_v48 (broadcastInDim S850000x1 ![0] bcast_S850000_S850000x1_0 : (⟨S850000, .f32⟩ : BufTy).Contents (Elt F) → (⟨S850000x1, .f32⟩ : BufTy).Contents (Elt F)),
    unary main_v48 main_v49 (broadcastInDim S850000x256 ![0, 1] bcast_S850000x1_S850000x256_0_1 : (⟨S850000x1, .f32⟩ : BufTy).Contents (Elt F) → (⟨S850000x256, .f32⟩ : BufTy).Contents (Elt F)),
    binary main_v47 main_v49 main_v50 (mulf : (⟨S850000x256, .f32⟩ : BufTy).Contents (Elt F) → (⟨S850000x256, .f32⟩ : BufTy).Contents (Elt F) → (⟨S850000x256, .f32⟩ : BufTy).Contents (Elt F)),
    nullary main_cst_10 (constant S_ .f32 0x00000000#32),
    unary main_cst_10 main_v51 (broadcastInDim S50000x256 ![] bcast_S_S50000x256 : (⟨S_, .f32⟩ : BufTy).Contents (Elt F) → (⟨S50000x256, .f32⟩ : BufTy).Contents (Elt F)),
    unary main_v16 main_v52 (broadcastInDim S850000x1 ![0] bcast_S850000_S850000x1_0 : (⟨S850000, .i32⟩ : BufTy).Contents (Elt F) → (⟨S850000x1, .i32⟩ : BufTy).Contents (Elt F)),
    ternary main_v51 main_v52 main_v50 main_v53 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg11 main_v54 (broadcastInDim S1x256 ![1] bcast_S256_S1x256_1 : (⟨S256, .f32⟩ : BufTy).Contents (Elt F) → (⟨S1x256, .f32⟩ : BufTy).Contents (Elt F)),
    unary main_v54 main_v55 (broadcastInDim S50000x256 ![0, 1] bcast_S1x256_S50000x256_0_1 : (⟨S1x256, .f32⟩ : BufTy).Contents (Elt F) → (⟨S50000x256, .f32⟩ : BufTy).Contents (Elt F)),
    binary main_v53 main_v55 main_v56 (addf : (⟨S50000x256, .f32⟩ : BufTy).Contents (Elt F) → (⟨S50000x256, .f32⟩ : BufTy).Contents (Elt F) → (⟨S50000x256, .f32⟩ : BufTy).Contents (Elt F)) ]
/-- The references those operations write. -/
abbrev opsConv1b_W : List (Ref sig .tc) := [main_v48, main_v49, main_v50, main_cst_10, main_v51, main_v52, main_v53, main_v54, main_v55, main_v56]
theorem opsConv1b_sub : (opsConv1b : List (HloOp τ sig (Elt F))).Forall fun op => op.bufs ⊆ tcRefs τ sig := by
  unfold opsConv1b; exact ⟨unary_bufs_sub .., unary_bufs_sub .., binary_bufs_sub .., nullary_bufs_sub .., unary_bufs_sub .., unary_bufs_sub .., ternary_bufs_sub .., unary_bufs_sub .., unary_bufs_sub .., binary_bufs_sub ..⟩
theorem opsConv1b_fresh : (opsConv1b : List (HloOp τ sig (Elt F))).Forall fun op => op.fresh = ∅ := by
  unfold opsConv1b; exact ⟨rfl, rfl, rfl, rfl, rfl, rfl, rfl, rfl, rfl, rfl⟩
theorem opsConv1b_writes : (opsConv1b : List (HloOp τ sig (Elt F))).Forall fun op => op.writes ⊆ (opsConv1b_W.map (Proc.devRef (τ := τ) .tc)).toFinset := by
  unfold opsConv1b; simp only [List.Forall]; exact ⟨by writes_case, by writes_case, by writes_case, by writes_case, by writes_case, by writes_case, by writes_case, by writes_case, by writes_case, by writes_case⟩

/-- 8 operations of the rectifier after graph layer 1, in order. -/
def opsAct1 : List (HloOp τ sig (Elt F)) :=
  [ nullary main_cst_11 (constant S_ .f32 0x3C23D70A#32),
    TRef.nullary main_call3.cst (constant S_ .f32 0x00000000#32),
    TRef.unary main_call3.cst main_call3.v0 (broadcastInDim S50000x256 ![] bcast_S_S50000x256),
    TRef.binary (.of main_v56) main_call3.v0 main_call3.v1 (cmpf .oge),
    TRef.unary (.of main_cst_11) main_call3.v2 id,
    TRef.unary main_call3.v2 main_call3.v3 (broadcastInDim S50000x256 ![] bcast_S_S50000x256),
    TRef.binary main_call3.v3 (.of main_v56) main_call3.v4 mulf,
    TRef.ternary main_call3.v1 (.of main_v56) main_call3.v4 main_call3.call0.v0 select ]
/-- The references those operations write. -/
abbrev opsAct1_W : List (Ref sig .tc) := [main_cst_11, main_call3.cst.ref, main_call3.v0.ref, main_call3.v1.ref, main_call3.v2.ref, main_call3.v3.ref, main_call3.v4.ref, main_call3.call0.v0.ref]
theorem opsAct1_sub : (opsAct1 : List (HloOp τ sig (Elt F))).Forall fun op => op.bufs ⊆ tcRefs τ sig := by
  unfold opsAct1; exact ⟨nullary_bufs_sub .., nullary_bufs_sub .., unary_bufs_sub .., binary_bufs_sub .., unary_bufs_sub .., unary_bufs_sub .., binary_bufs_sub .., ternary_bufs_sub ..⟩
theorem opsAct1_fresh : (opsAct1 : List (HloOp τ sig (Elt F))).Forall fun op => op.fresh = ∅ := by
  unfold opsAct1; exact ⟨rfl, rfl, rfl, rfl, rfl, rfl, rfl, rfl⟩
theorem opsAct1_writes : (opsAct1 : List (HloOp τ sig (Elt F))).Forall fun op => op.writes ⊆ (opsAct1_W.map (Proc.devRef (τ := τ) .tc)).toFinset := by
  unfold opsAct1; simp only [List.Forall]; exact ⟨by writes_case, by writes_case, by writes_case, by writes_case, by writes_case, by writes_case, by writes_case, by writes_case⟩

/-- 41 operations of the recurrent cell of width 256, in order. -/
def opsCell1 : List (HloOp τ sig (Elt F)) :=
  [ binary main_v57 main_arg14 main_v58 ((fun l r => Host.dotGeneral dot_S50000x256_S256x768_S50000x768_1_0_0_1_n_n none l r) : (⟨S50000x256, .f32⟩ : BufTy).Contents (Elt F) → (⟨S256x768, .f32⟩ : BufTy).Contents (Elt F) → (⟨S50000x768, .f32⟩ : BufTy).Contents (Elt F)),
    unary main_arg16 main_v59 (broadcastInDim S1x768 ![1] bcast_S768_S1x768_1 : (⟨S768, .f32⟩ : BufTy).Contents (Elt F) → (⟨S1x768, .f32⟩ : BufTy).Contents (Elt F)),
    unary main_v59 main_v60 (broadcastInDim S50000x768 ![0, 1] bcast_S1x768_S50000x768_0_1 : (⟨S1x768, .f32⟩ : BufTy).Contents (Elt F) → (⟨S50000x768, .f32⟩ : BufTy).Contents (Elt F)),
    binary main_v58 main_v60 main_v61 (addf : (⟨S50000x768, .f32⟩ : BufTy).Contents (Elt F) → (⟨S50000x768, .f32⟩ : BufTy).Contents (Elt F) → (⟨S50000x768, .f32⟩ : BufTy).Contents (Elt F)),
    binary main_arg4 main_arg15 main_v62 ((fun l r => Host.dotGeneral dot_S50000x256_S256x768_S50000x768_1_0_0_1_n_n none l r) : (⟨S50000x256, .f32⟩ : BufTy).Contents (Elt F) → (⟨S256x768, .f32⟩ : BufTy).Contents (Elt F) → (⟨S50000x768, .f32⟩ : BufTy).Contents (Elt F)),
    unary main_arg17 main_v63 (broadcastInDim S1x768 ![1] bcast_S768_S1x768_1 : (⟨S768, .f32⟩ : BufTy).Contents (Elt F) → (⟨S1x768, .f32⟩ : BufTy).Contents (Elt F)),
    unary main_v63 main_v64 (broadcastInDim S50000x768 ![0, 1] bcast_S1x768_S50000x768_0_1 : (⟨S1x768, .f32⟩ : BufTy).Contents (Elt F) → (⟨S50000x768, .f32⟩ : BufTy).Contents (Elt F)),
    binary main_v62 main_v64 main_v65 (addf : (⟨S50000x768, .f32⟩ : BufTy).Contents (Elt F) → (⟨S50000x768, .f32⟩ : BufTy).Contents (Elt F) → (⟨S50000x768, .f32⟩ : BufTy).Contents (Elt F)),
    unary main_v61 main_v66 ((extractStridedSlice S50000x256 ![0, 0] · slices_S50000x768_S50000x256_0_0) : (⟨S50000x768, .f32⟩ : BufTy).Contents (Elt F) → (⟨S50000x256, .f32⟩ : BufTy).Contents (Elt F)),
    unary main_v61 main_v67 ((extractStridedSlice S50000x256 ![0, 256] · slices_S50000x768_S50000x256_0_256) : (⟨S50000x768, .f32⟩ : BufTy).Contents (Elt F) → (⟨S50000x256, .f32⟩ : BufTy).Contents (Elt F)),
    unary main_v61 main_v68 ((extractStridedSlice S50000x256 ![0, 512] · slices_S50000x768_S50000x256_0_512) : (⟨S50000x768, .f32⟩ : BufTy).Contents (Elt F) → (⟨S50000x256, .f32⟩ : BufTy).Contents (Elt F)),
    unary main_v65 main_v69 ((extractStridedSlice S50000x256 ![0, 0] · slices_S50000x768_S50000x256_0_0) : (⟨S50000x768, .f32⟩ : BufTy).Contents (Elt F) → (⟨S50000x256, .f32⟩ : BufTy).Contents (Elt F)),
    unary main_v65 main_v70 ((extractStridedSlice S50000x256 ![0, 256] · slices_S50000x768_S50000x256_0_256) : (⟨S50000x768, .f32⟩ : BufTy).Contents (Elt F) → (⟨S50000x256, .f32⟩ : BufTy).Contents (Elt F)),
    unary main_v65 main_v71 ((extractStridedSlice S50000x256 ![0, 512] · slices_S50000x768_S50000x256_0_512) : (⟨S50000x768, .f32⟩ : BufTy).Contents (Elt F) → (⟨S50000x256, .f32⟩ : BufTy).Contents (Elt F)),
    binary main_v66 main_v69 main_v72 (addf : (⟨S50000x256, .f32⟩ : BufTy).Contents (Elt F) → (⟨S50000x256, .f32⟩ : BufTy).Contents (Elt F) → (⟨S50000x256, .f32⟩ : BufTy).Contents (Elt F)),
    unary main_v72 main_v73 (Host.negf : (⟨S50000x256, .f32⟩ : BufTy).Contents (Elt F) → (⟨S50000x256, .f32⟩ : BufTy).Contents (Elt F)),
    unary main_v73 main_v74 (Host.exp : (⟨S50000x256, .f32⟩ : BufTy).Contents (Elt F) → (⟨S50000x256, .f32⟩ : BufTy).Contents (Elt F)),
    nullary main_cst_12 (constant S_ .f32 0x3F800000#32),
    unary main_cst_12 main_v75 (broadcastInDim S50000x256 ![] bcast_S_S50000x256 : (⟨S_, .f32⟩ : BufTy).Contents (Elt F) → (⟨S50000x256, .f32⟩ : BufTy).Contents (Elt F)),
    binary main_v75 main_v74 main_v76 (addf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3F800000#32),
    unary main_cst_13 main_v77 (broadcastInDim S50000x256 ![] bcast_S_S50000x256 : (⟨S_, .f32⟩ : BufTy).Contents (Elt F) → (⟨S50000x256, .f32⟩ : BufTy).Contents (Elt F)),
    binary main_v77 main_v76 main_v78 (Host.divf : (⟨S50000x256, .f32⟩ : BufTy).Contents (Elt F) → (⟨S50000x256, .f32⟩ : BufTy).Contents (Elt F) → (⟨S50000x256, .f32⟩ : BufTy).Contents (Elt F)),
    binary main_v67 main_v70 main_v79 (addf : (⟨S50000x256, .f32⟩ : BufTy).Contents (Elt F) → (⟨S50000x256, .f32⟩ : BufTy).Contents (Elt F) → (⟨S50000x256, .f32⟩ : BufTy).Contents (Elt F)),
    unary main_v79 main_v80 (Host.negf : (⟨S50000x256, .f32⟩ : BufTy).Contents (Elt F) → (⟨S50000x256, .f32⟩ : BufTy).Contents (Elt F)),
    unary main_v80 main_v81 (Host.exp : (⟨S50000x256, .f32⟩ : BufTy).Contents (Elt F) → (⟨S50000x256, .f32⟩ : BufTy).Contents (Elt F)),
    nullary main_cst_14 (constant S_ .f32 0x3F800000#32),
    unary main_cst_14 main_v82 (broadcastInDim S50000x256 ![] bcast_S_S50000x256 : (⟨S_, .f32⟩ : BufTy).Contents (Elt F) → (⟨S50000x256, .f32⟩ : BufTy).Contents (Elt F)),
    binary main_v82 main_v81 main_v83 (addf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x3F800000#32),
    unary main_cst_15 main_v84 (broadcastInDim S50000x256 ![] bcast_S_S50000x256 : (⟨S_, .f32⟩ : BufTy).Contents (Elt F) → (⟨S50000x256, .f32⟩ : BufTy).Contents (Elt F)),
    binary main_v84 main_v83 main_v85 (Host.divf : (⟨S50000x256, .f32⟩ : BufTy).Contents (Elt F) → (⟨S50000x256, .f32⟩ : BufTy).Contents (Elt F) → (⟨S50000x256, .f32⟩ : BufTy).Contents (Elt F)),
    binary main_v78 main_v71 main_v86 (mulf : (⟨S50000x256, .f32⟩ : BufTy).Contents (Elt F) → (⟨S50000x256, .f32⟩ : BufTy).Contents (Elt F) → (⟨S50000x256, .f32⟩ : BufTy).Contents (Elt F)),
    binary main_v68 main_v86 main_v87 (addf : (⟨S50000x256, .f32⟩ : BufTy).Contents (Elt F) → (⟨S50000x256, .f32⟩ : BufTy).Contents (Elt F) → (⟨S50000x256, .f32⟩ : BufTy).Contents (Elt F)),
    unary main_v87 main_v88 (Host.tanh : (⟨S50000x256, .f32⟩ : BufTy).Contents (Elt F) → (⟨S50000x256, .f32⟩ : BufTy).Contents (Elt F)),
    nullary main_cst_16 (constant S_ .f32 0x3F800000#32),
    unary main_cst_16 main_v89 (broadcastInDim S50000x256 ![] bcast_S_S50000x256 : (⟨S_, .f32⟩ : BufTy).Contents (Elt F) → (⟨S50000x256, .f32⟩ : BufTy).Contents (Elt F)),
    binary main_v89 main_v85 main_v90 (subf : (⟨S50000x256, .f32⟩ : BufTy).Contents (Elt F) → (⟨S50000x256, .f32⟩ : BufTy).Contents (Elt F) → (⟨S50000x256, .f32⟩ : BufTy).Contents (Elt F)),
    binary main_v90 main_v88 main_v91 (mulf : (⟨S50000x256, .f32⟩ : BufTy).Contents (Elt F) → (⟨S50000x256, .f32⟩ : BufTy).Contents (Elt F) → (⟨S50000x256, .f32⟩ : BufTy).Contents (Elt F)),
    binary main_v85 main_arg4 main_v92 (mulf : (⟨S50000x256, .f32⟩ : BufTy).Contents (Elt F) → (⟨S50000x256, .f32⟩ : BufTy).Contents (Elt F) → (⟨S50000x256, .f32⟩ : BufTy).Contents (Elt F)),
    binary main_v91 main_v92 main_v93 (addf : (⟨S50000x256, .f32⟩ : BufTy).Contents (Elt F) → (⟨S50000x256, .f32⟩ : BufTy).Contents (Elt F) → (⟨S50000x256, .f32⟩ : BufTy).Contents (Elt F)) ]
/-- The references those operations write. -/
abbrev opsCell1_W : List (Ref sig .tc) := [main_v58, main_v59, main_v60, main_v61, main_v62, main_v63, main_v64, main_v65, main_v66, main_v67, main_v68, main_v69, main_v70, main_v71, main_v72, main_v73, main_v74, main_cst_12, main_v75, main_v76, main_cst_13, main_v77, main_v78, main_v79, main_v80, main_v81, main_cst_14, main_v82, main_v83, main_cst_15, main_v84, main_v85, main_v86, main_v87, main_v88, main_cst_16, main_v89, main_v90, main_v91, main_v92, main_v93]
theorem opsCell1_sub : (opsCell1 : List (HloOp τ sig (Elt F))).Forall fun op => op.bufs ⊆ tcRefs τ sig := by
  unfold opsCell1; exact ⟨binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsCell1_fresh : (opsCell1 : List (HloOp τ sig (Elt F))).Forall fun op => op.fresh = ∅ := by
  unfold opsCell1; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsCell1_writes : (opsCell1 : List (HloOp τ sig (Elt F))).Forall fun op => op.writes ⊆ (opsCell1_W.map (Proc.devRef (τ := τ) .tc)).toFinset := by
  unfold opsCell1; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 5 operations of the graph's sources, targets and edge coefficients (second time) (part a), in order. -/
def opsGraph2a : List (HloOp τ sig (Elt F)) :=
  [ unary main_arg1 main_v94 ((extractStridedSlice S1x800000 ![0, 0] · slices_S2x800000_S1x800000_0_0) : (⟨S2x800000, .i32⟩ : BufTy).Contents (Elt F) → (⟨S1x800000, .i32⟩ : BufTy).Contents (Elt F)),
    reshape main_v94 main_v95 rfl shapeCasts_S1x800000_S800000,
    unary main_arg1 main_v96 ((extractStridedSlice S1x800000 ![1, 0] · slices_S2x800000_S1x800000_1_0) : (⟨S2x800000, .i32⟩ : BufTy).Contents (Elt F) → (⟨S1x800000, .i32⟩ : BufTy).Contents (Elt F)),
    reshape main_v96 main_v97 rfl shapeCasts_S1x800000_S800000,
    nullary main_v98 (iotaInDim S50000 32 0) ]
/-- The references those operations write. -/
abbrev opsGraph2a_W : List (Ref sig .tc) := [main_v94, main_v95, main_v96, main_v97, main_v98]
theorem opsGraph2a_sub : (opsGraph2a : List (HloOp τ sig (Elt F))).Forall fun op => op.bufs ⊆ tcRefs τ sig := by
  unfold opsGraph2a; exact ⟨unary_bufs_sub .., reshape_bufs_sub .., unary_bufs_sub .., reshape_bufs_sub .., nullary_bufs_sub ..⟩
theorem opsGraph2a_fresh : (opsGraph2a : List (HloOp τ sig (Elt F))).Forall fun op => op.fresh = ∅ := by
  unfold opsGraph2a; exact ⟨rfl, rfl, rfl, rfl, rfl⟩
theorem opsGraph2a_writes : (opsGraph2a : List (HloOp τ sig (Elt F))).Forall fun op => op.writes ⊆ (opsGraph2a_W.map (Proc.devRef (τ := τ) .tc)).toFinset := by
  unfold opsGraph2a; simp only [List.Forall]; exact ⟨by writes_case, by writes_case, by writes_case, by writes_case, by writes_case⟩

/-- 1 operations of the graph's sources, targets and edge coefficients (second time) (part b), in order. -/
def opsGraph2b : List (HloOp τ sig (Elt F)) :=
  [ binary main_v95 main_v98 main_v99 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The references those operations write. -/
abbrev opsGraph2b_W : List (Ref sig .tc) := [main_v99]
theorem opsGraph2b_sub : (opsGraph2b : List (HloOp τ sig (Elt F))).Forall fun op => op.bufs ⊆ tcRefs τ sig := by
  unfold opsGraph2b; exact binary_bufs_sub ..
theorem opsGraph2b_fresh : (opsGraph2b : List (HloOp τ sig (Elt F))).Forall fun op => op.fresh = ∅ := by
  unfold opsGraph2b; exact rfl
theorem opsGraph2b_writes : (opsGraph2b : List (HloOp τ sig (Elt F))).Forall fun op => op.writes ⊆ (opsGraph2b_W.map (Proc.devRef (τ := τ) .tc)).toFinset := by
  unfold opsGraph2b; simp only [List.Forall]; exact by writes_case

/-- 1 operations of the graph's sources, targets and edge coefficients (second time) (part c), in order. -/
def opsGraph2c : List (HloOp τ sig (Elt F)) :=
  [ binary main_v97 main_v98 main_v100 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The references those operations write. -/
abbrev opsGraph2c_W : List (Ref sig .tc) := [main_v100]
theorem opsGraph2c_sub : (opsGraph2c : List (HloOp τ sig (Elt F))).Forall fun op => op.bufs ⊆ tcRefs τ sig := by
  unfold opsGraph2c; exact binary_bufs_sub ..
theorem opsGraph2c_fresh : (opsGraph2c : List (HloOp τ sig (Elt F))).Forall fun op => op.fresh = ∅ := by
  unfold opsGraph2c; exact rfl
theorem opsGraph2c_writes : (opsGraph2c : List (HloOp τ sig (Elt F))).Forall fun op => op.writes ⊆ (opsGraph2c_W.map (Proc.devRef (τ := τ) .tc)).toFinset := by
  unfold opsGraph2c; simp only [List.Forall]; exact by writes_case

/-- 33 operations of the graph's sources, targets and edge coefficients (second time) (part d), in order. -/
def opsGraph2d : List (HloOp τ sig (Elt F)) :=
  [ nullary main_cst_17 (constant S_ .f32 0x3F800000#32),
    unary main_cst_17 main_v101 (broadcastInDim S850000 ![] bcast_S_S850000 : (⟨S_, .f32⟩ : BufTy).Contents (Elt F) → (⟨S850000, .f32⟩ : BufTy).Contents (Elt F)),
    nullary main_cst_18 (constant S_ .f32 0x00000000#32),
    unary main_cst_18 main_v102 (broadcastInDim S50000 ![] bcast_S_S50000 : (⟨S_, .f32⟩ : BufTy).Contents (Elt F) → (⟨S50000, .f32⟩ : BufTy).Contents (Elt F)),
    unary main_v100 main_v103 (broadcastInDim S850000x1 ![0] bcast_S850000_S850000x1_0 : (⟨S850000, .i32⟩ : BufTy).Contents (Elt F) → (⟨S850000x1, .i32⟩ : BufTy).Contents (Elt F)),
    ternary main_v102 main_v103 main_v101 main_v104 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_19 (constant S_ .f32 0x00000000#32),
    unary main_cst_19 main_v105 (broadcastInDim S50000 ![] bcast_S_S50000 : (⟨S_, .f32⟩ : BufTy).Contents (Elt F) → (⟨S50000, .f32⟩ : BufTy).Contents (Elt F)),
    binary main_v104 main_v105 main_v106 (cmpf .ogt : (⟨S50000, .f32⟩ : BufTy).Contents (Elt F) → (⟨S50000, .f32⟩ : BufTy).Contents (Elt F) → (⟨S50000, .i1⟩ : BufTy).Contents (Elt F)),
    unary main_v104 main_v107 (Host.rsqrt : (⟨S50000, .f32⟩ : BufTy).Contents (Elt F) → (⟨S50000, .f32⟩ : BufTy).Contents (Elt F)),
    nullary main_cst_20 (constant S_ .f32 0x00000000#32),
    TRef.unary (.of main_cst_20) main_call4.v0 id,
    TRef.unary main_call4.v0 main_call4.v1 (broadcastInDim S50000 ![] bcast_S_S50000),
    TRef.ternary (.of main_v106) (.of main_v107) main_call4.v1 main_call4.v2 select,
    nullary main_c_21 (constantI S_ 32 0#32),
    unary main_c_21 main_v109 (broadcastInDim S850000 ![] bcast_S_S850000 : (⟨S_, .i32⟩ : BufTy).Contents (Elt F) → (⟨S850000, .i32⟩ : BufTy).Contents (Elt F)),
    binary main_v99 main_v109 main_v110 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v111 (broadcastInDim S850000 ![] bcast_S_S850000 : (⟨S_, .i32⟩ : BufTy).Contents (Elt F) → (⟨S850000, .i32⟩ : BufTy).Contents (Elt F)),
    binary main_v99 main_v111 main_v112 (addi : (⟨S850000, .i32⟩ : BufTy).Contents (Elt F) → (⟨S850000, .i32⟩ : BufTy).Contents (Elt F) → (⟨S850000, .i32⟩ : BufTy).Contents (Elt F)),
    ternary main_v110 main_v112 main_v99 main_v113 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v113 main_v114 (broadcastInDim S850000x1 ![0] bcast_S850000_S850000x1_0 : (⟨S850000, .i32⟩ : BufTy).Contents (Elt F) → (⟨S850000x1, .i32⟩ : BufTy).Contents (Elt F)),
    binary main_v108 main_v114 main_v115 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_23 (constantI S_ 32 0#32),
    unary main_c_23 main_v116 (broadcastInDim S850000 ![] bcast_S_S850000 : (⟨S_, .i32⟩ : BufTy).Contents (Elt F) → (⟨S850000, .i32⟩ : BufTy).Contents (Elt F)),
    binary main_v100 main_v116 main_v117 (cmpi .slt : (⟨S850000, .i32⟩ : BufTy).Contents (Elt F) → (⟨S850000, .i32⟩ : BufTy).Contents (Elt F) → (⟨S850000, .i1⟩ : BufTy).Contents (Elt F)),
    nullary main_c_24 (constantI S_ 32 50000#32),
    unary main_c_24 main_v118 (broadcastInDim S850000 ![] bcast_S_S850000 : (⟨S_, .i32⟩ : BufTy).Contents (Elt F) → (⟨S850000, .i32⟩ : BufTy).Contents (Elt F)),
    binary main_v100 main_v118 main_v119 (addi : (⟨S850000, .i32⟩ : BufTy).Contents (Elt F) → (⟨S850000, .i32⟩ : BufTy).Contents (Elt F) → (⟨S850000, .i32⟩ : BufTy).Contents (Elt F)),
    ternary main_v117 main_v119 main_v100 main_v120 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v120 main_v121 (broadcastInDim S850000x1 ![0] bcast_S850000_S850000x1_0 : (⟨S850000, .i32⟩ : BufTy).Contents (Elt F) → (⟨S850000x1, .i32⟩ : BufTy).Contents (Elt F)),
    binary main_v108 main_v121 main_v122 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v115 main_v122 main_v123 (mulf : (⟨S850000, .f32⟩ : BufTy).Contents (Elt F) → (⟨S850000, .f32⟩ : BufTy).Contents (Elt F) → (⟨S850000, .f32⟩ : BufTy).Contents (Elt F)) ]
/-- The references those operations write. -/
abbrev opsGraph2d_W : List (Ref sig .tc) := [main_cst_17, main_v101, main_cst_18, main_v102, main_v103, main_v104, main_cst_19, main_v105, main_v106, main_v107, main_cst_20, main_call4.v0.ref, main_call4.v1.ref, main_call4.v2.ref, main_c_21, main_v109, main_v110, main_c_22, main_v111, main_v112, main_v113, main_v114, main_v115, main_c_23, main_v116, main_v117, main_c_24, main_v118, main_v119, main_v120, main_v121, main_v122, main_v123]
theorem opsGraph2d_sub : (opsGraph2d : List (HloOp τ sig (Elt F))).Forall fun op => op.bufs ⊆ tcRefs τ sig := by
  unfold opsGraph2d; exact ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsGraph2d_fresh : (opsGraph2d : List (HloOp τ sig (Elt F))).Forall fun op => op.fresh = ∅ := by
  unfold opsGraph2d; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsGraph2d_writes : (opsGraph2d : List (HloOp τ sig (Elt F))).Forall fun op => op.writes ⊆ (opsGraph2d_W.map (Proc.devRef (τ := τ) .tc)).toFinset := by
  unfold opsGraph2d; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 20 operations of graph layer 2: transform, gather, scale, scatter-add, bias, in order. -/
def opsConv2 : List (HloOp τ sig (Elt F)) :=
  [ binary main_v93 main_arg12 main_v124 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_25 (constantI S_ 32 0#32),
    unary main_c_25 main_v125 (broadcastInDim S850000 ![] bcast_S_S850000 : (⟨S_, .i32⟩ : BufTy).Contents (Elt F) → (⟨S850000, .i32⟩ : BufTy).Contents (Elt F)),
    binary main_v99 main_v125 main_v126 (cmpi .slt : (⟨S850000, .i32⟩ : BufTy).Contents (Elt F) → (⟨S850000, .i32⟩ : BufTy).Contents (Elt F) → (⟨S850000, .i1⟩ : BufTy).Contents (Elt F)),
    nullary main_c_26 (constantI S_ 32 50000#32),
    unary main_c_26 main_v127 (broadcastInDim S850000 ![] bcast_S_S850000 : (⟨S_, .i32⟩ : BufTy).Contents (Elt F) → (⟨S850000, .i32⟩ : BufTy).Contents (Elt F)),
    binary main_v99 main_v127 main_v128 (addi : (⟨S850000, .i32⟩ : BufTy).Contents (Elt F) → (⟨S850000, .i32⟩ : BufTy).Contents (Elt F) → (⟨S850000, .i32⟩ : BufTy).Contents (Elt F)),
    ternary main_v126 main_v128 main_v99 main_v129 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v129 main_v130 (broadcastInDim S850000x1 ![0] bcast_S850000_S850000x1_0 : (⟨S850000, .i32⟩ : BufTy).Contents (Elt F) → (⟨S850000x1, .i32⟩ : BufTy).Contents (Elt F)),
    binary main_v124 main_v130 main_v131 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v123 main_v132 (broadcastInDim S850000x1 ![0] bcast_S850000_S850000x1_0 : (⟨S850000, .f32⟩ : BufTy).Contents (Elt F) → (⟨S850000x1, .f32⟩ : BufTy).Contents (Elt F)),
    unary main_v132 main_v133 (broadcastInDim S850000x128 ![0, 1] bcast_S850000x1_S850000x128_0_1 : (⟨S850000x1, .f32⟩ : BufTy).Contents (Elt F) → (⟨S850000x128, .f32⟩ : BufTy).Contents (Elt F)),
    binary main_v131 main_v133 main_v134 (mulf : (⟨S850000x128, .f32⟩ : BufTy).Contents (Elt F) → (⟨S850000x128, .f32⟩ : BufTy).Contents (Elt F) → (⟨S850000x128, .f32⟩ : BufTy).Contents (Elt F)),
    nullary main_cst_27 (constant S_ .f32 0x00000000#32),
    unary main_cst_27 main_v135 (broadcastInDim S50000x128 ![] bcast_S_S50000x128 : (⟨S_, .f32⟩ : BufTy).Contents (Elt F) → (⟨S50000x128, .f32⟩ : BufTy).Contents (Elt F)),
    unary main_v100 main_v136 (broadcastInDim S850000x1 ![0] bcast_S850000_S850000x1_0 : (⟨S850000, .i32⟩ : BufTy).Contents (Elt F) → (⟨S850000x1, .i32⟩ : BufTy).Contents (Elt F)),
    ternary main_v135 main_v136 main_v134 main_v137 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg13 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v137 main_v139 main_v140 (addf : (⟨S50000x128, .f32⟩ : BufTy).Contents (Elt F) → (⟨S50000x128, .f32⟩ : BufTy).Contents (Elt F) → (⟨S50000x128, .f32⟩ : BufTy).Contents (Elt F)) ]
/-- The references those operations write. -/
abbrev opsConv2_W : List (Ref sig .tc) := [main_v124, main_c_25, main_v125, main_v126, main_c_26, main_v127, main_v128, main_v129, main_v130, main_v131, main_v132, main_v133, main_v134, main_cst_27, main_v135, main_v136, main_v137, main_v138, main_v139, main_v140]
theorem opsConv2_sub : (opsConv2 : List (HloOp τ sig (Elt F))).Forall fun op => op.bufs ⊆ tcRefs τ sig := by
  unfold opsConv2; exact ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsConv2_fresh : (opsConv2 : List (HloOp τ sig (Elt F))).Forall fun op => op.fresh = ∅ := by
  unfold opsConv2; exact ⟨rfl, rfl, rfl, rfl, rfl, rfl, rfl, rfl, rfl, rfl, rfl, rfl, rfl, rfl, rfl, rfl, rfl, rfl, rfl, rfl⟩
theorem opsConv2_writes : (opsConv2 : List (HloOp τ sig (Elt F))).Forall fun op => op.writes ⊆ (opsConv2_W.map (Proc.devRef (τ := τ) .tc)).toFinset := by
  unfold opsConv2; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 8 operations of the rectifier after graph layer 2, in order. -/
def opsAct2 : List (HloOp τ sig (Elt F)) :=
  [ nullary main_cst_28 (constant S_ .f32 0x3C23D70A#32),
    TRef.nullary main_call5.cst (constant S_ .f32 0x00000000#32),
    TRef.unary main_call5.cst main_call5.v0 (broadcastInDim S50000x128 ![] bcast_S_S50000x128),
    TRef.binary (.of main_v140) main_call5.v0 main_call5.v1 (cmpf .oge),
    TRef.unary (.of main_cst_28) main_call5.v2 id,
    TRef.unary main_call5.v2 main_call5.v3 (broadcastInDim S50000x128 ![] bcast_S_S50000x128),
    TRef.binary main_call5.v3 (.of main_v140) main_call5.v4 mulf,
    TRef.ternary main_call5.v1 (.of main_v140) main_call5.v4 main_call5.call0.v0 select ]
/-- The references those operations write. -/
abbrev opsAct2_W : List (Ref sig .tc) := [main_cst_28, main_call5.cst.ref, main_call5.v0.ref, main_call5.v1.ref, main_call5.v2.ref, main_call5.v3.ref, main_call5.v4.ref, main_call5.call0.v0.ref]
theorem opsAct2_sub : (opsAct2 : List (HloOp τ sig (Elt F))).Forall fun op => op.bufs ⊆ tcRefs τ sig := by
  unfold opsAct2; exact ⟨nullary_bufs_sub .., nullary_bufs_sub .., unary_bufs_sub .., binary_bufs_sub .., unary_bufs_sub .., unary_bufs_sub .., binary_bufs_sub .., ternary_bufs_sub ..⟩
theorem opsAct2_fresh : (opsAct2 : List (HloOp τ sig (Elt F))).Forall fun op => op.fresh = ∅ := by
  unfold opsAct2; exact ⟨rfl, rfl, rfl, rfl, rfl, rfl, rfl, rfl⟩
theorem opsAct2_writes : (opsAct2 : List (HloOp τ sig (Elt F))).Forall fun op => op.writes ⊆ (opsAct2_W.map (Proc.devRef (τ := τ) .tc)).toFinset := by
  unfold opsAct2; simp only [List.Forall]; exact ⟨by writes_case, by writes_case, by writes_case, by writes_case, by writes_case, by writes_case, by writes_case, by writes_case⟩

/-- 7 operations of the recurrent cell of width 128 (part a), in order. -/
def opsCell2a : List (HloOp τ sig (Elt F)) :=
  [ binary main_v141 main_arg18 main_v142 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg20 main_v143 (broadcastInDim S1x384 ![1] bcast_S384_S1x384_1 : (⟨S384, .f32⟩ : BufTy).Contents (Elt F) → (⟨S1x384, .f32⟩ : BufTy).Contents (Elt F)),
    unary main_v143 main_v144 (broadcastInDim S50000x384 ![0, 1] bcast_S1x384_S50000x384_0_1 : (⟨S1x384, .f32⟩ : BufTy).Contents (Elt F) → (⟨S50000x384, .f32⟩ : BufTy).Contents (Elt F)),
    binary main_v142 main_v144 main_v145 (addf : (⟨S50000x384, .f32⟩ : BufTy).Contents (Elt F) → (⟨S50000x384, .f32⟩ : BufTy).Contents (Elt F) → (⟨S50000x384, .f32⟩ : BufTy).Contents (Elt F)),
    binary main_arg5 main_arg19 main_v146 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg21 main_v147 (broadcastInDim S1x384 ![1] bcast_S384_S1x384_1 : (⟨S384, .f32⟩ : BufTy).Contents (Elt F) → (⟨S1x384, .f32⟩ : BufTy).Contents (Elt F)),
    unary main_v147 main_v148 (broadcastInDim S50000x384 ![0, 1] bcast_S1x384_S50000x384_0_1 : (⟨S1x384, .f32⟩ : BufTy).Contents (Elt F) → (⟨S50000x384, .f32⟩ : BufTy).Contents (Elt F)) ]
/-- The references those operations write. -/
abbrev opsCell2a_W : List (Ref sig .tc) := [main_v142, main_v143, main_v144, main_v145, main_v146, main_v147, main_v148]
theorem opsCell2a_sub : (opsCell2a : List (HloOp τ sig (Elt F))).Forall fun op => op.bufs ⊆ tcRefs τ sig := by
  unfold opsCell2a; exact ⟨binary_bufs_sub .., unary_bufs_sub .., unary_bufs_sub .., binary_bufs_sub .., binary_bufs_sub .., unary_bufs_sub .., unary_bufs_sub ..⟩
theorem opsCell2a_fresh : (opsCell2a : List (HloOp τ sig (Elt F))).Forall fun op => op.fresh = ∅ := by
  unfold opsCell2a; exact ⟨rfl, rfl, rfl, rfl, rfl, rfl, rfl⟩
theorem opsCell2a_writes : (opsCell2a : List (HloOp τ sig (Elt F))).Forall fun op => op.writes ⊆ (opsCell2a_W.map (Proc.devRef (τ := τ) .tc)).toFinset := by
  unfold opsCell2a; simp only [List.Forall]; exact ⟨by writes_case, by writes_case, by writes_case, by writes_case, by writes_case, by writes_case, by writes_case⟩

/-- 34 operations of the recurrent cell of width 128 (part b), in order. -/
def opsCell2b : List (HloOp τ sig (Elt F)) :=
  [ binary main_v146 main_v148 main_v149 (addf : (⟨S50000x384, .f32⟩ : BufTy).Contents (Elt F) → (⟨S50000x384, .f32⟩ : BufTy).Contents (Elt F) → (⟨S50000x384, .f32⟩ : BufTy).Contents (Elt F)),
    unary main_v145 main_v150 ((extractStridedSlice S50000x128 ![0, 0] · slices_S50000x384_S50000x128_0_0) : (⟨S50000x384, .f32⟩ : BufTy).Contents (Elt F) → (⟨S50000x128, .f32⟩ : BufTy).Contents (Elt F)),
    unary main_v145 main_v151 ((extractStridedSlice S50000x128 ![0, 128] · slices_S50000x384_S50000x128_0_128) : (⟨S50000x384, .f32⟩ : BufTy).Contents (Elt F) → (⟨S50000x128, .f32⟩ : BufTy).Contents (Elt F)),
    unary main_v145 main_v152 ((extractStridedSlice S50000x128 ![0, 256] · slices_S50000x384_S50000x128_0_256) : (⟨S50000x384, .f32⟩ : BufTy).Contents (Elt F) → (⟨S50000x128, .f32⟩ : BufTy).Contents (Elt F)),
    unary main_v149 main_v153 ((extractStridedSlice S50000x128 ![0, 0] · slices_S50000x384_S50000x128_0_0) : (⟨S50000x384, .f32⟩ : BufTy).Contents (Elt F) → (⟨S50000x128, .f32⟩ : BufTy).Contents (Elt F)),
    unary main_v149 main_v154 ((extractStridedSlice S50000x128 ![0, 128] · slices_S50000x384_S50000x128_0_128) : (⟨S50000x384, .f32⟩ : BufTy).Contents (Elt F) → (⟨S50000x128, .f32⟩ : BufTy).Contents (Elt F)),
    unary main_v149 main_v155 ((extractStridedSlice S50000x128 ![0, 256] · slices_S50000x384_S50000x128_0_256) : (⟨S50000x384, .f32⟩ : BufTy).Contents (Elt F) → (⟨S50000x128, .f32⟩ : BufTy).Contents (Elt F)),
    binary main_v150 main_v153 main_v156 (addf : (⟨S50000x128, .f32⟩ : BufTy).Contents (Elt F) → (⟨S50000x128, .f32⟩ : BufTy).Contents (Elt F) → (⟨S50000x128, .f32⟩ : BufTy).Contents (Elt F)),
    unary main_v156 main_v157 (Host.negf : (⟨S50000x128, .f32⟩ : BufTy).Contents (Elt F) → (⟨S50000x128, .f32⟩ : BufTy).Contents (Elt F)),
    unary main_v157 main_v158 (Host.exp : (⟨S50000x128, .f32⟩ : BufTy).Contents (Elt F) → (⟨S50000x128, .f32⟩ : BufTy).Contents (Elt F)),
    nullary main_cst_29 (constant S_ .f32 0x3F800000#32),
    unary main_cst_29 main_v159 (broadcastInDim S50000x128 ![] bcast_S_S50000x128 : (⟨S_, .f32⟩ : BufTy).Contents (Elt F) → (⟨S50000x128, .f32⟩ : BufTy).Contents (Elt F)),
    binary main_v159 main_v158 main_v160 (addf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x3F800000#32),
    unary main_cst_30 main_v161 (broadcastInDim S50000x128 ![] bcast_S_S50000x128 : (⟨S_, .f32⟩ : BufTy).Contents (Elt F) → (⟨S50000x128, .f32⟩ : BufTy).Contents (Elt F)),
    binary main_v161 main_v160 main_v162 (Host.divf : (⟨S50000x128, .f32⟩ : BufTy).Contents (Elt F) → (⟨S50000x128, .f32⟩ : BufTy).Contents (Elt F) → (⟨S50000x128, .f32⟩ : BufTy).Contents (Elt F)),
    binary main_v151 main_v154 main_v163 (addf : (⟨S50000x128, .f32⟩ : BufTy).Contents (Elt F) → (⟨S50000x128, .f32⟩ : BufTy).Contents (Elt F) → (⟨S50000x128, .f32⟩ : BufTy).Contents (Elt F)),
    unary main_v163 main_v164 (Host.negf : (⟨S50000x128, .f32⟩ : BufTy).Contents (Elt F) → (⟨S50000x128, .f32⟩ : BufTy).Contents (Elt F)),
    unary main_v164 main_v165 (Host.exp : (⟨S50000x128, .f32⟩ : BufTy).Contents (Elt F) → (⟨S50000x128, .f32⟩ : BufTy).Contents (Elt F)),
    nullary main_cst_31 (constant S_ .f32 0x3F800000#32),
    unary main_cst_31 main_v166 (broadcastInDim S50000x128 ![] bcast_S_S50000x128 : (⟨S_, .f32⟩ : BufTy).Contents (Elt F) → (⟨S50000x128, .f32⟩ : BufTy).Contents (Elt F)),
    binary main_v166 main_v165 main_v167 (addf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x3F800000#32),
    unary main_cst_32 main_v168 (broadcastInDim S50000x128 ![] bcast_S_S50000x128 : (⟨S_, .f32⟩ : BufTy).Contents (Elt F) → (⟨S50000x128, .f32⟩ : BufTy).Contents (Elt F)),
    binary main_v168 main_v167 main_v169 (Host.divf : (⟨S50000x128, .f32⟩ : BufTy).Contents (Elt F) → (⟨S50000x128, .f32⟩ : BufTy).Contents (Elt F) → (⟨S50000x128, .f32⟩ : BufTy).Contents (Elt F)),
    binary main_v162 main_v155 main_v170 (mulf : (⟨S50000x128, .f32⟩ : BufTy).Contents (Elt F) → (⟨S50000x128, .f32⟩ : BufTy).Contents (Elt F) → (⟨S50000x128, .f32⟩ : BufTy).Contents (Elt F)),
    binary main_v152 main_v170 main_v171 (addf : (⟨S50000x128, .f32⟩ : BufTy).Contents (Elt F) → (⟨S50000x128, .f32⟩ : BufTy).Contents (Elt F) → (⟨S50000x128, .f32⟩ : BufTy).Contents (Elt F)),
    unary main_v171 main_v172 (Host.tanh : (⟨S50000x128, .f32⟩ : BufTy).Contents (Elt F) → (⟨S50000x128, .f32⟩ : BufTy).Contents (Elt F)),
    nullary main_cst_33 (constant S_ .f32 0x3F800000#32),
    unary main_cst_33 main_v173 (broadcastInDim S50000x128 ![] bcast_S_S50000x128 : (⟨S_, .f32⟩ : BufTy).Contents (Elt F) → (⟨S50000x128, .f32⟩ : BufTy).Contents (Elt F)),
    binary main_v173 main_v169 main_v174 (subf : (⟨S50000x128, .f32⟩ : BufTy).Contents (Elt F) → (⟨S50000x128, .f32⟩ : BufTy).Contents (Elt F) → (⟨S50000x128, .f32⟩ : BufTy).Contents (Elt F)),
    binary main_v174 main_v172 main_v175 (mulf : (⟨S50000x128, .f32⟩ : BufTy).Contents (Elt F) → (⟨S50000x128, .f32⟩ : BufTy).Contents (Elt F) → (⟨S50000x128, .f32⟩ : BufTy).Contents (Elt F)),
    binary main_v169 main_arg5 main_v176 (mulf : (⟨S50000x128, .f32⟩ : BufTy).Contents (Elt F) → (⟨S50000x128, .f32⟩ : BufTy).Contents (Elt F) → (⟨S50000x128, .f32⟩ : BufTy).Contents (Elt F)),
    binary main_v175 main_v176 main_v177 (addf : (⟨S50000x128, .f32⟩ : BufTy).Contents (Elt F) → (⟨S50000x128, .f32⟩ : BufTy).Contents (Elt F) → (⟨S50000x128, .f32⟩ : BufTy).Contents (Elt F)) ]
/-- The references those operations write. -/
abbrev opsCell2b_W : List (Ref sig .tc) := [main_v149, main_v150, main_v151, main_v152, main_v153, main_v154, main_v155, main_v156, main_v157, main_v158, main_cst_29, main_v159, main_v160, main_cst_30, main_v161, main_v162, main_v163, main_v164, main_v165, main_cst_31, main_v166, main_v167, main_cst_32, main_v168, main_v169, main_v170, main_v171, main_v172, main_cst_33, main_v173, main_v174, main_v175, main_v176, main_v177]
theorem opsCell2b_sub : (opsCell2b : List (HloOp τ sig (Elt F))).Forall fun op => op.bufs ⊆ tcRefs τ sig := by
  unfold opsCell2b; exact ⟨binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem opsCell2b_fresh : (opsCell2b : List (HloOp τ sig (Elt F))).Forall fun op => op.fresh = ∅ := by
  unfold opsCell2b; exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsCell2b_writes : (opsCell2b : List (HloOp τ sig (Elt F))).Forall fun op => op.writes ⊆ (opsCell2b_W.map (Proc.devRef (τ := τ) .tc)).toFinset := by
  unfold opsCell2b; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 22 operations of the edge scores (part a), in order. -/
def opsScorea : List (HloOp τ sig (Elt F)) :=
  [ unary main_arg2 main_v178 ((extractStridedSlice S1x200000 ![0, 0] · slices_S2x200000_S1x200000_0_0) : (⟨S2x200000, .i32⟩ : BufTy).Contents (Elt F) → (⟨S1x200000, .i32⟩ : BufTy).Contents (Elt F)),
    reshape main_v178 main_v179 rfl shapeCasts_S1x200000_S200000,
    nullary main_c_34 (constantI S_ 32 0#32),
    unary main_c_34 main_v180 (broadcastInDim S200000 ![] bcast_S_S200000 : (⟨S_, .i32⟩ : BufTy).Contents (Elt F) → (⟨S200000, .i32⟩ : BufTy).Contents (Elt F)),
    binary main_v179 main_v180 main_v181 (cmpi .slt : (⟨S200000, .i32⟩ : BufTy).Contents (Elt F) → (⟨S200000, .i32⟩ : BufTy).Contents (Elt F) → (⟨S200000, .i1⟩ : BufTy).Contents (Elt F)),
    nullary main_c_35 (constantI S_ 32 50000#32),
    unary main_c_35 main_v182 (broadcastInDim S200000 ![] bcast_S_S200000 : (⟨S_, .i32⟩ : BufTy).Contents (Elt F) → (⟨S200000, .i32⟩ : BufTy).Contents (Elt F)),
    binary main_v179 main_v182 main_v183 (addi : (⟨S200000, .i32⟩ : BufTy).Contents (Elt F) → (⟨S200000, .i32⟩ : BufTy).Contents (Elt F) → (⟨S200000, .i32⟩ : BufTy).Contents (Elt F)),
    ternary main_v181 main_v183 main_v179 main_v184 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v184 main_v185 (broadcastInDim S200000x1 ![0] bcast_S200000_S200000x1_0 : (⟨S200000, .i32⟩ : BufTy).Contents (Elt F) → (⟨S200000x1, .i32⟩ : BufTy).Contents (Elt F)),
    binary main_v177 main_v185 main_v186 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    unary main_arg2 main_v187 ((extractStridedSlice S1x200000 ![1, 0] · slices_S2x200000_S1x200000_1_0) : (⟨S2x200000, .i32⟩ : BufTy).Contents (Elt F) → (⟨S1x200000, .i32⟩ : BufTy).Contents (Elt F)),
    reshape main_v187 main_v188 rfl shapeCasts_S1x200000_S200000,
    nullary main_c_36 (constantI S_ 32 0#32),
    unary main_c_36 main_v189 (broadcastInDim S200000 ![] bcast_S_S200000 : (⟨S_, .i32⟩ : BufTy).Contents (Elt F) → (⟨S200000, .i32⟩ : BufTy).Contents (Elt F)),
    binary main_v188 main_v189 main_v190 (cmpi .slt : (⟨S200000, .i32⟩ : BufTy).Contents (Elt F) → (⟨S200000, .i32⟩ : BufTy).Contents (Elt F) → (⟨S200000, .i1⟩ : BufTy).Contents (Elt F)),
    nullary main_c_37 (constantI S_ 32 50000#32),
    unary main_c_37 main_v191 (broadcastInDim S200000 ![] bcast_S_S200000 : (⟨S_, .i32⟩ : BufTy).Contents (Elt F) → (⟨S200000, .i32⟩ : BufTy).Contents (Elt F)),
    binary main_v188 main_v191 main_v192 (addi : (⟨S200000, .i32⟩ : BufTy).Contents (Elt F) → (⟨S200000, .i32⟩ : BufTy).Contents (Elt F) → (⟨S200000, .i32⟩ : BufTy).Contents (Elt F)),
    ternary main_v190 main_v192 main_v188 main_v193 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v193 main_v194 (broadcastInDim S200000x1 ![0] bcast_S200000_S200000x1_0 : (⟨S200000, .i32⟩ : BufTy).Contents (Elt F) → (⟨S200000x1, .i32⟩ : BufTy).Contents (Elt F)),
    binary main_v177 main_v194 main_v195 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)) ]
/-- The references those operations write. -/
abbrev opsScorea_W : List (Ref sig .tc) := [main_v178, main_v179, main_c_34, main_v180, main_v181, main_c_35, main_v182, main_v183, main_v184, main_v185, main_v186, main_v187, main_v188, main_c_36, main_v189, main_v190, main_c_37, main_v191, main_v192, main_v193, main_v194, main_v195]
theorem opsScorea_sub : (opsScorea : List (HloOp τ sig (Elt F))).Forall fun op => op.bufs ⊆ tcRefs τ sig := by
  unfold opsScorea; exact ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem opsScorea_fresh : (opsScorea : List (HloOp τ sig (Elt F))).Forall fun op => op.fresh = ∅ := by
  unfold opsScorea; exact ⟨rfl, rfl, rfl, rfl, rfl, rfl, rfl, rfl, rfl, rfl, rfl, rfl, rfl, rfl, rfl, rfl, rfl, rfl, rfl, rfl, rfl, rfl⟩
theorem opsScorea_writes : (opsScorea : List (HloOp τ sig (Elt F))).Forall fun op => op.writes ⊆ (opsScorea_W.map (Proc.devRef (τ := τ) .tc)).toFinset := by
  unfold opsScorea; simp only [List.Forall]; exact ⟨by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case, by writes_case⟩

/-- 4 operations of the edge scores (part b), in order. -/
def opsScoreb : List (HloOp τ sig (Elt F)) :=
  [ nary ![main_v186, main_v195, main_arg3] main_v196 (fun u => concatenate S200000x272 1 [⟨S200000x128, u 0⟩, ⟨S200000x128, u 1⟩, ⟨S200000x16, u 2⟩] concatenates_S200000x128_S200000x128_S200000x16_S200000x272_d1),
    binary main_v196 main_arg22 main_v197 ((fun l r => Host.dotGeneral dot_S200000x272_S272x1_S200000x1_1_0_0_1_n_n none l r) : (⟨S200000x272, .f32⟩ : BufTy).Contents (Elt F) → (⟨S272x1, .f32⟩ : BufTy).Contents (Elt F) → (⟨S200000x1, .f32⟩ : BufTy).Contents (Elt F)),
    unary main_arg23 main_v198 (broadcastInDim S1x1 ![1] bcast_S1_S1x1_1 : (⟨S1, .f32⟩ : BufTy).Contents (Elt F) → (⟨S1x1, .f32⟩ : BufTy).Contents (Elt F)),
    unary main_v198 main_v199 (broadcastInDim S200000x1 ![0, 1] bcast_S1x1_S200000x1_0_1 : (⟨S1x1, .f32⟩ : BufTy).Contents (Elt F) → (⟨S200000x1, .f32⟩ : BufTy).Contents (Elt F)) ]
/-- The references those operations write. -/
abbrev opsScoreb_W : List (Ref sig .tc) := [main_v196, main_v197, main_v198, main_v199]
theorem opsScoreb_sub : (opsScoreb : List (HloOp τ sig (Elt F))).Forall fun op => op.bufs ⊆ tcRefs τ sig := by
  unfold opsScoreb; exact ⟨nary_bufs_sub .., binary_bufs_sub .., unary_bufs_sub .., unary_bufs_sub ..⟩
theorem opsScoreb_fresh : (opsScoreb : List (HloOp τ sig (Elt F))).Forall fun op => op.fresh = ∅ := by
  unfold opsScoreb; exact ⟨rfl, rfl, rfl, rfl⟩
theorem opsScoreb_writes : (opsScoreb : List (HloOp τ sig (Elt F))).Forall fun op => op.writes ⊆ (opsScoreb_W.map (Proc.devRef (τ := τ) .tc)).toFinset := by
  unfold opsScoreb; simp only [List.Forall]; exact ⟨by writes_case, by writes_case, by writes_case, by writes_case⟩

/-- 2 operations of the edge scores (part c), in order. -/
def opsScorec : List (HloOp τ sig (Elt F)) :=
  [ binary main_v197 main_v199 main_v200 (addf : (⟨S200000x1, .f32⟩ : BufTy).Contents (Elt F) → (⟨S200000x1, .f32⟩ : BufTy).Contents (Elt F) → (⟨S200000x1, .f32⟩ : BufTy).Contents (Elt F)),
    reshape main_v200 main_v201 rfl shapeCasts_S200000x1_S200000 ]
/-- The references those operations write. -/
abbrev opsScorec_W : List (Ref sig .tc) := [main_v200, main_v201]
theorem opsScorec_sub : (opsScorec : List (HloOp τ sig (Elt F))).Forall fun op => op.bufs ⊆ tcRefs τ sig := by
  unfold opsScorec; exact ⟨binary_bufs_sub .., reshape_bufs_sub ..⟩
theorem opsScorec_fresh : (opsScorec : List (HloOp τ sig (Elt F))).Forall fun op => op.fresh = ∅ := by
  unfold opsScorec; exact ⟨rfl, rfl⟩
theorem opsScorec_writes : (opsScorec : List (HloOp τ sig (Elt F))).Forall fun op => op.writes ⊆ (opsScorec_W.map (Proc.devRef (τ := τ) .tc)).toFinset := by
  unfold opsScorec; simp only [List.Forall]; exact ⟨by writes_case, by writes_case⟩

/-! ## The program is the line -/

set_option maxRecDepth 8192 in
theorem main_part0_eq (c : Dev nD) : main_part0 (F := F) c = seq (opsPre ++ opsGraph1a ++ opsGraph1b ++ opsGraph1c ++ opsConv1a) := rfl
set_option maxRecDepth 8192 in
theorem main_part1_eq (c : Dev nD) : main_part1 (F := F) c = seq (opsConv1b ++ opsAct1 ++ opsCell1 ++ opsGraph2a ++ opsGraph2b ++ opsGraph2c) := rfl
set_option maxRecDepth 8192 in
theorem main_part2_eq (c : Dev nD) : main_part2 (F := F) c = seq (opsGraph2d ++ opsConv2 ++ opsAct2 ++ opsCell2a) := rfl
set_option maxRecDepth 8192 in
theorem main_part3_eq (c : Dev nD) : main_part3 (F := F) c = seq (opsCell2b ++ opsScorea ++ opsScoreb) := rfl
set_option maxRecDepth 8192 in
theorem main_part4_eq (c : Dev nD) : main_part4 (F := F) c = seq opsScorec := rfl

/-- All the operations, in order. -/
def ops : List (HloOp τ sig (Elt F)) :=
  (opsPre ++ opsGraph1a ++ opsGraph1b ++ opsGraph1c ++ opsConv1a) ++ ((opsConv1b ++ opsAct1 ++ opsCell1 ++ opsGraph2a ++ opsGraph2b ++ opsGraph2c)
    ++ ((opsGraph2d ++ opsConv2 ++ opsAct2 ++ opsCell2a) ++ ((opsCell2b ++ opsScorea ++ opsScoreb) ++ opsScorec)))

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRun.lean ====
/-
  The run of the plain program read back: each stage of the network is read off its own piece of the line of host
  operations, from arbitrary contents before the piece, and the pieces are put together.
-/
import proofs.«175486_j44117904065163_2_alg».proof.Proof.RefOps
import proofs.«175486_j44117904065163_2_alg».proof.Proof.Spec
import Idealize.ShloMosaic.Lib.StableHlo.Run
import Idealize.ShloMosaic.PureOps.Ideal

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- A reference's contents under a valuation. -/
local notation:max W "⟪" r "⟫" => W (Proc.devRef Proc.tc r)

/-- The contents after two lines in a row. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## Each piece read from arbitrary contents before it -/

/-- The gates and the blend of the cell of width 128, from the two affine maps' values. -/
def cell128 (gi gh : FVec F S50000x384 .f32) (h : FVec F S50000x128 .f32) : FVec F S50000x128 .f32 :=
  let r := Cert.Spec.sigm128 (addf (extractStridedSlice S50000x128 ![0, 0] gi slices_S50000x384_S50000x128_0_0) (extractStridedSlice S50000x128 ![0, 0] gh slices_S50000x384_S50000x128_0_0))
  let z := Cert.Spec.sigm128 (addf (extractStridedSlice S50000x128 ![0, 128] gi slices_S50000x384_S50000x128_0_128) (extractStridedSlice S50000x128 ![0, 128] gh slices_S50000x384_S50000x128_0_128))
  let n := Host.tanh (addf (extractStridedSlice S50000x128 ![0, 256] gi slices_S50000x384_S50000x128_0_256)
    (mulf r (extractStridedSlice S50000x128 ![0, 256] gh slices_S50000x384_S50000x128_0_256)))
  addf (mulf (subf Cert.Spec.one128 z) n) (mulf z h)

/-- The scaled rows scatter-added at the targets (256 columns), from the gathered rows. -/
def scat256 (g : FVec F S850000x256 .f32) (t : IVec S850000 32) (nrm : FVec F S850000 .f32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 t)
    (mulf g (broadcastInDim S850000x256 ![0, 1] bcast_S850000x1_S850000x256_0_1 (broadcastInDim S850000x1 ![0] bcast_S850000_S850000x1_0 nrm)))

set_option maxHeartbeats 1000000 in
theorem pre_v9 (W : Valuation τ sig (Elt F)) :
    after opsPre W (Proc.devRef .tc main_v9)
      = Cert.Spec.prelayer W⟪main_arg0⟫ W⟪main_arg6⟫ W⟪main_arg7⟫ W⟪main_arg8⟫ W⟪main_arg9⟫ := by
  unfold opsPre
  after_results_simp
  rfl

theorem g1a_v11 (W : Valuation τ sig (Elt F)) :
    after opsGraph1a W (Proc.devRef .tc main_v11)
      = shapeCast S800000 (extractStridedSlice S1x800000 ![0, 0] W⟪main_arg1⟫ slices_S2x800000_S1x800000_0_0) shapeCasts_S1x800000_S800000 := by
  unfold opsGraph1a
  after_results_simp
  rfl

theorem g1a_v13 (W : Valuation τ sig (Elt F)) :
    after opsGraph1a W (Proc.devRef .tc main_v13)
      = shapeCast S800000 (extractStridedSlice S1x800000 ![1, 0] W⟪main_arg1⟫ slices_S2x800000_S1x800000_1_0) shapeCasts_S1x800000_S800000 := by
  unfold opsGraph1a
  after_results_simp
  rfl

theorem g1a_v14 (W : Valuation τ sig (Elt F)) :
    after opsGraph1a W (Proc.devRef .tc main_v14)
      = iotaInDim S50000 32 0 := by
  unfold opsGraph1a
  after_results_simp

theorem g1b_v15 (W : Valuation τ sig (Elt F)) :
    after opsGraph1b W (Proc.devRef .tc main_v15)
      = concatenate S850000 0 [⟨S800000, W⟪main_v11⟫⟩, ⟨S50000, W⟪main_v14⟫⟩] concatenates_S800000_S50000_S850000_d0 := by
  unfold opsGraph1b
  after_results_simp

set_option maxHeartbeats 1000000 in
theorem g1c_v16 (W : Valuation τ sig (Elt F)) :
    after opsGraph1c W (Proc.devRef .tc main_v16)
      = concatenate S850000 0 [⟨S800000, W⟪main_v13⟫⟩, ⟨S50000, W⟪main_v14⟫⟩] concatenates_S800000_S50000_S850000_d0 := by
  unfold opsGraph1c
  after_results_simp

set_option maxHeartbeats 1000000 in
theorem g1c_v39 (W : Valuation τ sig (Elt F)) :
    after opsGraph1c W (Proc.devRef .tc main_v39)
      = Cert.Spec.coef (Cert.Spec.dinv (Cert.Spec.deg (concatenate S850000 0 [⟨S800000, W⟪main_v13⟫⟩, ⟨S50000, W⟪main_v14⟫⟩] concatenates_S800000_S50000_S850000_d0)))
          W⟪main_v15⟫ (concatenate S850000 0 [⟨S800000, W⟪main_v13⟫⟩, ⟨S50000, W⟪main_v14⟫⟩] concatenates_S800000_S50000_S850000_d0) := by
  unfold opsGraph1c
  after_results_simp
  rfl

theorem c1a_v47 (W : Valuation τ sig (Elt F)) :
    after opsConv1a W (Proc.devRef .tc main_v47)
      = Host.gather gather_S50000x256_S850000x1_S850000x256_1_0_n_n_0_1_1256
          (Host.dotGeneral dot_S50000x128_S128x256_S50000x256_1_0_0_1_n_n none W⟪main_v9⟫ W⟪main_arg10⟫) (Cert.Spec.wrap W⟪main_v15⟫) := by
  unfold opsConv1a
  after_results_simp
  rfl

theorem c1b_v56 (W : Valuation τ sig (Elt F)) :
    after opsConv1b W (Proc.devRef .tc main_v56)
      = addf (scat256 W⟪main_v47⟫ W⟪main_v16⟫ W⟪main_v39⟫) (Cert.Spec.bias256 W⟪main_arg11⟫) := by
  unfold opsConv1b
  after_results_simp
  rfl

theorem act1_v57 (W : Valuation τ sig (Elt F)) :
    after opsAct1 W (Proc.devRef .tc main_v57)
      = Cert.Spec.lrelu256 W⟪main_v56⟫ := by
  unfold opsAct1
  after_results_simp
  rfl

set_option maxHeartbeats 1000000 in
theorem cell1_v93 (W : Valuation τ sig (Elt F)) :
    after opsCell1 W (Proc.devRef .tc main_v93)
      = Cert.Spec.gru256 W⟪main_v57⟫ W⟪main_arg4⟫ W⟪main_arg14⟫ W⟪main_arg15⟫ W⟪main_arg16⟫ W⟪main_arg17⟫ := by
  unfold opsCell1
  after_results_simp
  rfl

theorem g2a_v95 (W : Valuation τ sig (Elt F)) :
    after opsGraph2a W (Proc.devRef .tc main_v95)
      = shapeCast S800000 (extractStridedSlice S1x800000 ![0, 0] W⟪main_arg1⟫ slices_S2x800000_S1x800000_0_0) shapeCasts_S1x800000_S800000 := by
  unfold opsGraph2a
  after_results_simp
  rfl

theorem g2a_v97 (W : Valuation τ sig (Elt F)) :
    after opsGraph2a W (Proc.devRef .tc main_v97)
      = shapeCast S800000 (extractStridedSlice S1x800000 ![1, 0] W⟪main_arg1⟫ slices_S2x800000_S1x800000_1_0) shapeCasts_S1x800000_S800000 := by
  unfold opsGraph2a
  after_results_simp
  rfl

theorem g2a_v98 (W : Valuation τ sig (Elt F)) :
    after opsGraph2a W (Proc.devRef .tc main_v98)
      = iotaInDim S50000 32 0 := by
  unfold opsGraph2a
  after_results_simp

theorem g2b_v99 (W : Valuation τ sig (Elt F)) :
    after opsGraph2b W (Proc.devRef .tc main_v99)
      = concatenate S850000 0 [⟨S800000, W⟪main_v95⟫⟩, ⟨S50000, W⟪main_v98⟫⟩] concatenates_S800000_S50000_S850000_d0 := by
  unfold opsGraph2b
  after_results_simp

theorem g2c_v100 (W : Valuation τ sig (Elt F)) :
    after opsGraph2c W (Proc.devRef .tc main_v100)
      = concatenate S850000 0 [⟨S800000, W⟪main_v97⟫⟩, ⟨S50000, W⟪main_v98⟫⟩] concatenates_S800000_S50000_S850000_d0 := by
  unfold opsGraph2c
  after_results_simp

set_option maxHeartbeats 1000000 in
theorem g2d_v123 (W : Valuation τ sig (Elt F)) :
    after opsGraph2d W (Proc.devRef .tc main_v123)
      = Cert.Spec.coef (Cert.Spec.dinv (Cert.Spec.deg W⟪main_v100⟫)) W⟪main_v99⟫ W⟪main_v100⟫ := by
  unfold opsGraph2d
  after_results_simp
  rfl

set_option maxHeartbeats 1000000 in
theorem conv2_v140 (W : Valuation τ sig (Elt F)) :
    after opsConv2 W (Proc.devRef .tc main_v140)
      = addf (Cert.Spec.agg128 (Host.dotGeneral dot_S50000x256_S256x128_S50000x128_1_0_0_1_n_n none W⟪main_v93⟫ W⟪main_arg12⟫)
          W⟪main_v99⟫ W⟪main_v100⟫ W⟪main_v123⟫) (Cert.Spec.bias128 W⟪main_arg13⟫) := by
  unfold opsConv2
  after_results_simp
  rfl

theorem act2_v141 (W : Valuation τ sig (Elt F)) :
    after opsAct2 W (Proc.devRef .tc main_v141)
      = Cert.Spec.lrelu128 W⟪main_v140⟫ := by
  unfold opsAct2
  after_results_simp
  rfl

theorem cell2a_v145 (W : Valuation τ sig (Elt F)) :
    after opsCell2a W (Proc.devRef .tc main_v145)
      = addf (Host.dotGeneral dot_S50000x128_S128x384_S50000x384_1_0_0_1_n_n none W⟪main_v141⟫ W⟪main_arg18⟫) (Cert.Spec.bias384 W⟪main_arg20⟫) := by
  unfold opsCell2a
  after_results_simp
  rfl

theorem cell2a_v146 (W : Valuation τ sig (Elt F)) :
    after opsCell2a W (Proc.devRef .tc main_v146)
      = Host.dotGeneral dot_S50000x128_S128x384_S50000x384_1_0_0_1_n_n none W⟪main_arg5⟫ W⟪main_arg19⟫ := by
  unfold opsCell2a
  after_results_simp

theorem cell2a_v148 (W : Valuation τ sig (Elt F)) :
    after opsCell2a W (Proc.devRef .tc main_v148)
      = Cert.Spec.bias384 W⟪main_arg21⟫ := by
  unfold opsCell2a
  after_results_simp
  rfl

set_option maxHeartbeats 1000000 in
theorem cell2b_v177 (W : Valuation τ sig (Elt F)) :
    after opsCell2b W (Proc.devRef .tc main_v177)
      = cell128 W⟪main_v145⟫ (addf W⟪main_v146⟫ W⟪main_v148⟫) W⟪main_arg5⟫ := by
  unfold opsCell2b
  after_results_simp
  rfl

set_option maxHeartbeats 1000000 in
theorem sa_v186 (W : Valuation τ sig (Elt F)) :
    after opsScorea W (Proc.devRef .tc main_v186)
      = Host.gather gather_S50000x128_S200000x1_S200000x128_1_0_n_n_0_1_1128 W⟪main_v177⟫ (Cert.Spec.wrapQ (Cert.Spec.endp0 W⟪main_arg2⟫)) := by
  unfold opsScorea
  after_results_simp
  rfl

set_option maxHeartbeats 1000000 in
theorem sa_v195 (W : Valuation τ sig (Elt F)) :
    after opsScorea W (Proc.devRef .tc main_v195)
      = Host.gather gather_S50000x128_S200000x1_S200000x128_1_0_n_n_0_1_1128 W⟪main_v177⟫ (Cert.Spec.wrapQ (Cert.Spec.endp1 W⟪main_arg2⟫)) := by
  unfold opsScorea
  after_results_simp
  rfl

theorem sb_v197 (W : Valuation τ sig (Elt F)) :
    after opsScoreb W (Proc.devRef .tc main_v197)
      = Host.dotGeneral dot_S200000x272_S272x1_S200000x1_1_0_0_1_n_n none
          (concatenate S200000x272 1 [⟨S200000x128, W⟪main_v186⟫⟩, ⟨S200000x128, W⟪main_v195⟫⟩, ⟨S200000x16, W⟪main_arg3⟫⟩]
            concatenates_S200000x128_S200000x128_S200000x16_S200000x272_d1) W⟪main_arg22⟫ := by
  unfold opsScoreb
  after_results_simp
  rfl

theorem sb_v199 (W : Valuation τ sig (Elt F)) :
    after opsScoreb W (Proc.devRef .tc main_v199)
      = broadcastInDim S200000x1 ![0, 1] bcast_S1x1_S200000x1_0_1 (broadcastInDim S1x1 ![1] bcast_S1_S1x1_1 W⟪main_arg23⟫) := by
  unfold opsScoreb
  after_results_simp

theorem sc_v201 (W : Valuation τ sig (Elt F)) :
    after opsScorec W (Proc.devRef .tc main_v201)
      = shapeCast S200000 (addf W⟪main_v197⟫ W⟪main_v199⟫) shapeCasts_S200000x1_S200000 := by
  unfold opsScorec
  after_results_simp
  rfl

/-! ## A piece leaves alone what it does not write -/

/-- The contents at a reference the piece does not write, after the piece. -/
local macro "kp" w:ident r:ident : term => `(after_of_writes_sub _ _ $w (r := $r) (by decide))

/-! ## The stages cut in several pieces, as one step each -/

/-- The graph's sources, targets and coefficients, first time. -/
def tGraph1 (W : Valuation τ sig (Elt F)) : Valuation τ sig (Elt F) := after opsGraph1c (after opsGraph1b (after opsGraph1a W))
/-- Graph layer 1. -/
def tConv1 (W : Valuation τ sig (Elt F)) : Valuation τ sig (Elt F) := after opsConv1b (after opsConv1a W)
/-- The graph's sources, targets and coefficients, second time. -/
def tGraph2 (W : Valuation τ sig (Elt F)) : Valuation τ sig (Elt F) :=
  after opsGraph2d (after opsGraph2c (after opsGraph2b (after opsGraph2a W)))
/-- The cell of width 128. -/
def tCell2 (W : Valuation τ sig (Elt F)) : Valuation τ sig (Elt F) := after opsCell2b (after opsCell2a W)
/-- The edge scores. -/
def tScore (W : Valuation τ sig (Elt F)) : Valuation τ sig (Elt F) := after opsScorec (after opsScoreb (after opsScorea W))

abbrev wGraph1 : List (Ref sig .tc) := opsGraph1a_W ++ opsGraph1b_W ++ opsGraph1c_W
abbrev wConv1 : List (Ref sig .tc) := opsConv1a_W ++ opsConv1b_W
abbrev wGraph2 : List (Ref sig .tc) := opsGraph2a_W ++ opsGraph2b_W ++ opsGraph2c_W ++ opsGraph2d_W
abbrev wCell2 : List (Ref sig .tc) := opsCell2a_W ++ opsCell2b_W
abbrev wScore : List (Ref sig .tc) := opsScorea_W ++ opsScoreb_W ++ opsScorec_W

theorem tGraph1_keep (W : Valuation τ sig (Elt F)) {r : Ref sig .tc} (h : r ∉ wGraph1) : (tGraph1 W)⟪r⟫ = W⟪r⟫ := by
  simp only [wGraph1, List.mem_append, not_or] at h
  unfold tGraph1
  rw [after_of_writes_sub _ _ opsGraph1c_writes h.2, after_of_writes_sub _ _ opsGraph1b_writes h.1.2,
    after_of_writes_sub _ _ opsGraph1a_writes h.1.1]

theorem tConv1_keep (W : Valuation τ sig (Elt F)) {r : Ref sig .tc} (h : r ∉ wConv1) : (tConv1 W)⟪r⟫ = W⟪r⟫ := by
  simp only [wConv1, List.mem_append, not_or] at h
  unfold tConv1
  rw [after_of_writes_sub _ _ opsConv1b_writes h.2, after_of_writes_sub _ _ opsConv1a_writes h.1]

theorem tGraph2_keep (W : Valuation τ sig (Elt F)) {r : Ref sig .tc} (h : r ∉ wGraph2) : (tGraph2 W)⟪r⟫ = W⟪r⟫ := by
  simp only [wGraph2, List.mem_append, not_or] at h
  unfold tGraph2
  rw [after_of_writes_sub _ _ opsGraph2d_writes h.2, after_of_writes_sub _ _ opsGraph2c_writes h.1.2,
    after_of_writes_sub _ _ opsGraph2b_writes h.1.1.2, after_of_writes_sub _ _ opsGraph2a_writes h.1.1.1]

theorem tCell2_keep (W : Valuation τ sig (Elt F)) {r : Ref sig .tc} (h : r ∉ wCell2) : (tCell2 W)⟪r⟫ = W⟪r⟫ := by
  simp only [wCell2, List.mem_append, not_or] at h
  unfold tCell2
  rw [after_of_writes_sub _ _ opsCell2b_writes h.2, after_of_writes_sub _ _ opsCell2a_writes h.1]

theorem tScore_keep (W : Valuation τ sig (Elt F)) {r : Ref sig .tc} (h : r ∉ wScore) : (tScore W)⟪r⟫ = W⟪r⟫ := by
  simp only [wScore, List.mem_append, not_or] at h
  unfold tScore
  rw [after_of_writes_sub _ _ opsScorec_writes h.2, after_of_writes_sub _ _ opsScoreb_writes h.1.2,
    after_of_writes_sub _ _ opsScorea_writes h.1.1]

/-! ## What each stage leaves, from arbitrary contents before it -/

theorem graph1_v15 (W : Valuation τ sig (Elt F)) : (tGraph1 W)⟪main_v15⟫ = Cert.Spec.srcs W⟪main_arg1⟫ := by
  unfold tGraph1
  rw [kp opsGraph1c_writes main_v15, g1b_v15, g1a_v11, g1a_v14]
  rfl

theorem graph1_v16 (W : Valuation τ sig (Elt F)) : (tGraph1 W)⟪main_v16⟫ = Cert.Spec.tgts W⟪main_arg1⟫ := by
  unfold tGraph1
  rw [g1c_v16, kp opsGraph1b_writes main_v13, kp opsGraph1b_writes main_v14, g1a_v13, g1a_v14]
  rfl

theorem graph1_v39 (W : Valuation τ sig (Elt F)) : (tGraph1 W)⟪main_v39⟫ = Cert.Spec.norm W⟪main_arg1⟫ := by
  unfold tGraph1
  rw [g1c_v39, kp opsGraph1b_writes main_v13, kp opsGraph1b_writes main_v14, g1b_v15, g1a_v11, g1a_v13, g1a_v14]
  rfl

theorem conv1_v56 (W : Valuation τ sig (Elt F)) :
    (tConv1 W)⟪main_v56⟫
      = addf (Cert.Spec.agg256 (Host.dotGeneral dot_S50000x128_S128x256_S50000x256_1_0_0_1_n_n none W⟪main_v9⟫ W⟪main_arg10⟫)
          W⟪main_v15⟫ W⟪main_v16⟫ W⟪main_v39⟫) (Cert.Spec.bias256 W⟪main_arg11⟫) := by
  unfold tConv1
  rw [c1b_v56, c1a_v47, kp opsConv1a_writes main_v16, kp opsConv1a_writes main_v39, kp opsConv1a_writes main_arg11]
  rfl

theorem graph2_v99 (W : Valuation τ sig (Elt F)) : (tGraph2 W)⟪main_v99⟫ = Cert.Spec.srcs W⟪main_arg1⟫ := by
  unfold tGraph2
  rw [kp opsGraph2d_writes main_v99, kp opsGraph2c_writes main_v99, g2b_v99, g2a_v95, g2a_v98]
  rfl

theorem graph2_v100 (W : Valuation τ sig (Elt F)) : (tGraph2 W)⟪main_v100⟫ = Cert.Spec.tgts W⟪main_arg1⟫ := by
  unfold tGraph2
  rw [kp opsGraph2d_writes main_v100, g2c_v100, kp opsGraph2b_writes main_v97, kp opsGraph2b_writes main_v98, g2a_v97, g2a_v98]
  rfl

theorem graph2_v123 (W : Valuation τ sig (Elt F)) : (tGraph2 W)⟪main_v123⟫ = Cert.Spec.norm W⟪main_arg1⟫ := by
  unfold tGraph2
  rw [g2d_v123, g2c_v100, kp opsGraph2c_writes main_v99, g2b_v99, kp opsGraph2b_writes main_v97, kp opsGraph2b_writes main_v98,
    g2a_v95, g2a_v97, g2a_v98]
  rfl

theorem cell2_v177 (W : Valuation τ sig (Elt F)) :
    (tCell2 W)⟪main_v177⟫
      = Cert.Spec.gru128 W⟪main_v141⟫ W⟪main_arg5⟫ W⟪main_arg18⟫ W⟪main_arg19⟫ W⟪main_arg20⟫ W⟪main_arg21⟫ := by
  unfold tCell2
  rw [cell2b_v177, cell2a_v145, cell2a_v146, cell2a_v148, kp opsCell2a_writes main_arg5]
  rfl

theorem score_v201 (W : Valuation τ sig (Elt F)) :
    (tScore W)⟪main_v201⟫ = Cert.Spec.scores W⟪main_v177⟫ W⟪main_arg2⟫ W⟪main_arg3⟫ W⟪main_arg22⟫ W⟪main_arg23⟫ := by
  unfold tScore
  rw [sc_v201, sb_v197, sb_v199, sa_v186, sa_v195, kp opsScorea_writes main_arg3, kp opsScorea_writes main_arg22,
    kp opsScorea_writes main_arg23]
  rfl

/-! ## The stages in a row -/

def s1 (V : Valuation τ sig (Elt F)) : Valuation τ sig (Elt F) := after opsPre V
def s2 (V : Valuation τ sig (Elt F)) : Valuation τ sig (Elt F) := tGraph1 (s1 V)
def s3 (V : Valuation τ sig (Elt F)) : Valuation τ sig (Elt F) := tConv1 (s2 V)
def s4 (V : Valuation τ sig (Elt F)) : Valuation τ sig (Elt F) := after opsAct1 (s3 V)
def s5 (V : Valuation τ sig (Elt F)) : Valuation τ sig (Elt F) := after opsCell1 (s4 V)
def s6 (V : Valuation τ sig (Elt F)) : Valuation τ sig (Elt F) := tGraph2 (s5 V)
def s7 (V : Valuation τ sig (Elt F)) : Valuation τ sig (Elt F) := after opsConv2 (s6 V)
def s8 (V : Valuation τ sig (Elt F)) : Valuation τ sig (Elt F) := after opsAct2 (s7 V)
def s9 (V : Valuation τ sig (Elt F)) : Valuation τ sig (Elt F) := tCell2 (s8 V)
def s10 (V : Valuation τ sig (Elt F)) : Valuation τ sig (Elt F) := tScore (s9 V)

/-- The whole line is the ten stages in a row. -/
theorem after_ops (V : Valuation τ sig (Elt F)) : after ops V = s10 V := by
  simp only [ops, after_append]
  rfl

abbrev w1 : List (Ref sig .tc) := opsPre_W
abbrev w2 : List (Ref sig .tc) := w1 ++ wGraph1
abbrev w3 : List (Ref sig .tc) := w2 ++ wConv1
abbrev w4 : List (Ref sig .tc) := w3 ++ opsAct1_W
abbrev w5 : List (Ref sig .tc) := w4 ++ opsCell1_W
abbrev w6 : List (Ref sig .tc) := w5 ++ wGraph2
abbrev w7 : List (Ref sig .tc) := w6 ++ opsConv2_W
abbrev w8 : List (Ref sig .tc) := w7 ++ opsAct2_W
abbrev w9 : List (Ref sig .tc) := w8 ++ wCell2
abbrev w10 : List (Ref sig .tc) := w9 ++ wScore

variable (V : Valuation τ sig (Elt F)) {r : Ref sig .tc}

theorem s1_keep (h : r ∉ w1) : (s1 V)⟪r⟫ = V⟪r⟫ := after_of_writes_sub _ _ opsPre_writes h
theorem s2_keep (h : r ∉ w2) : (s2 V)⟪r⟫ = V⟪r⟫ :=
  (tGraph1_keep (s1 V) fun hh => h (List.mem_append_right _ hh)).trans (s1_keep V fun hh => h (List.mem_append_left _ hh))
theorem s3_keep (h : r ∉ w3) : (s3 V)⟪r⟫ = V⟪r⟫ :=
  (tConv1_keep (s2 V) fun hh => h (List.mem_append_right _ hh)).trans (s2_keep V fun hh => h (List.mem_append_left _ hh))
theorem s4_keep (h : r ∉ w4) : (s4 V)⟪r⟫ = V⟪r⟫ :=
  (after_of_writes_sub _ (s3 V) opsAct1_writes fun hh => h (List.mem_append_right _ hh)).trans (s3_keep V fun hh => h (List.mem_append_left _ hh))
theorem s5_keep (h : r ∉ w5) : (s5 V)⟪r⟫ = V⟪r⟫ :=
  (after_of_writes_sub _ (s4 V) opsCell1_writes fun hh => h (List.mem_append_right _ hh)).trans (s4_keep V fun hh => h (List.mem_append_left _ hh))
theorem s6_keep (h : r ∉ w6) : (s6 V)⟪r⟫ = V⟪r⟫ :=
  (tGraph2_keep (s5 V) fun hh => h (List.mem_append_right _ hh)).trans (s5_keep V fun hh => h (List.mem_append_left _ hh))
theorem s7_keep (h : r ∉ w7) : (s7 V)⟪r⟫ = V⟪r⟫ :=
  (after_of_writes_sub _ (s6 V) opsConv2_writes fun hh => h (List.mem_append_right _ hh)).trans (s6_keep V fun hh => h (List.mem_append_left _ hh))
theorem s8_keep (h : r ∉ w8) : (s8 V)⟪r⟫ = V⟪r⟫ :=
  (after_of_writes_sub _ (s7 V) opsAct2_writes fun hh => h (List.mem_append_right _ hh)).trans (s7_keep V fun hh => h (List.mem_append_left _ hh))
theorem s9_keep (h : r ∉ w9) : (s9 V)⟪r⟫ = V⟪r⟫ :=
  (tCell2_keep (s8 V) fun hh => h (List.mem_append_right _ hh)).trans (s8_keep V fun hh => h (List.mem_append_left _ hh))
theorem s10_keep (h : r ∉ w10) : (s10 V)⟪r⟫ = V⟪r⟫ :=
  (tScore_keep (s9 V) fun hh => h (List.mem_append_right _ hh)).trans (s9_keep V fun hh => h (List.mem_append_left _ hh))

/-- The first embedding, of the contents of the argument references. -/
def e1 : FVec F S50000x256 .f32 :=
  Cert.Spec.emb1 V⟪main_arg0⟫ V⟪main_arg1⟫ V⟪main_arg4⟫ V⟪main_arg6⟫ V⟪main_arg7⟫ V⟪main_arg8⟫ V⟪main_arg9⟫ V⟪main_arg10⟫ V⟪main_arg11⟫ V⟪main_arg14⟫ V⟪main_arg15⟫ V⟪main_arg16⟫ V⟪main_arg17⟫
/-- The second embedding. -/
def e2 : FVec F S50000x128 .f32 :=
  Cert.Spec.emb2 (e1 V) V⟪main_arg1⟫ V⟪main_arg5⟫ V⟪main_arg12⟫ V⟪main_arg13⟫ V⟪main_arg18⟫ V⟪main_arg19⟫ V⟪main_arg20⟫ V⟪main_arg21⟫
/-- The scores. -/
def sc : FVec F S200000 .f32 := Cert.Spec.scores (e2 V) V⟪main_arg2⟫ V⟪main_arg3⟫ V⟪main_arg22⟫ V⟪main_arg23⟫

set_option maxRecDepth 4096 in
theorem s5_v93 : (s5 V)⟪main_v93⟫ = e1 V := by
  unfold s5
  rw [cell1_v93, s4_keep V (r := main_arg4) (by decide), s4_keep V (r := main_arg14) (by decide),
    s4_keep V (r := main_arg15) (by decide), s4_keep V (r := main_arg16) (by decide), s4_keep V (r := main_arg17) (by decide)]
  unfold s4
  rw [act1_v57]
  unfold s3
  rw [conv1_v56, s2_keep V (r := main_arg10) (by decide), s2_keep V (r := main_arg11) (by decide)]
  unfold s2
  rw [graph1_v15, graph1_v16, graph1_v39, tGraph1_keep (s1 V) (r := main_v9) (by decide), s1_keep V (r := main_arg1) (by decide)]
  unfold s1
  rw [pre_v9]
  rfl

set_option maxRecDepth 4096 in
theorem s9_v177 : (s9 V)⟪main_v177⟫ = e2 V := by
  unfold s9
  rw [cell2_v177, s8_keep V (r := main_arg5) (by decide), s8_keep V (r := main_arg18) (by decide),
    s8_keep V (r := main_arg19) (by decide), s8_keep V (r := main_arg20) (by decide), s8_keep V (r := main_arg21) (by decide)]
  unfold s8
  rw [act2_v141]
  unfold s7
  rw [conv2_v140, s6_keep V (r := main_arg12) (by decide), s6_keep V (r := main_arg13) (by decide)]
  unfold s6
  rw [graph2_v99, graph2_v100, graph2_v123, tGraph2_keep (s5 V) (r := main_v93) (by decide), s5_keep V (r := main_arg1) (by decide),
    s5_v93]
  rfl

set_option maxRecDepth 4096 in
theorem s10_v201 : (s10 V)⟪main_v201⟫ = sc V := by
  unfold s10
  rw [score_v201, s9_keep V (r := main_arg2) (by decide), s9_keep V (r := main_arg3) (by decide),
    s9_keep V (r := main_arg22) (by decide), s9_keep V (r := main_arg23) (by decide), s9_v177]
  rfl

theorem s10_v177 : (s10 V)⟪main_v177⟫ = e2 V := by
  unfold s10
  rw [tScore_keep (s9 V) (r := main_v177) (by decide), s9_v177]

theorem s10_v93 : (s10 V)⟪main_v93⟫ = e1 V := by
  unfold s10 s9 s8 s7 s6
  rw [tScore_keep _ (r := main_v93) (by decide), tCell2_keep _ (r := main_v93) (by decide), kp opsAct2_writes main_v93,
    kp opsConv2_writes main_v93, tGraph2_keep _ (r := main_v93) (by decide), s5_v93]

/-! ## The run -/

theorem res_v201 : (after ops V)⟪main_v201⟫ = sc V := by rw [after_ops, s10_v201]
theorem res_v93 : (after ops V)⟪main_v93⟫ = e1 V := by rw [after_ops, s10_v93]
theorem res_v177 : (after ops V)⟪main_v177⟫ = e2 V := by rw [after_ops, s10_v177]
theorem arg_keep (h : r ∉ w10) : (after ops V)⟪r⟫ = V⟪r⟫ := by rw [after_ops]; exact s10_keep V h

theorem ops_sub : (ops : List (HloOp τ sig (Elt F))).Forall fun op => op.bufs ⊆ tcRefs τ sig := by
  simp only [ops, List.forall_append, opsPre_sub, opsGraph1a_sub, opsGraph1b_sub, opsGraph1c_sub, opsConv1a_sub, opsConv1b_sub,
    opsAct1_sub, opsCell1_sub, opsGraph2a_sub, opsGraph2b_sub, opsGraph2c_sub, opsGraph2d_sub, opsConv2_sub, opsAct2_sub,
    opsCell2a_sub, opsCell2b_sub, opsScorea_sub, opsScoreb_sub, opsScorec_sub, and_self]

theorem ops_fresh : (ops : List (HloOp τ sig (Elt F))).Forall fun op => op.fresh = ∅ := by
  simp only [ops, List.forall_append, opsPre_fresh, opsGraph1a_fresh, opsGraph1b_fresh, opsGraph1c_fresh, opsConv1a_fresh,
    opsConv1b_fresh, opsAct1_fresh, opsCell1_fresh, opsGraph2a_fresh, opsGraph2b_fresh, opsGraph2c_fresh, opsGraph2d_fresh,
    opsConv2_fresh, opsAct2_fresh, opsCell2a_fresh, opsCell2b_fresh, opsScorea_fresh, opsScoreb_fresh, opsScorec_fresh, and_self]

set_option maxRecDepth 8192 in
/-- On every device, from any memory with zero counters: every weakly fair execution of @main terminates with the scores,
    the first and the second embedding at the stages' terms of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v201) = (Cert.Spec.scores (F := Ideal) (Cert.Spec.emb2 (F := Ideal) (Cert.Spec.emb1 (F := Ideal) (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg1)) (m ((c.tc : Thread nD τ).loc main_arg5)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21))) (m ((c.tc : Thread nD τ).loc main_arg2)) (m ((c.tc : Thread nD τ).loc main_arg3)) (m ((c.tc : Thread nD τ).loc main_arg22)) (m ((c.tc : Thread nD τ).loc main_arg23)))
      ∧ r.2.mem ((c.tc : Thread nD τ).loc main_v93) = (Cert.Spec.emb1 (F := Ideal) (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17)))
      ∧ r.2.mem ((c.tc : Thread nD τ).loc main_v177) = (Cert.Spec.emb2 (F := Ideal) (Cert.Spec.emb1 (F := Ideal) (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg1)) (m ((c.tc : Thread nD τ).loc main_arg5)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v201).trans (res_v201 _), (h c main_v93).trans (res_v93 _),
      (h c main_v177).trans (res_v177 _),
      (h c main_arg0).trans (arg_keep _ (by decide)),
      (h c main_arg1).trans (arg_keep _ (by decide)),
      (h c main_arg2).trans (arg_keep _ (by decide)),
      (h c main_arg3).trans (arg_keep _ (by decide)),
      (h c main_arg4).trans (arg_keep _ (by decide)),
      (h c main_arg5).trans (arg_keep _ (by decide)),
      (h c main_arg6).trans (arg_keep _ (by decide)),
      (h c main_arg7).trans (arg_keep _ (by decide)),
      (h c main_arg8).trans (arg_keep _ (by decide)),
      (h c main_arg9).trans (arg_keep _ (by decide)),
      (h c main_arg10).trans (arg_keep _ (by decide)),
      (h c main_arg11).trans (arg_keep _ (by decide)),
      (h c main_arg12).trans (arg_keep _ (by decide)),
      (h c main_arg13).trans (arg_keep _ (by decide)),
      (h c main_arg14).trans (arg_keep _ (by decide)),
      (h c main_arg15).trans (arg_keep _ (by decide)),
      (h c main_arg16).trans (arg_keep _ (by decide)),
      (h c main_arg17).trans (arg_keep _ (by decide)),
      (h c main_arg18).trans (arg_keep _ (by decide)),
      (h c main_arg19).trans (arg_keep _ (by decide)),
      (h c main_arg20).trans (arg_keep _ (by decide)),
      (h c main_arg21).trans (arg_keep _ (by decide)),
      (h c main_arg22).trans (arg_keep _ (by decide)),
      (h c main_arg23).trans (arg_keep _ (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/-
  The certificate: the kernel's program and the plain-jnp program compute the same three arrays — the edge scores and
  the two node embeddings of a two-layer graph network with gated recurrent updates — on extended reals, from any
  finite inputs.

  Both programs are read against one set of whole-array stages (Proof/Spec.lean). The plain program's run gives its
  three results as those stages composed (Proof/RefRun.lean). The kernel's program is five kernel regions among host
  stretches; its run names each result at the last boundary's contents (Proof/KRun.lean), each region's result array
  is a stage of its input arrays (Proof/Reg0 … Reg4.lean: the body's arithmetic index by index, the blocks assembled
  into the array), each host stretch is read from the contents it finds (Proof/KStretch.lean, KStretch1.lean), buffers
  no segment touches keep their contents (Proof/KKeep.lean), and the composition is Proof/KValue.lean. Two stages are
  arranged differently in the two programs: the first graph layer aggregates before it transforms — equal to
  transforming before aggregating because every entry involved is a real number (the inputs by the precondition, the
  edge coefficients always: Proof/Finite.lean; the law: Proof/Reorder.lean) —, and the edge scores multiply by the
  weight column in three parts (Proof/Head.lean: a sum over 272 terms split 128 + 128 + 16).
  The ideal pass rewrote nothing, so the idealization claim is trivial; the frames of the two kernel programs are the
  generated ones, the plain program's frame is its run with the results dropped.
-/
import proofs.«175486_j44117904065163_2_alg».proof.Defs
import proofs.«175486_j44117904065163_2_alg».proof.Proof.Gen.Kernel
import proofs.«175486_j44117904065163_2_alg».proof.Proof.Gen.Kernel.Frame
import proofs.«175486_j44117904065163_2_alg».proof.Proof.Gen.KernelIdeal
import proofs.«175486_j44117904065163_2_alg».proof.Proof.Gen.KernelIdeal.Frame
import proofs.«175486_j44117904065163_2_alg».proof.Proof.Gen.ReferenceIdeal
import proofs.«175486_j44117904065163_2_alg».proof.Proof.Gen.Pre_finite_inputs
import proofs.«175486_j44117904065163_2_alg».proof.Proof.KRun
import proofs.«175486_j44117904065163_2_alg».proof.Proof.KValue
import proofs.«175486_j44117904065163_2_alg».proof.Proof.RefRun
import proofs.«175486_j44117904065163_2_alg».proof.Proof.Finite

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame: its run, the three results dropped. -/
theorem frame_ri : Cert.frame_ReferenceIdeal := fun m ρ _ =>
  (θ_run Cert.ReferenceIdeal.defs _ _).mono (fun _ h c => (h c).2.2.2) (Cert.ReferenceIdeal.RefRun.run m ρ)

theorem preserves : Cert.preserves_Kernel_KernelIdeal := trivial

/-- Both programs, from memories agreeing on the arguments, end with the three stage terms of the kernel side's arguments. -/
theorem algebraic : Cert.algebraic_KernelIdeal_ReferenceIdeal := by
  intro m ρ m' ρ' hpre hagree
  refine ⟨fun c => Cert.Spec.scores (F := Ideal) (Cert.KernelIdeal.KValue.E2 m c)
      (Cert.KernelIdeal.KValue.A m c Cert.KernelIdeal.main_arg2) (Cert.KernelIdeal.KValue.A m c Cert.KernelIdeal.main_arg3)
      (Cert.KernelIdeal.KValue.A m c Cert.KernelIdeal.main_arg22) (Cert.KernelIdeal.KValue.A m c Cert.KernelIdeal.main_arg23),
    fun c => Cert.KernelIdeal.KValue.E1 m c, fun c => Cert.KernelIdeal.KValue.E2 m c, ?_, ?_⟩
  · refine (θ_run Cert.KernelIdeal.defs _ _).mono (fun r h c => ?_) (Cert.KernelIdeal.KRun.run_named (F := Ideal) m ρ)
    obtain ⟨r1, r2, r3, rest⟩ := h c
    obtain ⟨f0, f6, f7, f8, f9, f10⟩ := Cert.Finite.finite_of_pre _ _ _ _ _ _ _ _ _ _ _ _ _ _ _ _ _ _ _ _ _ _ _ _ (hpre c)
    obtain ⟨v1, v2, v3⟩ := Cert.KernelIdeal.KValue.values m ρ c f0 f6 f7 f8 f9 f10
    exact ⟨r1.trans v1, r2.trans v2, r3.trans v3, rest⟩
  · refine (θ_run Cert.ReferenceIdeal.defs _ _).mono (fun r h c => ?_) (Cert.ReferenceIdeal.RefRun.run m' ρ')
    obtain ⟨r1, r2, r3, rest⟩ := h c
    obtain ⟨g0, g1, g2, g3, g4, g5, g6, g7, g8, g9, g10, g11, g12, g13, g14, g15, g16, g17, g18, g19, g20, g21, g22, g23⟩ := hagree c
    refine ⟨r1.trans ?_, r2.trans ?_, r3.trans ?_, rest⟩
    · rw [g0, g1, g2, g3, g4, g5, g6, g7, g8, g9, g10, g11, g12, g13, g14, g15, g16, g17, g18, g19, g20, g21, g22, g23]; rfl
    · rw [g0, g1, g4, g6, g7, g8, g9, g10, g11, g14, g15, g16, g17]; rfl
    · rw [g0, g1, g4, g5, g6, g7, g8, g9, g10, g11, g12, g13, g14, g15, g16, g17, g18, g19, g20, g21]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
